-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v96)) (v1 : (c : Dev Cert.KernelIdeal.nD) → Buf (Elt Ideal) ((c.tc : Thread Cert.KernelIdeal.nD Cert.KernelIdeal.τ).loc Cert.KernelIdeal.main_v97)) (v2 : (c : Dev Cert.KernelIdeal.nD) → Buf (Elt Ideal) ((c.tc : Thread Cert.KernelIdeal.nD Cert.KernelIdeal.τ).loc Cert.KernelIdeal.main_v74)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v96) = v0 c
          ∧ r.2.mem ((c.tc : Thread Cert.KernelIdeal.nD Cert.KernelIdeal.τ).loc Cert.KernelIdeal.main_v97) = v1 c
          ∧ r.2.mem ((c.tc : Thread Cert.KernelIdeal.nD Cert.KernelIdeal.τ).loc Cert.KernelIdeal.main_v74) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v110) = v0 c
          ∧ r.2.mem ((c.tc : Thread Cert.ReferenceIdeal.nD Cert.ReferenceIdeal.τ).loc Cert.ReferenceIdeal.main_v134) = v1 c
          ∧ r.2.mem ((c.tc : Thread Cert.ReferenceIdeal.nD Cert.ReferenceIdeal.τ).loc Cert.ReferenceIdeal.main_v86) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S3x128x512 : Shape := ⟨3, ![3, 128, 512]⟩
abbrev S3x512 : Shape := ⟨2, ![3, 512]⟩
abbrev S3x512x128 : Shape := ⟨3, ![3, 512, 128]⟩
abbrev S3x128 : Shape := ⟨2, ![3, 128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S1600000 : Shape := ⟨1, ![1600000]⟩
abbrev S100000 : Shape := ⟨1, ![100000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S3x128x512 : S_.BroadcastsInDim S3x128x512 (![] : Fin 0 → Fin S3x128x512.rank)
  reducesTo_S3x128x512_S_d0_1_2 : S3x128x512.ReducesTo [0, 1, 2] S_
  bcast_S_S3x512 : S_.BroadcastsInDim S3x512 (![] : Fin 0 → Fin S3x512.rank)
  reducesTo_S3x512_S_d0_1 : S3x512.ReducesTo [0, 1] S_
  bcast_S_S3x512x128 : S_.BroadcastsInDim S3x512x128 (![] : Fin 0 → Fin S3x512x128.rank)
  reducesTo_S3x512x128_S_d0_1_2 : S3x512x128.ReducesTo [0, 1, 2] S_
  bcast_S_S3x128 : S_.BroadcastsInDim S3x128 (![] : Fin 0 → Fin S3x128.rank)
  reducesTo_S3x128_S_d0_1 : S3x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg7 : FVec F S64x1 .f32) (main_arg8 : FVec F S1 .f32) (main_v33 : IVec S_ 1) : IVec S_ 1 :=
  let main_v34 : FVec F S64x1 .f32 := Host.absf main_arg7
  let main_cst_12 : FVec F S_ .f32 := constant S_ .f32 0x7F800000#32
  let main_v35 : FVec F S64x1 .f32 := broadcastInDim S64x1 ![] bcast_S_S64x1 main_cst_12
  let main_v36 : IVec S64x1 1 := cmpf .olt main_v34 main_v35
  let main_c_13 : IVec S_ 1 := constantI S_ 1 1#1
  let main_v37 : IVec S_ 1 := (fun x v => Host.reduce IntOp.andi x v reducesTo_S64x1_S_d0_1 h_S_) main_v36 main_c_13
  let main_v38 : IVec S_ 1 := andi main_v33 main_v37
  let main_v39 : FVec F S1 .f32 := Host.absf main_arg8
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg4 : FVec F S3x128 .f32) (main_arg5 : FVec F S128x64 .f32) (main_arg6 : FVec F S64 .f32) (main_arg7 : FVec F S64x1 .f32) (main_arg8 : FVec F S1 .f32) (main_v13 : IVec S_ 1) (main_v16 : IVec S3x512x128 1) : IVec S_ 1 :=
  let main_c_5 : IVec S_ 1 := constantI S_ 1 1#1
  let main_v17 : IVec S_ 1 := (fun x v => Host.reduce IntOp.andi x v reducesTo_S3x512x128_S_d0_1_2 h_S_) main_v16 main_c_5
  let main_v18 : IVec S_ 1 := andi main_v13 main_v17
  let main_v19 : FVec F S3x128 .f32 := Host.absf main_arg4
  let main_cst_6 : FVec F S_ .f32 := constant S_ .f32 0x7F800000#32
  let main_v20 : FVec F S3x128 .f32 := broadcastInDim S3x128 ![] bcast_S_S3x128 main_cst_6
  let main_v21 : IVec S3x128 1 := cmpf .olt main_v19 main_v20
  let main_c_7 : IVec S_ 1 := constantI S_ 1 1#1
  let main_v22 : IVec S_ 1 := (fun x v => Host.reduce IntOp.andi x v reducesTo_S3x128_S_d0_1 h_S_) main_v21 main_c_7
  let main_v23 : IVec S_ 1 := andi main_v18 main_v22
  let main_v24 : FVec F S128x64 .f32 := Host.absf main_arg5
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_arg8 main_v33

def fn {F : FTy → Type} [FloatOps F] (main_arg0 : FVec F S100000x128 .f32) (main_arg1 : FVec F S3x128x512 .f32) (main_arg2 : FVec F S3x512 .f32) (main_arg3 : FVec F S3x512x128 .f32) (main_arg4 : FVec F S3x128 .f32) (main_arg5 : FVec F S128x64 .f32) (main_arg6 : FVec F S64 .f32) (main_arg7 : FVec F S64x1 .f32) (main_arg8 : FVec F S1 .f32) (main_arg9 : IVec S1600000 32) (main_arg10 : IVec S1600000 32) (main_arg11 : IVec S100000 32) (main_arg12 : IVec S100000 32) (main_arg13 : IVec S100000 32) (main_arg14 : IVec S100000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S3x128x512 .f32 := Host.absf main_arg1
  let main_cst_0 : FVec F S_ .f32 := constant S_ .f32 0x7F800000#32
  let main_v5 : FVec F S3x128x512 .f32 := broadcastInDim S3x128x512 ![] bcast_S_S3x128x512 main_cst_0
  let main_v6 : IVec S3x128x512 1 := cmpf .olt main_v4 main_v5
  let main_c_1 : IVec S_ 1 := constantI S_ 1 1#1
  let main_v7 : IVec S_ 1 := (fun x v => Host.reduce IntOp.andi x v reducesTo_S3x128x512_S_d0_1_2 h_S_) main_v6 main_c_1
  let main_v8 : IVec S_ 1 := andi main_v3 main_v7
  let main_v9 : FVec F S3x512 .f32 := Host.absf main_arg2
  let main_cst_2 : FVec F S_ .f32 := constant S_ .f32 0x7F800000#32
  let main_v10 : FVec F S3x512 .f32 := broadcastInDim S3x512 ![] bcast_S_S3x512 main_cst_2
  let main_v11 : IVec S3x512 1 := cmpf .olt main_v9 main_v10
  let main_c_3 : IVec S_ 1 := constantI S_ 1 1#1
  let main_v12 : IVec S_ 1 := (fun x v => Host.reduce IntOp.andi x v reducesTo_S3x512_S_d0_1 h_S_) main_v11 main_c_3
  let main_v13 : IVec S_ 1 := andi main_v8 main_v12
  let main_v14 : FVec F S3x512x128 .f32 := Host.absf main_arg3
  let main_cst_4 : FVec F S_ .f32 := constant S_ .f32 0x7F800000#32
  let main_v15 : FVec F S3x512x128 .f32 := broadcastInDim S3x512x128 ![] bcast_S_S3x512x128 main_cst_4
  let main_v16 : IVec S3x512x128 1 := cmpf .olt main_v14 main_v15
  fn_part1 (F := F) main_arg4 main_arg5 main_arg6 main_arg7 main_arg8 main_v13 main_v16
-- ==== Kernel.lean ====
abbrev S100000x128 : Shape := ⟨2, ![100000, 128]⟩
abbrev S3x128x512 : Shape := ⟨3, ![3, 128, 512]⟩
abbrev S3x512 : Shape := ⟨2, ![3, 512]⟩
abbrev S3x512x128 : Shape := ⟨3, ![3, 512, 128]⟩
abbrev S3x128 : Shape := ⟨2, ![3, 128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S1600000 : Shape := ⟨1, ![1600000]⟩
abbrev S100000 : Shape := ⟨1, ![100000]⟩
abbrev S_ : Shape := ⟨0, ![]⟩
abbrev S1600000x1 : Shape := ⟨2, ![1600000, 1]⟩
abbrev S1600000x128 : Shape := ⟨2, ![1600000, 128]⟩
abbrev S1x128x512 : Shape := ⟨3, ![1, 128, 512]⟩
abbrev S128x512 : Shape := ⟨2, ![128, 512]⟩
abbrev S1x512 : Shape := ⟨2, ![1, 512]⟩
abbrev S512 : Shape := ⟨1, ![512]⟩
abbrev S1x512x128 : Shape := ⟨3, ![1, 512, 128]⟩
abbrev S512x128 : Shape := ⟨2, ![512, 128]⟩
abbrev S1x128 : Shape := ⟨2, ![1, 128]⟩
abbrev S128 : Shape := ⟨1, ![128]⟩
abbrev S4000x128 : Shape := ⟨2, ![4000, 128]⟩
abbrev S4000x512 : Shape := ⟨2, ![4000, 512]⟩
abbrev S200000 : Shape := ⟨1, ![200000]⟩
abbrev S200000x1 : Shape := ⟨2, ![200000, 1]⟩
abbrev S200000x128 : Shape := ⟨2, ![200000, 128]⟩
abbrev S1x64 : Shape := ⟨2, ![1, 64]⟩
abbrev S1x1 : Shape := ⟨2, ![1, 1]⟩
abbrev S4000x1 : Shape := ⟨2, ![4000, 1]⟩
abbrev S4000x64 : Shape := ⟨2, ![4000, 64]⟩
abbrev S4000 : Shape := ⟨1, ![4000]⟩
abbrev S100000x1 : Shape := ⟨2, ![100000, 1]⟩

abbrev nBuf : Space → Nat
  | .hbm => 126
  | .vmem => 40
  | .smem => 0
  | _ => 0

abbrev bufTy : (tb : Table) → Fin (tcTables nBuf tb) → BufTy
  | .hbm, ⟨0, _⟩ => ⟨S100000x128, .f32⟩
  | .hbm, ⟨1, _⟩ => ⟨S3x128x512, .f32⟩
  | .hbm, ⟨2, _⟩ => ⟨S3x512, .f32⟩
  | .hbm, ⟨3, _⟩ => ⟨S3x512x128, .f32⟩
  | .hbm, ⟨4, _⟩ => ⟨S3x128, .f32⟩
  | .hbm, ⟨5, _⟩ => ⟨S128x64, .f32⟩
  | .hbm, ⟨6, _⟩ => ⟨S64, .f32⟩
  | .hbm, ⟨7, _⟩ => ⟨S64x1, .f32⟩
  | .hbm, ⟨8, _⟩ => ⟨S1, .f32⟩
  | .hbm, ⟨9, _⟩ => ⟨S1600000, .i32⟩
  | .hbm, ⟨10, _⟩ => ⟨S1600000, .i32⟩
  | .hbm, ⟨11, _⟩ => ⟨S100000, .i32⟩
  | .hbm, ⟨12, _⟩ => ⟨S100000, .i32⟩
  | .hbm, ⟨13, _⟩ => ⟨S100000, .i32⟩
  | .hbm, ⟨14, _⟩ => ⟨S100000, .i32⟩
  | .hbm, ⟨15, _⟩ => ⟨S100000x128, .bf16⟩
  | .hbm, ⟨16, _⟩ => ⟨S_, .i32⟩
  | .hbm, ⟨17, _⟩ => ⟨S1600000, .i32⟩
  | .hbm, ⟨18, _⟩ => ⟨S1600000, .i1⟩
  | .hbm, ⟨19, _⟩ => ⟨S_, .i32⟩
  | .hbm, ⟨20, _⟩ => ⟨S1600000, .i32⟩
  | .hbm, ⟨21, _⟩ => ⟨S1600000, .i32⟩
  | .hbm, ⟨22, _⟩ => ⟨S1600000, .i32⟩
  | .hbm, ⟨23, _⟩ => ⟨S1600000x1, .i32⟩
  | .hbm, ⟨24, _⟩ => ⟨S1600000x128, .bf16⟩
  | .hbm, ⟨25, _⟩ => ⟨S1600000x128, .f32⟩
  | .hbm, ⟨26, _⟩ => ⟨S_, .f32⟩
  | .hbm, ⟨27, _⟩ => ⟨S100000x128, .f32⟩
  | .hbm, ⟨28, _⟩ => ⟨S1600000x1, .i32⟩
  | .hbm, ⟨29, _⟩ => ⟨S100000x128, .f32⟩
  | .hbm, ⟨30, _⟩ => ⟨S1x128x512, .f32⟩
  | .hbm, ⟨31, _⟩ => ⟨S128x512, .f32⟩
  | .hbm, ⟨32, _⟩ => ⟨S1x512, .f32⟩
  | .hbm, ⟨33, _⟩ => ⟨S512, .f32⟩
  | .hbm, ⟨34, _⟩ => ⟨S1x512x128, .f32⟩
  | .hbm, ⟨35, _⟩ => ⟨S512x128, .f32⟩
  | .hbm, ⟨36, _⟩ => ⟨S1x128, .f32⟩
  | .hbm, ⟨37, _⟩ => ⟨S128, .f32⟩
  | .hbm, ⟨38, _⟩ => ⟨S1x512, .f32⟩
  | .hbm, ⟨39, _⟩ => ⟨S1x128, .f32⟩
  | .hbm, ⟨40, _⟩ => ⟨S128x512, .bf16⟩
  | .hbm, ⟨41, _⟩ => ⟨S512x128, .bf16⟩
  | .hbm, ⟨42, _⟩ => ⟨S100000x128, .f32⟩
  | .hbm, ⟨43, _⟩ => ⟨S100000x128, .bf16⟩
  | .hbm, ⟨44, _⟩ => ⟨S_, .i32⟩
  | .hbm, ⟨45, _⟩ => ⟨S1600000, .i32⟩
  | .hbm, ⟨46, _⟩ => ⟨S1600000, .i1⟩
  | .hbm, ⟨47, _⟩ => ⟨S_, .i32⟩
  | .hbm, ⟨48, _⟩ => ⟨S1600000, .i32⟩
  | .hbm, ⟨49, _⟩ => ⟨S1600000, .i32⟩
  | .hbm, ⟨50, _⟩ => ⟨S1600000, .i32⟩
  | .hbm, ⟨51, _⟩ => ⟨S1600000x1, .i32⟩
  | .hbm, ⟨52, _⟩ => ⟨S1600000x128, .bf16⟩
  | .hbm, ⟨53, _⟩ => ⟨S1600000x128, .f32⟩
  | .hbm, ⟨54, _⟩ => ⟨S_, .f32⟩
  | .hbm, ⟨55, _⟩ => ⟨S100000x128, .f32⟩
  | .hbm, ⟨56, _⟩ => ⟨S1600000x1, .i32⟩
  | .hbm, ⟨57, _⟩ => ⟨S100000x128, .f32⟩
  | .hbm, ⟨58, _⟩ => ⟨S1x128x512, .f32⟩
  | .hbm, ⟨59, _⟩ => ⟨S128x512, .f32⟩
  | .hbm, ⟨60, _⟩ => ⟨S1x512, .f32⟩
  | .hbm, ⟨61, _⟩ => ⟨S512, .f32⟩
  | .hbm, ⟨62, _⟩ => ⟨S1x512x128, .f32⟩
  | .hbm, ⟨63, _⟩ => ⟨S512x128, .f32⟩
  | .hbm, ⟨64, _⟩ => ⟨S1x128, .f32⟩
  | .hbm, ⟨65, _⟩ => ⟨S128, .f32⟩
  | .hbm, ⟨66, _⟩ => ⟨S1x512, .f32⟩
  | .hbm, ⟨67, _⟩ => ⟨S1x128, .f32⟩
  | .hbm, ⟨68, _⟩ => ⟨S128x512, .bf16⟩
  | .hbm, ⟨69, _⟩ => ⟨S512x128, .bf16⟩
  | .hbm, ⟨70, _⟩ => ⟨S100000x128, .f32⟩
  | .hbm, ⟨71, _⟩ => ⟨S100000x128, .bf16⟩
  | .hbm, ⟨72, _⟩ => ⟨S_, .i32⟩
  | .hbm, ⟨73, _⟩ => ⟨S1600000, .i32⟩
  | .hbm, ⟨74, _⟩ => ⟨S1600000, .i1⟩
  | .hbm, ⟨75, _⟩ => ⟨S_, .i32⟩
  | .hbm, ⟨76, _⟩ => ⟨S1600000, .i32⟩
  | .hbm, ⟨77, _⟩ => ⟨S1600000, .i32⟩
  | .hbm, ⟨78, _⟩ => ⟨S1600000, .i32⟩
  | .hbm, ⟨79, _⟩ => ⟨S1600000x1, .i32⟩
  | .hbm, ⟨80, _⟩ => ⟨S1600000x128, .bf16⟩
  | .hbm, ⟨81, _⟩ => ⟨S1600000x128, .f32⟩
  | .hbm, ⟨82, _⟩ => ⟨S_, .f32⟩
  | .hbm, ⟨83, _⟩ => ⟨S100000x128, .f32⟩
  | .hbm, ⟨84, _⟩ => ⟨S1600000x1, .i32⟩
  | .hbm, ⟨85, _⟩ => ⟨S100000x128, .f32⟩
  | .hbm, ⟨86, _⟩ => ⟨S1x128x512, .f32⟩
  | .hbm, ⟨87, _⟩ => ⟨S128x512, .f32⟩
  | .hbm, ⟨88, _⟩ => ⟨S1x512, .f32⟩
  | .hbm, ⟨89, _⟩ => ⟨S512, .f32⟩
  | .hbm, ⟨90, _⟩ => ⟨S1x512x128, .f32⟩
  | .hbm, ⟨91, _⟩ => ⟨S512x128, .f32⟩
  | .hbm, ⟨92, _⟩ => ⟨S1x128, .f32⟩
  | .hbm, ⟨93, _⟩ => ⟨S128, .f32⟩
  | .hbm, ⟨94, _⟩ => ⟨S1x512, .f32⟩
  | .hbm, ⟨95, _⟩ => ⟨S1x128, .f32⟩
  | .hbm, ⟨96, _⟩ => ⟨S128x512, .bf16⟩
  | .hbm, ⟨97, _⟩ => ⟨S512x128, .bf16⟩
  | .hbm, ⟨98, _⟩ => ⟨S100000x128, .f32⟩
  | .hbm, ⟨99, _⟩ => ⟨S200000, .i32⟩
  | .hbm, ⟨100, _⟩ => ⟨S200000, .i32⟩
  | .hbm, ⟨101, _⟩ => ⟨S_, .i32⟩
  | .hbm, ⟨102, _⟩ => ⟨S200000, .i32⟩
  | .hbm, ⟨103, _⟩ => ⟨S200000, .i1⟩
  | .hbm, ⟨104, _⟩ => ⟨S_, .i32⟩
  | .hbm, ⟨105, _⟩ => ⟨S200000, .i32⟩
  | .hbm, ⟨106, _⟩ => ⟨S200000, .i32⟩
  | .hbm, ⟨107, _⟩ => ⟨S200000, .i32⟩
  | .hbm, ⟨108, _⟩ => ⟨S200000x1, .i32⟩
  | .hbm, ⟨109, _⟩ => ⟨S200000x128, .f32⟩
  | .hbm, ⟨110, _⟩ => ⟨S_, .i32⟩
  | .hbm, ⟨111, _⟩ => ⟨S200000, .i32⟩
  | .hbm, ⟨112, _⟩ => ⟨S200000, .i1⟩
  | .hbm, ⟨113, _⟩ => ⟨S_, .i32⟩
  | .hbm, ⟨114, _⟩ => ⟨S200000, .i32⟩
  | .hbm, ⟨115, _⟩ => ⟨S200000, .i32⟩
  | .hbm, ⟨116, _⟩ => ⟨S200000, .i32⟩
  | .hbm, ⟨117, _⟩ => ⟨S200000x1, .i32⟩
  | .hbm, ⟨118, _⟩ => ⟨S200000x128, .f32⟩
  | .hbm, ⟨119, _⟩ => ⟨S1x64, .f32⟩
  | .hbm, ⟨120, _⟩ => ⟨S1x1, .f32⟩
  | .hbm, ⟨121, _⟩ => ⟨S128x64, .bf16⟩
  | .hbm, ⟨122, _⟩ => ⟨S1x64, .f32⟩
  | .hbm, ⟨123, _⟩ => ⟨S200000x1, .f32⟩
  | .hbm, ⟨124, _⟩ => ⟨S100000x1, .f32⟩
  | .hbm, ⟨125, _⟩ => ⟨S100000x1, .f32⟩
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S128x512, .bf16⟩
  | .local _ .vmem, ⟨5, _⟩ => ⟨S1x512, .f32⟩
  | .local _ .vmem, ⟨6, _⟩ => ⟨S512x128, .bf16⟩
  | .local _ .vmem, ⟨7, _⟩ => ⟨S1x128, .f32⟩
  | .local _ .vmem, ⟨8, _⟩ => ⟨S4000x128, .f32⟩
  | .local _ .vmem, ⟨9, _⟩ => ⟨S4000x128, .f32⟩
  | .local _ .vmem, ⟨10, _⟩ => ⟨S4000x128, .f32⟩
  | .local _ .vmem, ⟨11, _⟩ => ⟨S4000x128, .f32⟩
  | .local _ .vmem, ⟨12, _⟩ => ⟨S4000x128, .f32⟩
  | .local _ .vmem, ⟨13, _⟩ => ⟨S4000x128, .f32⟩
  | .local _ .vmem, ⟨14, _⟩ => ⟨S128x512, .bf16⟩
  | .local _ .vmem, ⟨15, _⟩ => ⟨S1x512, .f32⟩
  | .local _ .vmem, ⟨16, _⟩ => ⟨S512x128, .bf16⟩
  | .local _ .vmem, ⟨17, _⟩ => ⟨S1x128, .f32⟩
  | .local _ .vmem, ⟨18, _⟩ => ⟨S4000x128, .f32⟩
  | .local _ .vmem, ⟨19, _⟩ => ⟨S4000x128, .f32⟩
  | .local _ .vmem, ⟨20, _⟩ => ⟨S4000x128, .f32⟩
  | .local _ .vmem, ⟨21, _⟩ => ⟨S4000x128, .f32⟩
  | .local _ .vmem, ⟨22, _⟩ => ⟨S4000x128, .f32⟩
  | .local _ .vmem, ⟨23, _⟩ => ⟨S4000x128, .f32⟩
  | .local _ .vmem, ⟨24, _⟩ => ⟨S128x512, .bf16⟩
  | .local _ .vmem, ⟨25, _⟩ => ⟨S1x512, .f32⟩
  | .local _ .vmem, ⟨26, _⟩ => ⟨S512x128, .bf16⟩
  | .local _ .vmem, ⟨27, _⟩ => ⟨S1x128, .f32⟩
  | .local _ .vmem, ⟨28, _⟩ => ⟨S4000x128, .f32⟩
  | .local _ .vmem, ⟨29, _⟩ => ⟨S4000x128, .f32⟩
  | .local _ .vmem, ⟨30, _⟩ => ⟨S4000x128, .f32⟩
  | .local _ .vmem, ⟨31, _⟩ => ⟨S4000x128, .f32⟩
  | .local _ .vmem, ⟨32, _⟩ => ⟨S4000x128, .f32⟩
  | .local _ .vmem, ⟨33, _⟩ => ⟨S4000x128, .f32⟩
  | .local _ .vmem, ⟨34, _⟩ => ⟨S128x64, .bf16⟩
  | .local _ .vmem, ⟨35, _⟩ => ⟨S1x64, .f32⟩
  | .local _ .vmem, ⟨36, _⟩ => ⟨S1x64, .f32⟩
  | .local _ .vmem, ⟨37, _⟩ => ⟨S1x1, .f32⟩
  | .local _ .vmem, ⟨38, _⟩ => ⟨S4000x1, .f32⟩
  | .local _ .vmem, ⟨39, _⟩ => ⟨S4000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_c : Ref sig .tc := ⟨.hbm, 16, rfl⟩
abbrev main_v1 : Ref sig .tc := ⟨.hbm, 17, rfl⟩
abbrev main_v2 : Ref sig .tc := ⟨.hbm, 18, rfl⟩
abbrev main_c_0 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_cst : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_c_1 : Ref sig .tc := ⟨.hbm, 44, rfl⟩
abbrev main_v26 : Ref sig .tc := ⟨.hbm, 45, rfl⟩
abbrev main_v27 : Ref sig .tc := ⟨.hbm, 46, rfl⟩
abbrev main_c_2 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_3 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_c_4 : Ref sig .tc := ⟨.hbm, 72, rfl⟩
abbrev main_v51 : Ref sig .tc := ⟨.hbm, 73, rfl⟩
abbrev main_v52 : Ref sig .tc := ⟨.hbm, 74, rfl⟩
abbrev main_c_5 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_6 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_c_7 : Ref sig .tc := ⟨.hbm, 101, rfl⟩
abbrev main_v77 : Ref sig .tc := ⟨.hbm, 102, rfl⟩
abbrev main_v78 : Ref sig .tc := ⟨.hbm, 103, rfl⟩
abbrev main_c_8 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_c_9 : Ref sig .tc := ⟨.hbm, 110, rfl⟩
abbrev main_v84 : Ref sig .tc := ⟨.hbm, 111, rfl⟩
abbrev main_v85 : Ref sig .tc := ⟨.hbm, 112, rfl⟩
abbrev main_c_10 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg6_0 : Ref sig .tc := ⟨.vmem, 28, rfl⟩
abbrev cc2_stg6_1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg1_1 : Ref sig .tc := ⟨.vmem, 33, rfl⟩
abbrev cc3_stg2_0 : Ref sig .tc := ⟨.vmem, 34, rfl⟩
abbrev cc3_stg3_0 : Ref sig .tc := ⟨.vmem, 35, rfl⟩
abbrev cc3_stg4_0 : Ref sig .tc := ⟨.vmem, 36, rfl⟩
abbrev cc3_stg5_0 : Ref sig .tc := ⟨.vmem, 37, rfl⟩
abbrev cc3_stg6_0 : Ref sig .tc := ⟨.vmem, 38, rfl⟩
abbrev cc3_stg6_1 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem6_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem3_0 : DmaSem sig := 25
abbrev cc2_sem4_0 : DmaSem sig := 26
abbrev cc2_sem5_0 : DmaSem sig := 27
abbrev cc2_sem6_0 : DmaSem sig := 28
abbrev cc2_sem6_1 : DmaSem sig := 29
abbrev cc3_sem0_0 : DmaSem sig := 30
abbrev cc3_sem0_1 : DmaSem sig := 31
abbrev cc3_sem1_0 : DmaSem sig := 32
abbrev cc3_sem1_1 : DmaSem sig := 33
abbrev cc3_sem2_0 : DmaSem sig := 34
abbrev cc3_sem3_0 : DmaSem sig := 35
abbrev cc3_sem4_0 : DmaSem sig := 36
abbrev cc3_sem5_0 : DmaSem sig := 37
abbrev cc3_sem6_0 : DmaSem sig := 38
abbrev cc3_sem6_1 : DmaSem sig := 39

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x512 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S512x128 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S4000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x512 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x512 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S512x128 .bf16 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S4000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S4000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x64 .bf16 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x1 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S4000x1 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

class Facts₀ : Prop where
  bitsLt_bf16_f32 : FTy.bits .bf16 < FTy.bits .f32
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  slices_S3x128x512_S1x128x512_0_0_0 : S3x128x512.Slices ![0, 0, 0] S1x128x512
  shapeCasts_S1x128x512_S128x512 : S1x128x512.ShapeCasts S128x512
  slices_S3x512_S1x512_0_0 : S3x512.Slices ![0, 0] S1x512
  shapeCasts_S1x512_S512 : S1x512.ShapeCasts S512
  slices_S3x512x128_S1x512x128_0_0_0 : S3x512x128.Slices ![0, 0, 0] S1x512x128
  shapeCasts_S1x512x128_S512x128 : S1x512x128.ShapeCasts S512x128
  slices_S3x128_S1x128_0_0 : S3x128.Slices ![0, 0] S1x128
  shapeCasts_S1x128_S128 : S1x128.ShapeCasts S128
  shapeCasts_S512_S1x512 : S512.ShapeCasts S1x512
  shapeCasts_S128_S1x128 : S128.ShapeCasts S1x128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S128x512_S128x512_0_0 : ∀ a, (![0, 0] : Fin 2 → Nat) a + S128x512.size a ≤ S128x512.size a
  h_S128x512 : 0 < S128x512.numel
  shapeCasts_S128x512_S128x512 : S128x512.ShapeCasts S128x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S4000x512 : S1x512.Broadcasts S4000x512
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  slices_S3x128x512_S1x128x512_1_0_0 : S3x128x512.Slices ![1, 0, 0] S1x128x512
  slices_S3x512_S1x512_1_0 : S3x512.Slices ![1, 0] S1x512
  slices_S3x512x128_S1x512x128_1_0_0 : S3x512x128.Slices ![1, 0, 0] S1x512x128
  slices_S3x128_S1x128_1_0 : S3x128.Slices ![1, 0] S1x128
  slices_S3x128x512_S1x128x512_2_0_0 : S3x128x512.Slices ![2, 0, 0] S1x128x512
  slices_S3x512_S1x512_2_0 : S3x512.Slices ![2, 0] S1x512
  slices_S3x512x128_S1x512x128_2_0_0 : S3x512x128.Slices ![2, 0, 0] S1x512x128
  slices_S3x128_S1x128_2_0 : S3x128.Slices ![2, 0] S1x128
  concatenates_S100000_S100000_S200000_d0 : Shape.Concatenates [S100000, S100000] S200000 0
  bcast_S_S200000 : S_.BroadcastsInDim S200000 (![] : Fin 0 → Fin S200000.rank)
  bcast_S200000_S200000x1_0 : S200000.BroadcastsInDim S200000x1 (![0] : Fin 1 → Fin S200000x1.rank)
  shapeCasts_S64_S1x64 : S64.ShapeCasts S1x64
  shapeCasts_S1_S1x1 : S1.ShapeCasts S1x1
  shapeCasts_S64x1_S1x64 : S64x1.ShapeCasts S1x64
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4000x64 : S1x64.Broadcasts S4000x64
  reduces_S4000x64_S4000 : S4000x64.Reduces [1] S4000
  shapeCasts_S4000_S4000x1 : S4000.ShapeCasts S4000x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S4000x1 : S1x1.Broadcasts S4000x1
  inb_S4000x1_S4000x1_0_0 : ∀ a, (![0, 0] : Fin 2 → Nat) a + S4000x1.size a ≤ S4000x1.size a
  h_S4000x1 : 0 < S4000x1.numel
  slices_S200000x1_S100000x1_0_0 : S200000x1.Slices ![0, 0] S100000x1
  slices_S200000x1_S100000x1_100000_0 : S200000x1.Slices ![100000, 0] S100000x1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S4000x128_S128x512_S4000x512_1_0_0_1_n_n_wf : DotDims.WF S4000x128 S128x512 S4000x512 [1] [0] [0] [1] [] []
  dot_S4000x512_S512x128_S4000x128_1_0_0_1_n_n_wf : DotDims.WF S4000x512 S512x128 S4000x128 [1] [0] [0] [1] [] []
  gather_S100000x128_S200000x1_S200000x128_1_0_n_n_0_1_1128_wf : GatherDims.WF S100000x128 S200000x1 S200000x128 [1] [0] [] [0] [] 1 ![1, 128]
  dot_S4000x128_S128x64_S4000x64_1_0_0_1_n_n_wf : DotDims.WF S4000x128 S128x64 S4000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S100000x128.size a
  hwx0_1 : ∀ i : grid0.Coords, EltTy.bits .f32 = 32 ∨ (Rect.block (s := S100000x128) S4000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x512.size a ≤ S128x512.size a
  hwx0_2 : ∀ i : grid0.Coords, EltTy.bits .bf16 = 32 ∨ (Rect.block (s := S128x512) S128x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x512.size a
  hwx0_3 : ∀ i : grid0.Coords, EltTy.bits .f32 = 32 ∨ (Rect.block (s := S1x512) S1x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x128.size a ≤ S512x128.size a
  hwx0_4 : ∀ i : grid0.Coords, EltTy.bits .bf16 = 32 ∨ (Rect.block (s := S512x128) S512x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4000x128.size a ≤ S100000x128.size a
  hwx0_6 : ∀ i : grid0.Coords, EltTy.bits .f32 = 32 ∨ (Rect.block (s := S100000x128) S4000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S100000x128.size a
  hwx1_1 : ∀ i : grid1.Coords, EltTy.bits .f32 = 32 ∨ (Rect.block (s := S100000x128) S4000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x512.size a ≤ S128x512.size a
  hwx1_2 : ∀ i : grid1.Coords, EltTy.bits .bf16 = 32 ∨ (Rect.block (s := S128x512) S128x512.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x512.size a ≤ S1x512.size a
  hwx1_3 : ∀ i : grid1.Coords, EltTy.bits .f32 = 32 ∨ (Rect.block (s := S1x512) S1x512.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S512x128.size a ≤ S512x128.size a
  hwx1_4 : ∀ i : grid1.Coords, EltTy.bits .bf16 = 32 ∨ (Rect.block (s := S512x128) S512x128.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S4000x128.size a ≤ S100000x128.size a
  hwx1_6 : ∀ i : grid1.Coords, EltTy.bits .f32 = 32 ∨ (Rect.block (s := S100000x128) S4000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S100000x128.size a
  hwx2_0 : ∀ i : grid2.Coords, EltTy.bits .f32 = 32 ∨ (Rect.block (s := S100000x128) S4000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x128.size a ≤ S100000x128.size a
  hwx2_1 : ∀ i : grid2.Coords, EltTy.bits .f32 = 32 ∨ (Rect.block (s := S100000x128) S4000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x512.size a ≤ S128x512.size a
  hwx2_2 : ∀ i : grid2.Coords, EltTy.bits .bf16 = 32 ∨ (Rect.block (s := S128x512) S128x512.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x512.size a ≤ S1x512.size a
  hwx2_3 : ∀ i : grid2.Coords, EltTy.bits .f32 = 32 ∨ (Rect.block (s := S1x512) S1x512.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S512x128.size a ≤ S512x128.size a
  hwx2_4 : ∀ i : grid2.Coords, EltTy.bits .bf16 = 32 ∨ (Rect.block (s := S512x128) S512x128.size (cc2_transform_4 i) (hinb2_4 i)).WholeWords (EltTy.packing .bf16)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S4000x128.size a ≤ S100000x128.size a
  hwx2_6 : ∀ i : grid2.Coords, EltTy.bits .f32 = 32 ∨ (Rect.block (s := S100000x128) S4000x128.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x128.size a ≤ S200000x128.size a
  hwx3_0 : ∀ i : grid3.Coords, EltTy.bits .f32 = 32 ∨ (Rect.block (s := S200000x128) S4000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S4000x128.size a ≤ S200000x128.size a
  hwx3_1 : ∀ i : grid3.Coords, EltTy.bits .f32 = 32 ∨ (Rect.block (s := S200000x128) S4000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x64.size a ≤ S128x64.size a
  hwx3_2 : ∀ i : grid3.Coords, EltTy.bits .bf16 = 32 ∨ (Rect.block (s := S128x64) S128x64.size (cc3_transform_2 i) (hinb3_2 i)).WholeWords (EltTy.packing .bf16)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x1.size a ≤ S1x1.size a
  hwx3_5 : ∀ i : grid3.Coords, EltTy.bits .f32 = 32 ∨ (Rect.block (s := S1x1) S1x1.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S4000x1.size a ≤ S200000x1.size a
  hwx3_6 : ∀ i : grid3.Coords, EltTy.bits .f32 = 32 ∨ (Rect.block (s := S200000x1) S4000x1.size (cc3_transform_6 i) (hinb3_6 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S4000x128_S128x512_S4000x512_1_0_0_1_n_n : DotDims S4000x128 S128x512 S4000x512 where
  lhsContracting := [1]
  rhsContracting := [0]
  lhsNonContracting := [0]
  rhsNonContracting := [1]
  lhsBatch := []
  rhsBatch := []
  wf := dot_S4000x128_S128x512_S4000x512_1_0_0_1_n_n_wf
def dot_S4000x512_S512x128_S4000x128_1_0_0_1_n_n : DotDims S4000x512 S512x128 S4000x128 where
  lhsContracting := [1]
  rhsContracting := [0]
  lhsNonContracting := [0]
  rhsNonContracting := [1]
  lhsBatch := []
  rhsBatch := []
  wf := dot_S4000x512_S512x128_S4000x128_1_0_0_1_n_n_wf
def gather_S100000x128_S200000x1_S200000x128_1_0_n_n_0_1_1128 : GatherDims S100000x128 S200000x1 S200000x128 where
  offsetDims := [1]
  collapsedSliceDims := [0]
  operandBatchingDims := []
  startIndicesBatchingDims := []
  startIndexMap := [0]
  indexVectorDim := 1
  sliceSizes := ![1, 128]
  wf := gather_S100000x128_S200000x1_S200000x128_1_0_n_n_0_1_1128_wf
def dot_S4000x128_S128x64_S4000x64_1_0_0_1_n_n : DotDims S4000x128 S128x64 S4000x64 where
  lhsContracting := [1]
  rhsContracting := [0]
  lhsNonContracting := [0]
  rhsNonContracting := [1]
  lhsBatch := []
  rhsBatch := []
  wf := dot_S4000x128_S128x64_S4000x64_1_0_0_1_n_n_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v22) S128x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v20) S1x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23) S512x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v21) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v24) S4000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v24) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v36) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v47) S128x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S1x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v48) S512x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v46) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v49) S4000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v49) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v61) S4000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v72) S128x512.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v70) S1x512.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v73) S512x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v71) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v74) S4000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v83) S4000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v90) S4000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v93) S128x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v91) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v94) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v92) S1x1.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v95) S4000x1.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

class Facts : Prop extends Facts₀ where

variable [Facts]
-- ==== ReferenceIdeal.lean ====
abbrev S100000x128 : Shape := ⟨2, ![100000, 128]⟩
abbrev S3x128x512 : Shape := ⟨3, ![3, 128, 512]⟩
abbrev S3x512 : Shape := ⟨2, ![3, 512]⟩
abbrev S3x512x128 : Shape := ⟨3, ![3, 512, 128]⟩
abbrev S3x128 : Shape := ⟨2, ![3, 128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S1600000 : Shape := ⟨1, ![1600000]⟩
abbrev S100000 : Shape := ⟨1, ![100000]⟩
abbrev S_ : Shape := ⟨0, ![]⟩
abbrev S1600000x1 : Shape := ⟨2, ![1600000, 1]⟩
abbrev S1600000x128 : Shape := ⟨2, ![1600000, 128]⟩
abbrev S1x128x512 : Shape := ⟨3, ![1, 128, 512]⟩
abbrev S128x512 : Shape := ⟨2, ![128, 512]⟩
abbrev S100000x512 : Shape := ⟨2, ![100000, 512]⟩
abbrev S1x512 : Shape := ⟨2, ![1, 512]⟩
abbrev S512 : Shape := ⟨1, ![512]⟩
abbrev S1x512x128 : Shape := ⟨3, ![1, 512, 128]⟩
abbrev S512x128 : Shape := ⟨2, ![512, 128]⟩
abbrev S1x128 : Shape := ⟨2, ![1, 128]⟩
abbrev S128 : Shape := ⟨1, ![128]⟩
abbrev S100000x1 : Shape := ⟨2, ![100000, 1]⟩
abbrev S100000x64 : Shape := ⟨2, ![100000, 64]⟩
abbrev S1x64 : Shape := ⟨2, ![1, 64]⟩
abbrev S1x1 : Shape := ⟨2, ![1, 1]⟩

abbrev nBuf : Space → Nat
  | .hbm => 183
  | .vmem => 0
  | .smem => 0
  | _ => 0

abbrev hbmTy0_0 (i : Nat) : BufTy := match i % 128 with
  | 0 => ⟨S100000x128, .f32⟩
  | 1 => ⟨S3x128x512, .f32⟩
  | 2 => ⟨S3x512, .f32⟩
  | 3 => ⟨S3x512x128, .f32⟩
  | 4 => ⟨S3x128, .f32⟩
  | 5 => ⟨S128x64, .f32⟩
  | 6 => ⟨S64, .f32⟩
  | 7 => ⟨S64x1, .f32⟩
  | 8 => ⟨S1, .f32⟩
  | 9 => ⟨S1600000, .i32⟩
  | 10 => ⟨S1600000, .i32⟩
  | 11 => ⟨S100000, .i32⟩
  | 12 => ⟨S100000, .i32⟩
  | 13 => ⟨S100000, .i32⟩
  | 14 => ⟨S100000, .i32⟩
  | 15 => ⟨S_, .i32⟩
  | 16 => ⟨S1600000, .i32⟩
  | 17 => ⟨S1600000, .i1⟩
  | 18 => ⟨S_, .i32⟩
  | 19 => ⟨S1600000, .i32⟩
  | 20 => ⟨S1600000, .i32⟩
  | 21 => ⟨S1600000, .i32⟩
  | 22 => ⟨S1600000x1, .i32⟩
  | 23 => ⟨S1600000x128, .f32⟩
  | 24 => ⟨S_, .f32⟩
  | 25 => ⟨S100000x128, .f32⟩
  | 26 => ⟨S1600000x1, .i32⟩
  | 27 => ⟨S100000x128, .f32⟩
  | 28 => ⟨S100000x128, .f32⟩
  | 29 => ⟨S1x128x512, .f32⟩
  | 30 => ⟨S128x512, .f32⟩
  | 31 => ⟨S100000x512, .f32⟩
  | 32 => ⟨S1x512, .f32⟩
  | 33 => ⟨S512, .f32⟩
  | 34 => ⟨S1x512, .f32⟩
  | 35 => ⟨S100000x512, .f32⟩
  | 36 => ⟨S100000x512, .f32⟩
  | 37 => ⟨S_, .f32⟩
  | 38 => ⟨S100000x512, .f32⟩
  | 39 => ⟨S100000x512, .f32⟩
  | 40 => ⟨S1x512x128, .f32⟩
  | 41 => ⟨S512x128, .f32⟩
  | 42 => ⟨S100000x128, .f32⟩
  | 43 => ⟨S1x128, .f32⟩
  | 44 => ⟨S128, .f32⟩
  | 45 => ⟨S1x128, .f32⟩
  | 46 => ⟨S100000x128, .f32⟩
  | 47 => ⟨S100000x128, .f32⟩
  | 48 => ⟨S_, .f32⟩
  | 49 => ⟨S100000x128, .f32⟩
  | 50 => ⟨S100000x128, .f32⟩
  | 51 => ⟨S_, .i32⟩
  | 52 => ⟨S1600000, .i32⟩
  | 53 => ⟨S1600000, .i1⟩
  | 54 => ⟨S_, .i32⟩
  | 55 => ⟨S1600000, .i32⟩
  | 56 => ⟨S1600000, .i32⟩
  | 57 => ⟨S1600000, .i32⟩
  | 58 => ⟨S1600000x1, .i32⟩
  | 59 => ⟨S1600000x128, .f32⟩
  | 60 => ⟨S_, .f32⟩
  | 61 => ⟨S100000x128, .f32⟩
  | 62 => ⟨S1600000x1, .i32⟩
  | 63 => ⟨S100000x128, .f32⟩
  | 64 => ⟨S100000x128, .f32⟩
  | 65 => ⟨S1x128x512, .f32⟩
  | 66 => ⟨S128x512, .f32⟩
  | 67 => ⟨S100000x512, .f32⟩
  | 68 => ⟨S1x512, .f32⟩
  | 69 => ⟨S512, .f32⟩
  | 70 => ⟨S1x512, .f32⟩
  | 71 => ⟨S100000x512, .f32⟩
  | 72 => ⟨S100000x512, .f32⟩
  | 73 => ⟨S_, .f32⟩
  | 74 => ⟨S100000x512, .f32⟩
  | 75 => ⟨S100000x512, .f32⟩
  | 76 => ⟨S1x512x128, .f32⟩
  | 77 => ⟨S512x128, .f32⟩
  | 78 => ⟨S100000x128, .f32⟩
  | 79 => ⟨S1x128, .f32⟩
  | 80 => ⟨S128, .f32⟩
  | 81 => ⟨S1x128, .f32⟩
  | 82 => ⟨S100000x128, .f32⟩
  | 83 => ⟨S100000x128, .f32⟩
  | 84 => ⟨S_, .f32⟩
  | 85 => ⟨S100000x128, .f32⟩
  | 86 => ⟨S100000x128, .f32⟩
  | 87 => ⟨S_, .i32⟩
  | 88 => ⟨S1600000, .i32⟩
  | 89 => ⟨S1600000, .i1⟩
  | 90 => ⟨S_, .i32⟩
  | 91 => ⟨S1600000, .i32⟩
  | 92 => ⟨S1600000, .i32⟩
  | 93 => ⟨S1600000, .i32⟩
  | 94 => ⟨S1600000x1, .i32⟩
  | 95 => ⟨S1600000x128, .f32⟩
  | 96 => ⟨S_, .f32⟩
  | 97 => ⟨S100000x128, .f32⟩
  | 98 => ⟨S1600000x1, .i32⟩
  | 99 => ⟨S100000x128, .f32⟩
  | 100 => ⟨S100000x128, .f32⟩
  | 101 => ⟨S1x128x512, .f32⟩
  | 102 => ⟨S128x512, .f32⟩
  | 103 => ⟨S100000x512, .f32⟩
  | 104 => ⟨S1x512, .f32⟩
  | 105 => ⟨S512, .f32⟩
  | 106 => ⟨S1x512, .f32⟩
  | 107 => ⟨S100000x512, .f32⟩
  | 108 => ⟨S100000x512, .f32⟩
  | 109 => ⟨S_, .f32⟩
  | 110 => ⟨S100000x512, .f32⟩
  | 111 => ⟨S100000x512, .f32⟩
  | 112 => ⟨S1x512x128, .f32⟩
  | 113 => ⟨S512x128, .f32⟩
  | 114 => ⟨S100000x128, .f32⟩
  | 115 => ⟨S1x128, .f32⟩
  | 116 => ⟨S128, .f32⟩
  | 117 => ⟨S1x128, .f32⟩
  | 118 => ⟨S100000x128, .f32⟩
  | 119 => ⟨S100000x128, .f32⟩
  | 120 => ⟨S_, .f32⟩
  | 121 => ⟨S100000x128, .f32⟩
  | 122 => ⟨S100000x128, .f32⟩
  | 123 => ⟨S_, .i32⟩
  | 124 => ⟨S100000, .i32⟩
  | 125 => ⟨S100000, .i1⟩
  | 126 => ⟨S_, .i32⟩
  | 127 => ⟨S100000, .i32⟩
  | _ => ⟨S100000x128, .f32⟩

abbrev hbmTy0_1 (i : Nat) : BufTy := match i % 128 with
  | 0 => ⟨S100000, .i32⟩
  | 1 => ⟨S100000, .i32⟩
  | 2 => ⟨S100000x1, .i32⟩
  | 3 => ⟨S100000x128, .f32⟩
  | 4 => ⟨S_, .i32⟩
  | 5 => ⟨S100000, .i32⟩
  | 6 => ⟨S100000, .i1⟩
  | 7 => ⟨S_, .i32⟩
  | 8 => ⟨S100000, .i32⟩
  | 9 => ⟨S100000, .i32⟩
  | 10 => ⟨S100000, .i32⟩
  | 11 => ⟨S100000x1, .i32⟩
  | 12 => ⟨S100000x128, .f32⟩
  | 13 => ⟨S100000x128, .f32⟩
  | 14 => ⟨S100000x64, .f32⟩
  | 15 => ⟨S1x64, .f32⟩
  | 16 => ⟨S100000x64, .f32⟩
  | 17 => ⟨S100000x64, .f32⟩
  | 18 => ⟨S_, .f32⟩
  | 19 => ⟨S100000x64, .f32⟩
  | 20 => ⟨S100000x64, .f32⟩
  | 21 => ⟨S100000x1, .f32⟩
  | 22 => ⟨S1x1, .f32⟩
  | 23 => ⟨S100000x1, .f32⟩
  | 24 => ⟨S100000x1, .f32⟩
  | 25 => ⟨S_, .i32⟩
  | 26 => ⟨S100000, .i32⟩
  | 27 => ⟨S100000, .i1⟩
  | 28 => ⟨S_, .i32⟩
  | 29 => ⟨S100000, .i32⟩
  | 30 => ⟨S100000, .i32⟩
  | 31 => ⟨S100000, .i32⟩
  | 32 => ⟨S100000x1, .i32⟩
  | 33 => ⟨S100000x128, .f32⟩
  | 34 => ⟨S_, .i32⟩
  | 35 => ⟨S100000, .i32⟩
  | 36 => ⟨S100000, .i1⟩
  | 37 => ⟨S_, .i32⟩
  | 38 => ⟨S100000, .i32⟩
  | 39 => ⟨S100000, .i32⟩
  | 40 => ⟨S100000, .i32⟩
  | 41 => ⟨S100000x1, .i32⟩
  | 42 => ⟨S100000x128, .f32⟩
  | 43 => ⟨S100000x128, .f32⟩
  | 44 => ⟨S100000x64, .f32⟩
  | 45 => ⟨S1x64, .f32⟩
  | 46 => ⟨S100000x64, .f32⟩
  | 47 => ⟨S100000x64, .f32⟩
  | 48 => ⟨S_, .f32⟩
  | 49 => ⟨S100000x64, .f32⟩
  | 50 => ⟨S100000x64, .f32⟩
  | 51 => ⟨S100000x1, .f32⟩
  | 52 => ⟨S1x1, .f32⟩
  | 53 => ⟨S100000x1, .f32⟩
  | 54 => ⟨S100000x1, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_c : Ref sig .tc := ⟨.hbm, 15, rfl⟩
abbrev main_v0 : Ref sig .tc := ⟨.hbm, 16, rfl⟩
abbrev main_v1 : Ref sig .tc := ⟨.hbm, 17, rfl⟩
abbrev main_c_0 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_cst : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_call0_cst : Ref sig .tc := ⟨.hbm, 37, rfl⟩
abbrev main_call0_v0 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_call1_cst : Ref sig .tc := ⟨.hbm, 48, rfl⟩
abbrev main_call1_v0 : Ref sig .tc := ⟨.hbm, 49, rfl⟩
abbrev main_v28 : Ref sig .tc := ⟨.hbm, 50, rfl⟩
abbrev main_c_1 : Ref sig .tc := ⟨.hbm, 51, rfl⟩
abbrev main_v29 : Ref sig .tc := ⟨.hbm, 52, rfl⟩
abbrev main_v30 : Ref sig .tc := ⟨.hbm, 53, rfl⟩
abbrev main_c_2 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_cst_3 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_call2_cst : Ref sig .tc := ⟨.hbm, 73, rfl⟩
abbrev main_call2_v0 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_call3_cst : Ref sig .tc := ⟨.hbm, 84, rfl⟩
abbrev main_call3_v0 : Ref sig .tc := ⟨.hbm, 85, rfl⟩
abbrev main_v57 : Ref sig .tc := ⟨.hbm, 86, rfl⟩
abbrev main_c_4 : Ref sig .tc := ⟨.hbm, 87, rfl⟩
abbrev main_v58 : Ref sig .tc := ⟨.hbm, 88, rfl⟩
abbrev main_v59 : Ref sig .tc := ⟨.hbm, 89, rfl⟩
abbrev main_c_5 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_cst_6 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_call4_cst : Ref sig .tc := ⟨.hbm, 109, rfl⟩
abbrev main_call4_v0 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_call5_cst : Ref sig .tc := ⟨.hbm, 120, rfl⟩
abbrev main_call5_v0 : Ref sig .tc := ⟨.hbm, 121, rfl⟩
abbrev main_v86 : Ref sig .tc := ⟨.hbm, 122, rfl⟩
abbrev main_c_7 : Ref sig .tc := ⟨.hbm, 123, rfl⟩
abbrev main_v87 : Ref sig .tc := ⟨.hbm, 124, rfl⟩
abbrev main_v88 : Ref sig .tc := ⟨.hbm, 125, rfl⟩
abbrev main_c_8 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_c_9 : Ref sig .tc := ⟨.hbm, 132, rfl⟩
abbrev main_v94 : Ref sig .tc := ⟨.hbm, 133, rfl⟩
abbrev main_v95 : Ref sig .tc := ⟨.hbm, 134, rfl⟩
abbrev main_c_10 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_call6_cst : Ref sig .tc := ⟨.hbm, 146, rfl⟩
abbrev main_call6_v0 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩
abbrev main_c_11 : Ref sig .tc := ⟨.hbm, 153, rfl⟩
abbrev main_v111 : Ref sig .tc := ⟨.hbm, 154, rfl⟩
abbrev main_v112 : Ref sig .tc := ⟨.hbm, 155, rfl⟩
abbrev main_c_12 : Ref sig .tc := ⟨.hbm, 156, rfl⟩
abbrev main_v113 : Ref sig .tc := ⟨.hbm, 157, rfl⟩
abbrev main_v114 : Ref sig .tc := ⟨.hbm, 158, rfl⟩
abbrev main_v115 : Ref sig .tc := ⟨.hbm, 159, rfl⟩
abbrev main_v116 : Ref sig .tc := ⟨.hbm, 160, rfl⟩
abbrev main_v117 : Ref sig .tc := ⟨.hbm, 161, rfl⟩
abbrev main_c_13 : Ref sig .tc := ⟨.hbm, 162, rfl⟩
abbrev main_v118 : Ref sig .tc := ⟨.hbm, 163, rfl⟩
abbrev main_v119 : Ref sig .tc := ⟨.hbm, 164, rfl⟩
abbrev main_c_14 : Ref sig .tc := ⟨.hbm, 165, rfl⟩
abbrev main_v120 : Ref sig .tc := ⟨.hbm, 166, rfl⟩
abbrev main_v121 : Ref sig .tc := ⟨.hbm, 167, rfl⟩
abbrev main_v122 : Ref sig .tc := ⟨.hbm, 168, rfl⟩
abbrev main_v123 : Ref sig .tc := ⟨.hbm, 169, rfl⟩
abbrev main_v124 : Ref sig .tc := ⟨.hbm, 170, rfl⟩
abbrev main_v125 : Ref sig .tc := ⟨.hbm, 171, rfl⟩
abbrev main_v126 : Ref sig .tc := ⟨.hbm, 172, rfl⟩
abbrev main_v127 : Ref sig .tc := ⟨.hbm, 173, rfl⟩
abbrev main_v128 : Ref sig .tc := ⟨.hbm, 174, rfl⟩
abbrev main_v129 : Ref sig .tc := ⟨.hbm, 175, rfl⟩
abbrev main_call7_cst : Ref sig .tc := ⟨.hbm, 176, rfl⟩
abbrev main_call7_v0 : Ref sig .tc := ⟨.hbm, 177, rfl⟩
abbrev main_v130 : Ref sig .tc := ⟨.hbm, 178, rfl⟩
abbrev main_v131 : Ref sig .tc := ⟨.hbm, 179, rfl⟩
abbrev main_v132 : Ref sig .tc := ⟨.hbm, 180, rfl⟩
abbrev main_v133 : Ref sig .tc := ⟨.hbm, 181, rfl⟩
abbrev main_v134 : Ref sig .tc := ⟨.hbm, 182, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  slices_S3x128x512_S1x128x512_0_0_0 : S3x128x512.Slices ![0, 0, 0] S1x128x512
  shapeCasts_S1x128x512_S128x512 : S1x128x512.ShapeCasts S128x512
  slices_S3x512_S1x512_0_0 : S3x512.Slices ![0, 0] S1x512
  shapeCasts_S1x512_S512 : S1x512.ShapeCasts S512
  bcast_S512_S1x512_1 : S512.BroadcastsInDim S1x512 (![1] : Fin 1 → Fin S1x512.rank)
  bcast_S1x512_S100000x512_0_1 : S1x512.BroadcastsInDim S100000x512 (![0, 1] : Fin 2 → Fin S100000x512.rank)
  bcast_S_S100000x512 : S_.BroadcastsInDim S100000x512 (![] : Fin 0 → Fin S100000x512.rank)
  slices_S3x512x128_S1x512x128_0_0_0 : S3x512x128.Slices ![0, 0, 0] S1x512x128
  shapeCasts_S1x512x128_S512x128 : S1x512x128.ShapeCasts S512x128
  slices_S3x128_S1x128_0_0 : S3x128.Slices ![0, 0] S1x128
  shapeCasts_S1x128_S128 : S1x128.ShapeCasts S128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  slices_S3x128x512_S1x128x512_1_0_0 : S3x128x512.Slices ![1, 0, 0] S1x128x512
  slices_S3x512_S1x512_1_0 : S3x512.Slices ![1, 0] S1x512
  slices_S3x512x128_S1x512x128_1_0_0 : S3x512x128.Slices ![1, 0, 0] S1x512x128
  slices_S3x128_S1x128_1_0 : S3x128.Slices ![1, 0] S1x128
  slices_S3x128x512_S1x128x512_2_0_0 : S3x128x512.Slices ![2, 0, 0] S1x128x512
  slices_S3x512_S1x512_2_0 : S3x512.Slices ![2, 0] S1x512
  slices_S3x512x128_S1x512x128_2_0_0 : S3x512x128.Slices ![2, 0, 0] S1x512x128
  slices_S3x128_S1x128_2_0 : S3x128.Slices ![2, 0] S1x128
  bcast_S_S100000 : S_.BroadcastsInDim S100000 (![] : Fin 0 → Fin S100000.rank)
  bcast_S100000_S100000x1_0 : S100000.BroadcastsInDim S100000x1 (![0] : Fin 1 → Fin S100000x1.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x512_S100000x512_1_0_0_1_n_n_wf : DotDims.WF S100000x128 S128x512 S100000x512 [1] [0] [0] [1] [] []
  dot_S100000x512_S512x128_S100000x128_1_0_0_1_n_n_wf : DotDims.WF S100000x512 S512x128 S100000x128 [1] [0] [0] [1] [] []
  gather_S100000x128_S100000x1_S100000x128_1_0_n_n_0_1_1128_wf : GatherDims.WF S100000x128 S100000x1 S100000x128 [1] [0] [] [0] [] 1 ![1, 128]
  dot_S100000x128_S128x64_S100000x64_1_0_0_1_n_n_wf : DotDims.WF S100000x128 S128x64 S100000x64 [1] [0] [0] [1] [] []
  dot_S100000x64_S64x1_S100000x1_1_0_0_1_n_n_wf : DotDims.WF S100000x64 S64x1 S100000x1 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x512_S100000x512_1_0_0_1_n_n : DotDims S100000x128 S128x512 S100000x512 where
  lhsContracting := [1]
  rhsContracting := [0]
  lhsNonContracting := [0]
  rhsNonContracting := [1]
  lhsBatch := []
  rhsBatch := []
  wf := dot_S100000x128_S128x512_S100000x512_1_0_0_1_n_n_wf
def dot_S100000x512_S512x128_S100000x128_1_0_0_1_n_n : DotDims S100000x512 S512x128 S100000x128 where
  lhsContracting := [1]
  rhsContracting := [0]
  lhsNonContracting := [0]
  rhsNonContracting := [1]
  lhsBatch := []
  rhsBatch := []
  wf := dot_S100000x512_S512x128_S100000x128_1_0_0_1_n_n_wf
def gather_S100000x128_S100000x1_S100000x128_1_0_n_n_0_1_1128 : GatherDims S100000x128 S100000x1 S100000x128 where
  offsetDims := [1]
  collapsedSliceDims := [0]
  operandBatchingDims := []
  startIndicesBatchingDims := []
  startIndexMap := [0]
  indexVectorDim := 1
  sliceSizes := ![1, 128]
  wf := gather_S100000x128_S100000x1_S100000x128_1_0_n_n_0_1_1128_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def dot_S100000x64_S64x1_S100000x1_1_0_0_1_n_n : DotDims S100000x64 S64x1 S100000x1 where
  lhsContracting := [1]
  rhsContracting := [0]
  lhsNonContracting := [0]
  rhsNonContracting := [1]
  lhsBatch := []
  rhsBatch := []
  wf := dot_S100000x64_S64x1_S100000x1_1_0_0_1_n_n_wf

class Facts : Prop extends Facts₀ where

variable [Facts]
-- ==== Proof.KernelRun.lean ====
/-
  The idealized kernel's run with its results named. Every weakly fair execution of the program on the
  TensorCores terminates without a fault, the three result buffers hold what the last host stretch leaves in
  them — the valuation `W9`: the fold of the five host stretches and the four kernel regions over the launch
  memory, each region's arrays at what its write-backs leave — and the argument arrays are as launched.
-/
import proofs.«100485_j40132174414143_2_alg».proof.Proof.Gen.KernelIdeal.Frame

set_option maxRecDepth 16384

noncomputable section

namespace Cert.KernelIdeal.RunV

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the segments' chain ends with every unscoped buffer at `W9`; the final state is read there at
    the three results, and at each argument, which no host operation and no region writes. -/
theorem run : θ_run defs (onTc (τ := τ) (main (F := F))) ⟨m, fun _ => 0, ρ⟩ (fun r => ∀ c : Dev nD,
      r.2.mem ((c.tc : Thread nD τ).loc main_v96) = W9 m ρ c (Proc.devRef .tc main_v96)
      ∧ r.2.mem ((c.tc : Thread nD τ).loc main_v97) = W9 m ρ c (Proc.devRef .tc main_v97)
      ∧ r.2.mem ((c.tc : Thread nD τ).loc main_v74) = W9 m ρ c (Proc.devRef .tc main_v74)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v96 (by decide)),
       h c _ (mem_uc main_v97 (by decide)),
       h c _ (mem_uc main_v74 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c),
       (h c _ (mem_uc main_arg9 (by decide))).trans (W9_main_arg9 m ρ c),
       (h c _ (mem_uc main_arg10 (by decide))).trans (W9_main_arg10 m ρ c),
       (h c _ (mem_uc main_arg11 (by decide))).trans (W9_main_arg11 m ρ c),
       (h c _ (mem_uc main_arg12 (by decide))).trans (W9_main_arg12 m ρ c),
       (h c _ (mem_uc main_arg13 (by decide))).trans (W9_main_arg13 m ρ c),
       (h c _ (mem_uc main_arg14 (by decide))).trans (W9_main_arg14 m ρ c)⟩)

end Cert.KernelIdeal.RunV

end
-- ==== Proof.Payload.lean ====
/-
  The bodies of the four kernels read at an index, on the extended reals.

  Each layer kernel computes, at row `r` and feature `q`,
  `max (∑ k, max (∑ i, (a r i + b r i) · W1 i k + b1 k) 0 · W2 k q + b2 q) 0`;
  the scorer computes, at row `r`,
  `∑ k, max (∑ i, (a r i · b r i) · W i k + c k) 0 · w k + d`.
  Format changes are the identity on the extended reals, a shape cast to the same shape is the
  identity, and a matrix product into a zero accumulator is the plain sum over the contracted axis.
-/
import proofs.«100485_j40132174414143_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

namespace Cert.Gin.Pay

open Idealize.ShloMosaic Idealize.ShloMosaic.ValueIdx Cert.KernelIdeal Cert.KernelIdeal.Gen

/-! ## The matrix products

Each product contracts the left operand's axis 1 with the right operand's axis 0 and adds into a zero
accumulator: at `(r, c)` it is the sum over the contracted coordinate, re-indexed from the contraction's
one-axis index set to `Fin K`. -/

/-- The first matrix product of a layer, into a zero accumulator, at row `r` and column `c`: the sum over the 128 contracted features. -/
theorem matmul_128_512_apply (a : FVec Ideal S4000x128 .bf16) (b : FVec Ideal S128x512 .bf16) (r : Fin 4000) (c : Fin 512) :
    matmul dot_S4000x128_S128x512_S4000x512_1_0_0_1_n_n none a b (constant (F := Ideal) S4000x512 .f32 0x00000000#32) (ix2 r c)
      = ∑ i : Fin 128, a (ix2 r i) * b (ix2 i c) := by
  have l0 : ∀ q : dot_S4000x128_S128x512_S4000x512_1_0_0_1_n_n.contr.Idx, (dot_S4000x128_S128x512_S4000x512_1_0_0_1_n_n.lhsIdx (ix2 r c) q 0).val = r.val := fun q => by
    unfold DotDims.lhsIdx
    rw [dif_neg (show ¬(0 : Fin S4000x128.rank) ∈ dot_S4000x128_S128x512_S4000x512_1_0_0_1_n_n.lhsBatch by decide),
      dif_pos (show (0 : Fin S4000x128.rank) ∈ dot_S4000x128_S128x512_S4000x512_1_0_0_1_n_n.lhsNonContracting by decide)]
    rfl
  have r1 : ∀ q : dot_S4000x128_S128x512_S4000x512_1_0_0_1_n_n.contr.Idx, (dot_S4000x128_S128x512_S4000x512_1_0_0_1_n_n.rhsIdx (ix2 r c) q 1).val = c.val := fun q => by
    unfold DotDims.rhsIdx
    rw [dif_neg (show ¬(1 : Fin S128x512.rank) ∈ dot_S4000x128_S128x512_S4000x512_1_0_0_1_n_n.rhsBatch by decide),
      dif_pos (show (1 : Fin S128x512.rank) ∈ dot_S4000x128_S128x512_S4000x512_1_0_0_1_n_n.rhsNonContracting by decide)]
    rfl
  simp only [matmul]
  rw [Ideal.matmul_constant_zero_apply, ← Equiv.sum_comp (contrEquiv1 dot_S4000x128_S128x512_S4000x512_1_0_0_1_n_n 128 rfl rfl).symm]
  refine Finset.sum_congr rfl fun k _ => ?_
  have hk := contrEquiv1_symm_val dot_S4000x128_S128x512_S4000x512_1_0_0_1_n_n 128 rfl rfl k
  have el : dot_S4000x128_S128x512_S4000x512_1_0_0_1_n_n.lhsIdx (ix2 r c) ((contrEquiv1 dot_S4000x128_S128x512_S4000x512_1_0_0_1_n_n 128 rfl rfl).symm k) = ix2 r k :=
    funext fun ax => Fin.ext (by
      match ax with
      | ⟨0, _⟩ => exact l0 _
      | ⟨1, _⟩ => exact (dot_S4000x128_S128x512_S4000x512_1_0_0_1_n_n.lhsIdx_val_of_single rfl _ _).trans hk)
  have er : dot_S4000x128_S128x512_S4000x512_1_0_0_1_n_n.rhsIdx (ix2 r c) ((contrEquiv1 dot_S4000x128_S128x512_S4000x512_1_0_0_1_n_n 128 rfl rfl).symm k) = ix2 k c :=
    funext fun ax => Fin.ext (by
      match ax with
      | ⟨0, _⟩ => exact (dot_S4000x128_S128x512_S4000x512_1_0_0_1_n_n.rhsIdx_val_of_single rfl _ _).trans hk
      | ⟨1, _⟩ => exact r1 _)
  rw [el, er]

/-- The second matrix product of a layer, into a zero accumulator, at row `r` and column `c`: the sum over the 512 hidden units. -/
theorem matmul_512_128_apply (a : FVec Ideal S4000x512 .bf16) (b : FVec Ideal S512x128 .bf16) (r : Fin 4000) (c : Fin 128) :
    matmul dot_S4000x512_S512x128_S4000x128_1_0_0_1_n_n none a b (constant (F := Ideal) S4000x128 .f32 0x00000000#32) (ix2 r c)
      = ∑ i : Fin 512, a (ix2 r i) * b (ix2 i c) := by
  have l0 : ∀ q : dot_S4000x512_S512x128_S4000x128_1_0_0_1_n_n.contr.Idx, (dot_S4000x512_S512x128_S4000x128_1_0_0_1_n_n.lhsIdx (ix2 r c) q 0).val = r.val := fun q => by
    unfold DotDims.lhsIdx
    rw [dif_neg (show ¬(0 : Fin S4000x512.rank) ∈ dot_S4000x512_S512x128_S4000x128_1_0_0_1_n_n.lhsBatch by decide),
      dif_pos (show (0 : Fin S4000x512.rank) ∈ dot_S4000x512_S512x128_S4000x128_1_0_0_1_n_n.lhsNonContracting by decide)]
    rfl
  have r1 : ∀ q : dot_S4000x512_S512x128_S4000x128_1_0_0_1_n_n.contr.Idx, (dot_S4000x512_S512x128_S4000x128_1_0_0_1_n_n.rhsIdx (ix2 r c) q 1).val = c.val := fun q => by
    unfold DotDims.rhsIdx
    rw [dif_neg (show ¬(1 : Fin S512x128.rank) ∈ dot_S4000x512_S512x128_S4000x128_1_0_0_1_n_n.rhsBatch by decide),
      dif_pos (show (1 : Fin S512x128.rank) ∈ dot_S4000x512_S512x128_S4000x128_1_0_0_1_n_n.rhsNonContracting by decide)]
    rfl
  simp only [matmul]
  rw [Ideal.matmul_constant_zero_apply, ← Equiv.sum_comp (contrEquiv1 dot_S4000x512_S512x128_S4000x128_1_0_0_1_n_n 512 rfl rfl).symm]
  refine Finset.sum_congr rfl fun k _ => ?_
  have hk := contrEquiv1_symm_val dot_S4000x512_S512x128_S4000x128_1_0_0_1_n_n 512 rfl rfl k
  have el : dot_S4000x512_S512x128_S4000x128_1_0_0_1_n_n.lhsIdx (ix2 r c) ((contrEquiv1 dot_S4000x512_S512x128_S4000x128_1_0_0_1_n_n 512 rfl rfl).symm k) = ix2 r k :=
    funext fun ax => Fin.ext (by
      match ax with
      | ⟨0, _⟩ => exact l0 _
      | ⟨1, _⟩ => exact (dot_S4000x512_S512x128_S4000x128_1_0_0_1_n_n.lhsIdx_val_of_single rfl _ _).trans hk)
  have er : dot_S4000x512_S512x128_S4000x128_1_0_0_1_n_n.rhsIdx (ix2 r c) ((contrEquiv1 dot_S4000x512_S512x128_S4000x128_1_0_0_1_n_n 512 rfl rfl).symm k) = ix2 k c :=
    funext fun ax => Fin.ext (by
      match ax with
      | ⟨0, _⟩ => exact (dot_S4000x512_S512x128_S4000x128_1_0_0_1_n_n.rhsIdx_val_of_single rfl _ _).trans hk
      | ⟨1, _⟩ => exact r1 _)
  rw [el, er]

/-- The scorer's matrix product, into a zero accumulator, at row `r` and column `c`: the sum over the 128 contracted features. -/
theorem matmul_128_64_apply (a : FVec Ideal S4000x128 .bf16) (b : FVec Ideal S128x64 .bf16) (r : Fin 4000) (c : Fin 64) :
    matmul dot_S4000x128_S128x64_S4000x64_1_0_0_1_n_n none a b (constant (F := Ideal) S4000x64 .f32 0x00000000#32) (ix2 r c)
      = ∑ i : Fin 128, a (ix2 r i) * b (ix2 i c) := by
  have l0 : ∀ q : dot_S4000x128_S128x64_S4000x64_1_0_0_1_n_n.contr.Idx, (dot_S4000x128_S128x64_S4000x64_1_0_0_1_n_n.lhsIdx (ix2 r c) q 0).val = r.val := fun q => by
    unfold DotDims.lhsIdx
    rw [dif_neg (show ¬(0 : Fin S4000x128.rank) ∈ dot_S4000x128_S128x64_S4000x64_1_0_0_1_n_n.lhsBatch by decide),
      dif_pos (show (0 : Fin S4000x128.rank) ∈ dot_S4000x128_S128x64_S4000x64_1_0_0_1_n_n.lhsNonContracting by decide)]
    rfl
  have r1 : ∀ q : dot_S4000x128_S128x64_S4000x64_1_0_0_1_n_n.contr.Idx, (dot_S4000x128_S128x64_S4000x64_1_0_0_1_n_n.rhsIdx (ix2 r c) q 1).val = c.val := fun q => by
    unfold DotDims.rhsIdx
    rw [dif_neg (show ¬(1 : Fin S128x64.rank) ∈ dot_S4000x128_S128x64_S4000x64_1_0_0_1_n_n.rhsBatch by decide),
      dif_pos (show (1 : Fin S128x64.rank) ∈ dot_S4000x128_S128x64_S4000x64_1_0_0_1_n_n.rhsNonContracting by decide)]
    rfl
  simp only [matmul]
  rw [Ideal.matmul_constant_zero_apply, ← Equiv.sum_comp (contrEquiv1 dot_S4000x128_S128x64_S4000x64_1_0_0_1_n_n 128 rfl rfl).symm]
  refine Finset.sum_congr rfl fun k _ => ?_
  have hk := contrEquiv1_symm_val dot_S4000x128_S128x64_S4000x64_1_0_0_1_n_n 128 rfl rfl k
  have el : dot_S4000x128_S128x64_S4000x64_1_0_0_1_n_n.lhsIdx (ix2 r c) ((contrEquiv1 dot_S4000x128_S128x64_S4000x64_1_0_0_1_n_n 128 rfl rfl).symm k) = ix2 r k :=
    funext fun ax => Fin.ext (by
      match ax with
      | ⟨0, _⟩ => exact l0 _
      | ⟨1, _⟩ => exact (dot_S4000x128_S128x64_S4000x64_1_0_0_1_n_n.lhsIdx_val_of_single rfl _ _).trans hk)
  have er : dot_S4000x128_S128x64_S4000x64_1_0_0_1_n_n.rhsIdx (ix2 r c) ((contrEquiv1 dot_S4000x128_S128x64_S4000x64_1_0_0_1_n_n 128 rfl rfl).symm k) = ix2 k c :=
    funext fun ax => Fin.ext (by
      match ax with
      | ⟨0, _⟩ => exact (dot_S4000x128_S128x64_S4000x64_1_0_0_1_n_n.rhsIdx_val_of_single rfl _ _).trans hk
      | ⟨1, _⟩ => exact r1 _)
  rw [el, er]

/-! ## The zero word, and the lane sum viewed as a column -/

/-- The zero word of the 32-bit format reads as the extended real `0`. -/
theorem zero_word : (Scalar.ofBits (F := Ideal) .f32 0x00000000#32 : Ideal .f32) = (0 : EReal) :=
  Ideal.ofBits_zero_f32

/-- The sum along the 64 lanes of a `[4000, 64]` array, viewed as a `[4000, 1]` column, at row `r`:
    the sum of row `r`. -/
theorem laneSum_apply (v : FVec Ideal S4000x64 .f32) (hφ : FKind.Formats .f32)
    (hacc : (0x00000000#32 : BitVec 32) = FKind.add.neutral .f32 hφ) (r : Fin 4000) :
    shapeCast S4000x1 (multiReduction (F := Ideal) .add [1] S4000 v 0x00000000#32 reduces_S4000x64_S4000 hφ hacc)
        shapeCasts_S4000_S4000x1 (ix2 r (0 : Fin 1))
      = ∑ k : Fin 64, v (ix2 r k) := by
  refine (shapeCast_apply _ shapeCasts_S4000_S4000x1 (ix2 r (0 : Fin 1)) (ix1 r) (by
    rw [Shape.rowMajor_val_one, Shape.rowMajor_val_two]
    show r.val = r.val * 1 + 0
    omega)).trans ?_
  refine (Ideal.multiReduction_add_single v 0x00000000#32 reduces_S4000x64_S4000 hφ hacc (ix1 r)).trans ?_
  show ∑ k : Fin 64, v (reduces_S4000x64_S4000.lift (ix1 r) k) = _
  refine Finset.sum_congr rfl fun k _ => congrArg v (funext fun ax => Fin.ext ?_)
  match ax with
  | ⟨0, _⟩ => rfl
  | ⟨1, _⟩ => rfl

/-! ## The four bodies

A shape cast to the same shape is the identity, format changes are the identity, the pointwise operations
read through, a bias row broadcast over the rows reads its one row, and the products are the sums above. -/

/-- Layer kernel 0 at row `r` and feature `q`. -/
theorem k0_apply (x0 x1 : Vec Ideal S4000x128 .f32) (x2 : Vec Ideal S128x512 .bf16) (x3 : Vec Ideal S1x512 .f32)
    (x4 : Vec Ideal S512x128 .bf16) (x5 : Vec Ideal S1x128 .f32) (r : Fin 4000) (q : Fin 128) :
    k0_pay1 (F := Ideal) x0 x1 x2 x3 x4 x5 (ix2 r q)
      = max ((∑ k : Fin 512, max ((∑ i : Fin 128, (x0 (ix2 r i) + x1 (ix2 r i)) * x2 (ix2 i k))
          + x3 (ix2 (0 : Fin 1) k)) 0 * x4 (ix2 k q)) + x5 (ix2 (0 : Fin 1) q)) 0 := by
  unfold k0_pay1
  simp only [shapeCast_self, maximumf_apply, addf_apply, broadcast_apply, zero_word, matmul_512_128_apply,
    matmul_128_512_apply, broadcastTo_1b_ab_apply, truncf_apply]

/-- Layer kernel 1 at row `r` and feature `q`. -/
theorem k1_apply (x0 x1 : Vec Ideal S4000x128 .f32) (x2 : Vec Ideal S128x512 .bf16) (x3 : Vec Ideal S1x512 .f32)
    (x4 : Vec Ideal S512x128 .bf16) (x5 : Vec Ideal S1x128 .f32) (r : Fin 4000) (q : Fin 128) :
    k1_pay1 (F := Ideal) x0 x1 x2 x3 x4 x5 (ix2 r q)
      = max ((∑ k : Fin 512, max ((∑ i : Fin 128, (x0 (ix2 r i) + x1 (ix2 r i)) * x2 (ix2 i k))
          + x3 (ix2 (0 : Fin 1) k)) 0 * x4 (ix2 k q)) + x5 (ix2 (0 : Fin 1) q)) 0 := by
  unfold k1_pay1
  simp only [shapeCast_self, maximumf_apply, addf_apply, broadcast_apply, zero_word, matmul_512_128_apply,
    matmul_128_512_apply, broadcastTo_1b_ab_apply, truncf_apply]

/-- Layer kernel 2 at row `r` and feature `q`. -/
theorem k2_apply (x0 x1 : Vec Ideal S4000x128 .f32) (x2 : Vec Ideal S128x512 .bf16) (x3 : Vec Ideal S1x512 .f32)
    (x4 : Vec Ideal S512x128 .bf16) (x5 : Vec Ideal S1x128 .f32) (r : Fin 4000) (q : Fin 128) :
    k2_pay1 (F := Ideal) x0 x1 x2 x3 x4 x5 (ix2 r q)
      = max ((∑ k : Fin 512, max ((∑ i : Fin 128, (x0 (ix2 r i) + x1 (ix2 r i)) * x2 (ix2 i k))
          + x3 (ix2 (0 : Fin 1) k)) 0 * x4 (ix2 k q)) + x5 (ix2 (0 : Fin 1) q)) 0 := by
  unfold k2_pay1
  simp only [shapeCast_self, maximumf_apply, addf_apply, broadcast_apply, zero_word, matmul_512_128_apply,
    matmul_128_512_apply, broadcastTo_1b_ab_apply, truncf_apply]

/-- The scorer kernel at row `r`. -/
theorem k3_apply (x0 x1 : Vec Ideal S4000x128 .f32) (x2 : Vec Ideal S128x64 .bf16) (x3 x4 : Vec Ideal S1x64 .f32)
    (x5 : Vec Ideal S1x1 .f32) (r : Fin 4000) :
    k3_pay1 (F := Ideal) x0 x1 x2 x3 x4 x5 (ix2 r (0 : Fin 1))
      = (∑ k : Fin 64, max ((∑ i : Fin 128, (x0 (ix2 r i) * x1 (ix2 r i)) * x2 (ix2 i k))
          + x3 (ix2 (0 : Fin 1) k)) 0 * x4 (ix2 (0 : Fin 1) k)) + x5 (ix2 (0 : Fin 1) (0 : Fin 1)) := by
  unfold k3_pay1
  simp only [shapeCast_self, addf_apply, broadcastTo_1b_ab_apply]
  refine (congrArg (· + x5 (ix2 (0 : Fin 1) (0 : Fin 1))) (laneSum_apply _ _ _ r)).trans ?_
  simp only [mulf_apply, maximumf_apply, addf_apply, broadcast_apply, zero_word, matmul_128_64_apply,
    broadcastTo_1b_ab_apply, truncf_apply]

end Cert.Gin.Pay

end
-- ==== Proof.LayerBlock.lean ====
/-
  What a layer region's output array holds, as one function of the six arrays the region reads.

  The grid has 25 points; point `t` reads rows `4000 t … 4000 t + 3999` of the feature array and of the
  neighbour-sum array, the two weight matrices and the two bias rows whole, and writes back rows
  `4000 t … 4000 t + 3999` of the output. Each written row depends only on the same row of the two row-blocked
  inputs, so every write-back is the restriction of ONE whole-array function (`layerOf`) to the point's rows,
  and the 25 row blocks cover the array.
-/
import proofs.«100485_j40132174414143_2_alg».proof.Proof.Payload
import Idealize.ShloMosaic.Lib.ValueIdx

set_option maxRecDepth 16384

noncomputable section

namespace Cert.KernelIdeal.Blk

open Idealize.ShloMosaic Idealize.ShloMosaic.ValueIdx Cert.KernelIdeal Cert.KernelIdeal.Gen

theorem hz : (![0, 0] : Fin 2 → Nat) = fun _ => 0 := funext fun a => by fin_cases a <;> rfl

/-- Entry `(n, q)` of a layer's output from the arrays as the region finds them:
    `max (∑ k, max (∑ i, (a0[n,i] + a1[n,i]) · a2[i,k] + a3[0,k]) 0 · a4[k,q] + a5[0,q]) 0`. -/
def layerOf (a0 a1 : FVec Ideal S100000x128 .f32) (a2 : FVec Ideal S128x512 .bf16) (a3 : FVec Ideal S1x512 .f32)
    (a4 : FVec Ideal S512x128 .bf16) (a5 : FVec Ideal S1x128 .f32) : FVec Ideal S100000x128 .f32 :=
  fun j => max ((∑ k : Fin 512, max ((∑ i : Fin 128,
      (a0 (ix2 (⟨(j 0).val, idx2_lt0 j⟩ : Fin 100000) i) + a1 (ix2 (⟨(j 0).val, idx2_lt0 j⟩ : Fin 100000) i)) * a2 (ix2 i k))
        + a3 (ix2 (0 : Fin 1) k)) 0 * a4 (ix2 k (⟨(j 1).val, idx2_lt1 j⟩ : Fin 128)))
      + a5 (ix2 (0 : Fin 1) (⟨(j 1).val, idx2_lt1 j⟩ : Fin 128))) 0

/-- The value at an entry, once its two coordinates are known. -/
theorem layerOf_at (a0 a1 : FVec Ideal S100000x128 .f32) (a2 : FVec Ideal S128x512 .bf16) (a3 : FVec Ideal S1x512 .f32)
    (a4 : FVec Ideal S512x128 .bf16) (a5 : FVec Ideal S1x128 .f32) (j : S100000x128.Idx) (n : Fin 100000) (q : Fin 128)
    (hn : (j 0).val = n.val) (hq : (j 1).val = q.val) :
    layerOf a0 a1 a2 a3 a4 a5 j = max ((∑ k : Fin 512, max ((∑ i : Fin 128,
      (a0 (ix2 n i) + a1 (ix2 n i)) * a2 (ix2 i k)) + a3 (ix2 (0 : Fin 1) k)) 0 * a4 (ix2 k q)) + a5 (ix2 (0 : Fin 1) q)) 0 := by
  have e0 : (⟨(j 0).val, idx2_lt0 j⟩ : Fin 100000) = n := Fin.ext hn
  have e1 : (⟨(j 1).val, idx2_lt1 j⟩ : Fin 128) = q := Fin.ext hq
  unfold layerOf
  rw [e0, e1]

/-- Body 0 on blocks that are rows `b … b + 3999` of two arrays and four whole arrays is `layerOf` of the arrays
    at the corresponding entry. -/
theorem layer_block0 (x0 x1 : Vec Ideal S4000x128 .f32) (x2 : Vec Ideal S128x512 .bf16) (x3 : Vec Ideal S1x512 .f32)
    (x4 : Vec Ideal S512x128 .bf16) (x5 : Vec Ideal S1x128 .f32)
    (a0 a1 : FVec Ideal S100000x128 .f32) (a2 : FVec Ideal S128x512 .bf16) (a3 : FVec Ideal S1x512 .f32)
    (a4 : FVec Ideal S512x128 .bf16) (a5 : FVec Ideal S1x128 .f32) (b : Nat) (hb : b + 4000 ≤ 100000)
    (h0 : ∀ (r : Fin 4000) (i : Fin 128), x0 (ix2 r i) = a0 (ix2 (⟨b + r.val, by have := r.isLt; omega⟩ : Fin 100000) i))
    (h1 : ∀ (r : Fin 4000) (i : Fin 128), x1 (ix2 r i) = a1 (ix2 (⟨b + r.val, by have := r.isLt; omega⟩ : Fin 100000) i))
    (h2 : ∀ (i : Fin 128) (k : Fin 512), x2 (ix2 i k) = a2 (ix2 i k))
    (h3 : ∀ k : Fin 512, x3 (ix2 (0 : Fin 1) k) = a3 (ix2 (0 : Fin 1) k))
    (h4 : ∀ (k : Fin 512) (q : Fin 128), x4 (ix2 k q) = a4 (ix2 k q))
    (h5 : ∀ q : Fin 128, x5 (ix2 (0 : Fin 1) q) = a5 (ix2 (0 : Fin 1) q))
    (y : S4000x128.Idx) (j : S100000x128.Idx) (hj0 : (j 0).val = b + (y 0).val) (hj1 : (j 1).val = (y 1).val) :
    k0_pay1 (F := Ideal) x0 x1 x2 x3 x4 x5 y = layerOf a0 a1 a2 a3 a4 a5 j := by
  obtain ⟨r, q, rfl⟩ : ∃ (r : Fin 4000) (q : Fin 128), y = ix2 r q := ⟨y 0, y 1, eq_ix2 y⟩
  rw [Cert.Gin.Pay.k0_apply, layerOf_at a0 a1 a2 a3 a4 a5 j (⟨b + r.val, by have := r.isLt; omega⟩ : Fin 100000) q hj0 hj1]
  simp only [h0, h1, h2, h3, h4, h5]

/-- Body 1 on blocks that are rows `b … b + 3999` of two arrays and four whole arrays is `layerOf` of the arrays
    at the corresponding entry. -/
theorem layer_block1 (x0 x1 : Vec Ideal S4000x128 .f32) (x2 : Vec Ideal S128x512 .bf16) (x3 : Vec Ideal S1x512 .f32)
    (x4 : Vec Ideal S512x128 .bf16) (x5 : Vec Ideal S1x128 .f32)
    (a0 a1 : FVec Ideal S100000x128 .f32) (a2 : FVec Ideal S128x512 .bf16) (a3 : FVec Ideal S1x512 .f32)
    (a4 : FVec Ideal S512x128 .bf16) (a5 : FVec Ideal S1x128 .f32) (b : Nat) (hb : b + 4000 ≤ 100000)
    (h0 : ∀ (r : Fin 4000) (i : Fin 128), x0 (ix2 r i) = a0 (ix2 (⟨b + r.val, by have := r.isLt; omega⟩ : Fin 100000) i))
    (h1 : ∀ (r : Fin 4000) (i : Fin 128), x1 (ix2 r i) = a1 (ix2 (⟨b + r.val, by have := r.isLt; omega⟩ : Fin 100000) i))
    (h2 : ∀ (i : Fin 128) (k : Fin 512), x2 (ix2 i k) = a2 (ix2 i k))
    (h3 : ∀ k : Fin 512, x3 (ix2 (0 : Fin 1) k) = a3 (ix2 (0 : Fin 1) k))
    (h4 : ∀ (k : Fin 512) (q : Fin 128), x4 (ix2 k q) = a4 (ix2 k q))
    (h5 : ∀ q : Fin 128, x5 (ix2 (0 : Fin 1) q) = a5 (ix2 (0 : Fin 1) q))
    (y : S4000x128.Idx) (j : S100000x128.Idx) (hj0 : (j 0).val = b + (y 0).val) (hj1 : (j 1).val = (y 1).val) :
    k1_pay1 (F := Ideal) x0 x1 x2 x3 x4 x5 y = layerOf a0 a1 a2 a3 a4 a5 j := by
  obtain ⟨r, q, rfl⟩ : ∃ (r : Fin 4000) (q : Fin 128), y = ix2 r q := ⟨y 0, y 1, eq_ix2 y⟩
  rw [Cert.Gin.Pay.k1_apply, layerOf_at a0 a1 a2 a3 a4 a5 j (⟨b + r.val, by have := r.isLt; omega⟩ : Fin 100000) q hj0 hj1]
  simp only [h0, h1, h2, h3, h4, h5]

/-- Body 2 on blocks that are rows `b … b + 3999` of two arrays and four whole arrays is `layerOf` of the arrays
    at the corresponding entry. -/
theorem layer_block2 (x0 x1 : Vec Ideal S4000x128 .f32) (x2 : Vec Ideal S128x512 .bf16) (x3 : Vec Ideal S1x512 .f32)
    (x4 : Vec Ideal S512x128 .bf16) (x5 : Vec Ideal S1x128 .f32)
    (a0 a1 : FVec Ideal S100000x128 .f32) (a2 : FVec Ideal S128x512 .bf16) (a3 : FVec Ideal S1x512 .f32)
    (a4 : FVec Ideal S512x128 .bf16) (a5 : FVec Ideal S1x128 .f32) (b : Nat) (hb : b + 4000 ≤ 100000)
    (h0 : ∀ (r : Fin 4000) (i : Fin 128), x0 (ix2 r i) = a0 (ix2 (⟨b + r.val, by have := r.isLt; omega⟩ : Fin 100000) i))
    (h1 : ∀ (r : Fin 4000) (i : Fin 128), x1 (ix2 r i) = a1 (ix2 (⟨b + r.val, by have := r.isLt; omega⟩ : Fin 100000) i))
    (h2 : ∀ (i : Fin 128) (k : Fin 512), x2 (ix2 i k) = a2 (ix2 i k))
    (h3 : ∀ k : Fin 512, x3 (ix2 (0 : Fin 1) k) = a3 (ix2 (0 : Fin 1) k))
    (h4 : ∀ (k : Fin 512) (q : Fin 128), x4 (ix2 k q) = a4 (ix2 k q))
    (h5 : ∀ q : Fin 128, x5 (ix2 (0 : Fin 1) q) = a5 (ix2 (0 : Fin 1) q))
    (y : S4000x128.Idx) (j : S100000x128.Idx) (hj0 : (j 0).val = b + (y 0).val) (hj1 : (j 1).val = (y 1).val) :
    k2_pay1 (F := Ideal) x0 x1 x2 x3 x4 x5 y = layerOf a0 a1 a2 a3 a4 a5 j := by
  obtain ⟨r, q, rfl⟩ : ∃ (r : Fin 4000) (q : Fin 128), y = ix2 r q := ⟨y 0, y 1, eq_ix2 y⟩
  rw [Cert.Gin.Pay.k2_apply, layerOf_at a0 a1 a2 a3 a4 a5 j (⟨b + r.val, by have := r.isLt; omega⟩ : Fin 100000) q hj0 hj1]
  simp only [h0, h1, h2, h3, h4, h5]

end Cert.KernelIdeal.Blk

end
-- ==== Proof.Region0.lean ====
/-
  Region 0 (layer 0's perceptron): the output array after the region is `layerOf` of the six arrays the
  region finds. Point `t` of the 25 reads rows `4000 t …` of the two row-blocked arrays and the four small
  arrays whole (their index maps are constant), and writes back rows `4000 t …` of the output; the 25 row
  blocks cover the output.
-/
import proofs.«100485_j40132174414143_2_alg».proof.Proof.Gen.KernelIdeal.Frame
import proofs.«100485_j40132174414143_2_alg».proof.Proof.LayerBlock
import Idealize.ShloMosaic.Lib.Pipeline.Value

set_option maxRecDepth 16384

noncomputable section

namespace Cert.KernelIdeal.Blk

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

/-- The printed index maps over the grid: the two row-blocked inputs and the output move with the point along
    axis 0, the four small inputs stay at block (0, 0). -/
theorem idx0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- A row-blocked input's block at point `t` is rows `4000 t …` of its array. -/
theorem rows0_0 (c : Dev nD) (t : Fin cfg0.N) (x : S4000x128.Idx) (k : S100000x128.Idx)
    (hk0 : (k 0).val = 4000 * t.val + (x 0).val) (hk1 : (k 1).val = (x 1).val) :
    (iblk0 V c 0 t : Vec Ideal S4000x128 .f32) x = (V c main_arg0 : S100000x128.Idx → EReal) k := by
  obtain ⟨e0, e1, -⟩ := idx0 t
  unfold iblk0
  rw [View.read_apply]
  show V c main_arg0 _ = V c main_arg0 _
  refine congrArg (V c main_arg0) (funext fun a => Fin.ext ?_)
  match a with
  | ⟨0, _⟩ => show win0_0.index t 0 * 4000 + 1 * (x 0).val = (k 0).val; rw [e0, hk0]; omega
  | ⟨1, _⟩ => show win0_0.index t 1 * 128 + 1 * (x 1).val = (k 1).val; rw [e1, hk1]; omega

theorem rows0_1 (c : Dev nD) (t : Fin cfg0.N) (x : S4000x128.Idx) (k : S100000x128.Idx)
    (hk0 : (k 0).val = 4000 * t.val + (x 0).val) (hk1 : (k 1).val = (x 1).val) :
    (iblk0 V c 1 t : Vec Ideal S4000x128 .f32) x = (V c main_v11 : S100000x128.Idx → EReal) k := by
  obtain ⟨-, -, e0, e1, -⟩ := idx0 t
  unfold iblk0
  rw [View.read_apply]
  show V c main_v11 _ = V c main_v11 _
  refine congrArg (V c main_v11) (funext fun a => Fin.ext ?_)
  match a with
  | ⟨0, _⟩ => show win0_1.index t 0 * 4000 + 1 * (x 0).val = (k 0).val; rw [e0, hk0]; omega
  | ⟨1, _⟩ => show win0_1.index t 1 * 128 + 1 * (x 1).val = (k 1).val; rw [e1, hk1]; omega

/-- A small input's block at any point is its whole array. -/
theorem whole0_2 (c : Dev nD) (t : Fin cfg0.N) (x : S128x512.Idx) :
    (iblk0 V c 2 t : Vec Ideal S128x512 .bf16) x = (V c main_v22 : S128x512.Idx → EReal) x := by
  obtain ⟨-, -, -, -, e0, e1, -⟩ := idx0 t
  unfold iblk0
  rw [View.read_apply]
  show V c main_v22 _ = V c main_v22 _
  refine congrArg (V c main_v22) (funext fun a => Fin.ext ?_)
  match a with
  | ⟨0, _⟩ => show win0_2.index t 0 * 128 + 1 * (x 0).val = (x 0).val; rw [e0]; omega
  | ⟨1, _⟩ => show win0_2.index t 1 * 512 + 1 * (x 1).val = (x 1).val; rw [e1]; omega

theorem whole0_3 (c : Dev nD) (t : Fin cfg0.N) (x : S1x512.Idx) :
    (iblk0 V c 3 t : Vec Ideal S1x512 .f32) x = (V c main_v20 : S1x512.Idx → EReal) x := by
  obtain ⟨-, -, -, -, -, -, e0, e1, -⟩ := idx0 t
  unfold iblk0
  rw [View.read_apply]
  show V c main_v20 _ = V c main_v20 _
  refine congrArg (V c main_v20) (funext fun a => Fin.ext ?_)
  match a with
  | ⟨0, _⟩ => show win0_3.index t 0 * 1 + 1 * (x 0).val = (x 0).val; rw [e0]; omega
  | ⟨1, _⟩ => show win0_3.index t 1 * 512 + 1 * (x 1).val = (x 1).val; rw [e1]; omega

theorem whole0_4 (c : Dev nD) (t : Fin cfg0.N) (x : S512x128.Idx) :
    (iblk0 V c 4 t : Vec Ideal S512x128 .bf16) x = (V c main_v23 : S512x128.Idx → EReal) x := by
  obtain ⟨-, -, -, -, -, -, -, -, e0, e1, -⟩ := idx0 t
  unfold iblk0
  rw [View.read_apply]
  show V c main_v23 _ = V c main_v23 _
  refine congrArg (V c main_v23) (funext fun a => Fin.ext ?_)
  match a with
  | ⟨0, _⟩ => show win0_4.index t 0 * 512 + 1 * (x 0).val = (x 0).val; rw [e0]; omega
  | ⟨1, _⟩ => show win0_4.index t 1 * 128 + 1 * (x 1).val = (x 1).val; rw [e1]; omega

theorem whole0_5 (c : Dev nD) (t : Fin cfg0.N) (x : S1x128.Idx) :
    (iblk0 V c 5 t : Vec Ideal S1x128 .f32) x = (V c main_v21 : S1x128.Idx → EReal) x := by
  obtain ⟨-, -, -, -, -, -, -, -, -, -, e0, e1, -⟩ := idx0 t
  unfold iblk0
  rw [View.read_apply]
  show V c main_v21 _ = V c main_v21 _
  refine congrArg (V c main_v21) (funext fun a => Fin.ext ?_)
  match a with
  | ⟨0, _⟩ => show win0_5.index t 0 * 1 + 1 * (x 0).val = (x 0).val; rw [e0]; omega
  | ⟨1, _⟩ => show win0_5.index t 1 * 128 + 1 * (x 1).val = (x 1).val; rw [e1]; omega

/-- WHAT POINT `t` WRITES BACK is block `t` of `layerOf` of the arrays as the region finds them. -/
theorem flushed0 (c : Dev nD) (t : Fin cfg0.N) :
    (dat0 V c).flushed 6 t = ((cfg0.win 6).blk t).view.read (Elt Ideal)
      (layerOf (V c main_arg0) (V c main_v11) (V c main_v22) (V c main_v20) (V c main_v23) (V c main_v21)) := by
  show (cfg0.win 6).cut (grid0.coords t) ((dat0 V c).after 6 t) = _
  rw [after0_6]
  unfold out0_6
  rw [View.canon_unit_zero hz]
  simp only [View.ld_unit_zero (S := S4000x128) hz, View.ld_unit_zero (S := S128x512) hz, View.ld_unit_zero (S := S1x512) hz,
    View.ld_unit_zero (S := S512x128) hz, View.ld_unit_zero (S := S1x128) hz]
  have hN : cfg0.N = 25 := N_0
  have ht : t.val < 25 := hN ▸ t.isLt
  obtain ⟨-, -, -, -, -, -, -, -, -, -, -, -, e60, e61⟩ := idx0 t
  funext y
  show k0_pay1 (F := Ideal) (iblk0 V c 0 t) (iblk0 V c 1 t) (iblk0 V c 2 t) (iblk0 V c 3 t) (iblk0 V c 4 t) (iblk0 V c 5 t) y
    = layerOf (V c main_arg0) (V c main_v11) (V c main_v22) (V c main_v20) (V c main_v23) (V c main_v21) (((cfg0.win 6).blk t).view.emb y)
  refine layer_block0 _ _ _ _ _ _ _ _ _ _ _ _ (4000 * t.val) (by omega)
    (fun r i => rows0_0 V c t (ix2 r i) _ rfl rfl) (fun r i => rows0_1 V c t (ix2 r i) _ rfl rfl)
    (fun i k => whole0_2 V c t (ix2 i k)) (fun k => whole0_3 V c t (ix2 (0 : Fin 1) k))
    (fun k q => whole0_4 V c t (ix2 k q)) (fun q => whole0_5 V c t (ix2 (0 : Fin 1) q)) y _ ?_ ?_
  · show win0_6.index t 0 * 4000 + 1 * (y 0).val = 4000 * t.val + (y 0).val
    rw [e60]; omega
  · show win0_6.index t 1 * 128 + 1 * (y 1).val = (y 1).val
    rw [e61]; omega

/-- An index of the output array is in point `t`'s block iff each coordinate is in the block's range. -/
theorem mem_blk0 (t : Fin cfg0.N) (i : S100000x128.Idx) :
    i ∈ ((cfg0.win 6).blk t).view.set ↔ ∀ a : Fin 2, win0_6.index t a * S4000x128.size a ≤ (i a).val
      ∧ (i a).val < win0_6.index t a * S4000x128.size a + S4000x128.size a := by
  show i ∈ ((View.whole main_v24).slice (win0_6.rect t)).set ↔ _
  rw [View.set_slice_whole, Rect.mem_set_unit]
  exact Iff.rfl

/-- Row `n` of the output lies in the block of point `n / 4000`. -/
theorem cover0 (i : S100000x128.Idx) :
    ∃ t : Fin cfg0.N, (cfg0.win 6).flush t = true ∧ i ∈ ((cfg0.win 6).blk t).view.set := by
  have hi0 : (i 0).val < 100000 := (i 0).isLt
  have hi1 : (i 1).val < 128 := (i 1).isLt
  have hN : cfg0.N = 25 := N_0
  have hlt : (i 0).val / 4000 < cfg0.N := by rw [hN]; omega
  refine ⟨⟨(i 0).val / 4000, hlt⟩, flush0_6 _, ?_⟩
  rw [mem_blk0]
  obtain ⟨-, -, -, -, -, -, -, -, -, -, -, -, e60, e61⟩ := idx0 ⟨(i 0).val / 4000, hlt⟩
  intro a
  match a with
  | ⟨0, _⟩ =>
    show win0_6.index ⟨(i 0).val / 4000, hlt⟩ 0 * 4000 ≤ (i 0).val ∧ (i 0).val < win0_6.index ⟨(i 0).val / 4000, hlt⟩ 0 * 4000 + 4000
    rw [e60]; show (i 0).val / 4000 * 4000 ≤ (i 0).val ∧ (i 0).val < (i 0).val / 4000 * 4000 + 4000; omega
  | ⟨1, _⟩ =>
    show win0_6.index ⟨(i 0).val / 4000, hlt⟩ 1 * 128 ≤ (i 1).val ∧ (i 1).val < win0_6.index ⟨(i 0).val / 4000, hlt⟩ 1 * 128 + 128
    rw [e61]; omega

/-- THE OUTPUT ARRAY after the region. -/
theorem final0 (c : Dev nD) : (dat0 V c).arrAt 6 cfg0.N
    = layerOf (V c main_arg0) (V c main_v11) (V c main_v22) (V c main_v20) (V c main_v23) (V c main_v21) :=
  (dat0 V c).arrAt_eq_of_cover 6 _ (fun t _ => flushed0 V c t) cover0

end Cert.KernelIdeal.Blk

end
-- ==== Proof.Region1.lean ====
/-
  Region 1 (layer 1's perceptron): the output array after the region is `layerOf` of the six arrays the
  region finds. Point `t` of the 25 reads rows `4000 t …` of the two row-blocked arrays and the four small
  arrays whole (their index maps are constant), and writes back rows `4000 t …` of the output; the 25 row
  blocks cover the output.
-/
import proofs.«100485_j40132174414143_2_alg».proof.Proof.Gen.KernelIdeal.Frame
import proofs.«100485_j40132174414143_2_alg».proof.Proof.LayerBlock
import Idealize.ShloMosaic.Lib.Pipeline.Value

set_option maxRecDepth 16384

noncomputable section

namespace Cert.KernelIdeal.Blk

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

/-- The printed index maps over the grid: the two row-blocked inputs and the output move with the point along
    axis 0, the four small inputs stay at block (0, 0). -/
theorem idx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- A row-blocked input's block at point `t` is rows `4000 t …` of its array. -/
theorem rows1_0 (c : Dev nD) (t : Fin cfg1.N) (x : S4000x128.Idx) (k : S100000x128.Idx)
    (hk0 : (k 0).val = 4000 * t.val + (x 0).val) (hk1 : (k 1).val = (x 1).val) :
    (iblk1 V c 0 t : Vec Ideal S4000x128 .f32) x = (V c main_v24 : S100000x128.Idx → EReal) k := by
  obtain ⟨e0, e1, -⟩ := idx1 t
  unfold iblk1
  rw [View.read_apply]
  show V c main_v24 _ = V c main_v24 _
  refine congrArg (V c main_v24) (funext fun a => Fin.ext ?_)
  match a with
  | ⟨0, _⟩ => show win1_0.index t 0 * 4000 + 1 * (x 0).val = (k 0).val; rw [e0, hk0]; omega
  | ⟨1, _⟩ => show win1_0.index t 1 * 128 + 1 * (x 1).val = (k 1).val; rw [e1, hk1]; omega

theorem rows1_1 (c : Dev nD) (t : Fin cfg1.N) (x : S4000x128.Idx) (k : S100000x128.Idx)
    (hk0 : (k 0).val = 4000 * t.val + (x 0).val) (hk1 : (k 1).val = (x 1).val) :
    (iblk1 V c 1 t : Vec Ideal S4000x128 .f32) x = (V c main_v36 : S100000x128.Idx → EReal) k := by
  obtain ⟨-, -, e0, e1, -⟩ := idx1 t
  unfold iblk1
  rw [View.read_apply]
  show V c main_v36 _ = V c main_v36 _
  refine congrArg (V c main_v36) (funext fun a => Fin.ext ?_)
  match a with
  | ⟨0, _⟩ => show win1_1.index t 0 * 4000 + 1 * (x 0).val = (k 0).val; rw [e0, hk0]; omega
  | ⟨1, _⟩ => show win1_1.index t 1 * 128 + 1 * (x 1).val = (k 1).val; rw [e1, hk1]; omega

/-- A small input's block at any point is its whole array. -/
theorem whole1_2 (c : Dev nD) (t : Fin cfg1.N) (x : S128x512.Idx) :
    (iblk1 V c 2 t : Vec Ideal S128x512 .bf16) x = (V c main_v47 : S128x512.Idx → EReal) x := by
  obtain ⟨-, -, -, -, e0, e1, -⟩ := idx1 t
  unfold iblk1
  rw [View.read_apply]
  show V c main_v47 _ = V c main_v47 _
  refine congrArg (V c main_v47) (funext fun a => Fin.ext ?_)
  match a with
  | ⟨0, _⟩ => show win1_2.index t 0 * 128 + 1 * (x 0).val = (x 0).val; rw [e0]; omega
  | ⟨1, _⟩ => show win1_2.index t 1 * 512 + 1 * (x 1).val = (x 1).val; rw [e1]; omega

theorem whole1_3 (c : Dev nD) (t : Fin cfg1.N) (x : S1x512.Idx) :
    (iblk1 V c 3 t : Vec Ideal S1x512 .f32) x = (V c main_v45 : S1x512.Idx → EReal) x := by
  obtain ⟨-, -, -, -, -, -, e0, e1, -⟩ := idx1 t
  unfold iblk1
  rw [View.read_apply]
  show V c main_v45 _ = V c main_v45 _
  refine congrArg (V c main_v45) (funext fun a => Fin.ext ?_)
  match a with
  | ⟨0, _⟩ => show win1_3.index t 0 * 1 + 1 * (x 0).val = (x 0).val; rw [e0]; omega
  | ⟨1, _⟩ => show win1_3.index t 1 * 512 + 1 * (x 1).val = (x 1).val; rw [e1]; omega

theorem whole1_4 (c : Dev nD) (t : Fin cfg1.N) (x : S512x128.Idx) :
    (iblk1 V c 4 t : Vec Ideal S512x128 .bf16) x = (V c main_v48 : S512x128.Idx → EReal) x := by
  obtain ⟨-, -, -, -, -, -, -, -, e0, e1, -⟩ := idx1 t
  unfold iblk1
  rw [View.read_apply]
  show V c main_v48 _ = V c main_v48 _
  refine congrArg (V c main_v48) (funext fun a => Fin.ext ?_)
  match a with
  | ⟨0, _⟩ => show win1_4.index t 0 * 512 + 1 * (x 0).val = (x 0).val; rw [e0]; omega
  | ⟨1, _⟩ => show win1_4.index t 1 * 128 + 1 * (x 1).val = (x 1).val; rw [e1]; omega

theorem whole1_5 (c : Dev nD) (t : Fin cfg1.N) (x : S1x128.Idx) :
    (iblk1 V c 5 t : Vec Ideal S1x128 .f32) x = (V c main_v46 : S1x128.Idx → EReal) x := by
  obtain ⟨-, -, -, -, -, -, -, -, -, -, e0, e1, -⟩ := idx1 t
  unfold iblk1
  rw [View.read_apply]
  show V c main_v46 _ = V c main_v46 _
  refine congrArg (V c main_v46) (funext fun a => Fin.ext ?_)
  match a with
  | ⟨0, _⟩ => show win1_5.index t 0 * 1 + 1 * (x 0).val = (x 0).val; rw [e0]; omega
  | ⟨1, _⟩ => show win1_5.index t 1 * 128 + 1 * (x 1).val = (x 1).val; rw [e1]; omega

/-- WHAT POINT `t` WRITES BACK is block `t` of `layerOf` of the arrays as the region finds them. -/
theorem flushed1 (c : Dev nD) (t : Fin cfg1.N) :
    (dat1 V c).flushed 6 t = ((cfg1.win 6).blk t).view.read (Elt Ideal)
      (layerOf (V c main_v24) (V c main_v36) (V c main_v47) (V c main_v45) (V c main_v48) (V c main_v46)) := by
  show (cfg1.win 6).cut (grid1.coords t) ((dat1 V c).after 6 t) = _
  rw [after1_6]
  unfold out1_6
  rw [View.canon_unit_zero hz]
  simp only [View.ld_unit_zero (S := S4000x128) hz, View.ld_unit_zero (S := S128x512) hz, View.ld_unit_zero (S := S1x512) hz,
    View.ld_unit_zero (S := S512x128) hz, View.ld_unit_zero (S := S1x128) hz]
  have hN : cfg1.N = 25 := N_1
  have ht : t.val < 25 := hN ▸ t.isLt
  obtain ⟨-, -, -, -, -, -, -, -, -, -, -, -, e60, e61⟩ := idx1 t
  funext y
  show k1_pay1 (F := Ideal) (iblk1 V c 0 t) (iblk1 V c 1 t) (iblk1 V c 2 t) (iblk1 V c 3 t) (iblk1 V c 4 t) (iblk1 V c 5 t) y
    = layerOf (V c main_v24) (V c main_v36) (V c main_v47) (V c main_v45) (V c main_v48) (V c main_v46) (((cfg1.win 6).blk t).view.emb y)
  refine layer_block1 _ _ _ _ _ _ _ _ _ _ _ _ (4000 * t.val) (by omega)
    (fun r i => rows1_0 V c t (ix2 r i) _ rfl rfl) (fun r i => rows1_1 V c t (ix2 r i) _ rfl rfl)
    (fun i k => whole1_2 V c t (ix2 i k)) (fun k => whole1_3 V c t (ix2 (0 : Fin 1) k))
    (fun k q => whole1_4 V c t (ix2 k q)) (fun q => whole1_5 V c t (ix2 (0 : Fin 1) q)) y _ ?_ ?_
  · show win1_6.index t 0 * 4000 + 1 * (y 0).val = 4000 * t.val + (y 0).val
    rw [e60]; omega
  · show win1_6.index t 1 * 128 + 1 * (y 1).val = (y 1).val
    rw [e61]; omega

/-- An index of the output array is in point `t`'s block iff each coordinate is in the block's range. -/
theorem mem_blk1 (t : Fin cfg1.N) (i : S100000x128.Idx) :
    i ∈ ((cfg1.win 6).blk t).view.set ↔ ∀ a : Fin 2, win1_6.index t a * S4000x128.size a ≤ (i a).val
      ∧ (i a).val < win1_6.index t a * S4000x128.size a + S4000x128.size a := by
  show i ∈ ((View.whole main_v49).slice (win1_6.rect t)).set ↔ _
  rw [View.set_slice_whole, Rect.mem_set_unit]
  exact Iff.rfl

/-- Row `n` of the output lies in the block of point `n / 4000`. -/
theorem cover1 (i : S100000x128.Idx) :
    ∃ t : Fin cfg1.N, (cfg1.win 6).flush t = true ∧ i ∈ ((cfg1.win 6).blk t).view.set := by
  have hi0 : (i 0).val < 100000 := (i 0).isLt
  have hi1 : (i 1).val < 128 := (i 1).isLt
  have hN : cfg1.N = 25 := N_1
  have hlt : (i 0).val / 4000 < cfg1.N := by rw [hN]; omega
  refine ⟨⟨(i 0).val / 4000, hlt⟩, flush1_6 _, ?_⟩
  rw [mem_blk1]
  obtain ⟨-, -, -, -, -, -, -, -, -, -, -, -, e60, e61⟩ := idx1 ⟨(i 0).val / 4000, hlt⟩
  intro a
  match a with
  | ⟨0, _⟩ =>
    show win1_6.index ⟨(i 0).val / 4000, hlt⟩ 0 * 4000 ≤ (i 0).val ∧ (i 0).val < win1_6.index ⟨(i 0).val / 4000, hlt⟩ 0 * 4000 + 4000
    rw [e60]; show (i 0).val / 4000 * 4000 ≤ (i 0).val ∧ (i 0).val < (i 0).val / 4000 * 4000 + 4000; omega
  | ⟨1, _⟩ =>
    show win1_6.index ⟨(i 0).val / 4000, hlt⟩ 1 * 128 ≤ (i 1).val ∧ (i 1).val < win1_6.index ⟨(i 0).val / 4000, hlt⟩ 1 * 128 + 128
    rw [e61]; omega

/-- THE OUTPUT ARRAY after the region. -/
theorem final1 (c : Dev nD) : (dat1 V c).arrAt 6 cfg1.N
    = layerOf (V c main_v24) (V c main_v36) (V c main_v47) (V c main_v45) (V c main_v48) (V c main_v46) :=
  (dat1 V c).arrAt_eq_of_cover 6 _ (fun t _ => flushed1 V c t) cover1

end Cert.KernelIdeal.Blk

end
-- ==== Proof.Region2.lean ====
/-
  Region 2 (layer 2's perceptron): the output array after the region is `layerOf` of the six arrays the
  region finds. Point `t` of the 25 reads rows `4000 t …` of the two row-blocked arrays and the four small
  arrays whole (their index maps are constant), and writes back rows `4000 t …` of the output; the 25 row
  blocks cover the output.
-/
import proofs.«100485_j40132174414143_2_alg».proof.Proof.Gen.KernelIdeal.Frame
import proofs.«100485_j40132174414143_2_alg».proof.Proof.LayerBlock
import Idealize.ShloMosaic.Lib.Pipeline.Value

set_option maxRecDepth 16384

noncomputable section

namespace Cert.KernelIdeal.Blk

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

/-- The printed index maps over the grid: the two row-blocked inputs and the output move with the point along
    axis 0, the four small inputs stay at block (0, 0). -/
theorem idx2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

/-- A row-blocked input's block at point `t` is rows `4000 t …` of its array. -/
theorem rows2_0 (c : Dev nD) (t : Fin cfg2.N) (x : S4000x128.Idx) (k : S100000x128.Idx)
    (hk0 : (k 0).val = 4000 * t.val + (x 0).val) (hk1 : (k 1).val = (x 1).val) :
    (iblk2 V c 0 t : Vec Ideal S4000x128 .f32) x = (V c main_v49 : S100000x128.Idx → EReal) k := by
  obtain ⟨e0, e1, -⟩ := idx2 t
  unfold iblk2
  rw [View.read_apply]
  show V c main_v49 _ = V c main_v49 _
  refine congrArg (V c main_v49) (funext fun a => Fin.ext ?_)
  match a with
  | ⟨0, _⟩ => show win2_0.index t 0 * 4000 + 1 * (x 0).val = (k 0).val; rw [e0, hk0]; omega
  | ⟨1, _⟩ => show win2_0.index t 1 * 128 + 1 * (x 1).val = (k 1).val; rw [e1, hk1]; omega

theorem rows2_1 (c : Dev nD) (t : Fin cfg2.N) (x : S4000x128.Idx) (k : S100000x128.Idx)
    (hk0 : (k 0).val = 4000 * t.val + (x 0).val) (hk1 : (k 1).val = (x 1).val) :
    (iblk2 V c 1 t : Vec Ideal S4000x128 .f32) x = (V c main_v61 : S100000x128.Idx → EReal) k := by
  obtain ⟨-, -, e0, e1, -⟩ := idx2 t
  unfold iblk2
  rw [View.read_apply]
  show V c main_v61 _ = V c main_v61 _
  refine congrArg (V c main_v61) (funext fun a => Fin.ext ?_)
  match a with
  | ⟨0, _⟩ => show win2_1.index t 0 * 4000 + 1 * (x 0).val = (k 0).val; rw [e0, hk0]; omega
  | ⟨1, _⟩ => show win2_1.index t 1 * 128 + 1 * (x 1).val = (k 1).val; rw [e1, hk1]; omega

/-- A small input's block at any point is its whole array. -/
theorem whole2_2 (c : Dev nD) (t : Fin cfg2.N) (x : S128x512.Idx) :
    (iblk2 V c 2 t : Vec Ideal S128x512 .bf16) x = (V c main_v72 : S128x512.Idx → EReal) x := by
  obtain ⟨-, -, -, -, e0, e1, -⟩ := idx2 t
  unfold iblk2
  rw [View.read_apply]
  show V c main_v72 _ = V c main_v72 _
  refine congrArg (V c main_v72) (funext fun a => Fin.ext ?_)
  match a with
  | ⟨0, _⟩ => show win2_2.index t 0 * 128 + 1 * (x 0).val = (x 0).val; rw [e0]; omega
  | ⟨1, _⟩ => show win2_2.index t 1 * 512 + 1 * (x 1).val = (x 1).val; rw [e1]; omega

theorem whole2_3 (c : Dev nD) (t : Fin cfg2.N) (x : S1x512.Idx) :
    (iblk2 V c 3 t : Vec Ideal S1x512 .f32) x = (V c main_v70 : S1x512.Idx → EReal) x := by
  obtain ⟨-, -, -, -, -, -, e0, e1, -⟩ := idx2 t
  unfold iblk2
  rw [View.read_apply]
  show V c main_v70 _ = V c main_v70 _
  refine congrArg (V c main_v70) (funext fun a => Fin.ext ?_)
  match a with
  | ⟨0, _⟩ => show win2_3.index t 0 * 1 + 1 * (x 0).val = (x 0).val; rw [e0]; omega
  | ⟨1, _⟩ => show win2_3.index t 1 * 512 + 1 * (x 1).val = (x 1).val; rw [e1]; omega

theorem whole2_4 (c : Dev nD) (t : Fin cfg2.N) (x : S512x128.Idx) :
    (iblk2 V c 4 t : Vec Ideal S512x128 .bf16) x = (V c main_v73 : S512x128.Idx → EReal) x := by
  obtain ⟨-, -, -, -, -, -, -, -, e0, e1, -⟩ := idx2 t
  unfold iblk2
  rw [View.read_apply]
  show V c main_v73 _ = V c main_v73 _
  refine congrArg (V c main_v73) (funext fun a => Fin.ext ?_)
  match a with
  | ⟨0, _⟩ => show win2_4.index t 0 * 512 + 1 * (x 0).val = (x 0).val; rw [e0]; omega
  | ⟨1, _⟩ => show win2_4.index t 1 * 128 + 1 * (x 1).val = (x 1).val; rw [e1]; omega

theorem whole2_5 (c : Dev nD) (t : Fin cfg2.N) (x : S1x128.Idx) :
    (iblk2 V c 5 t : Vec Ideal S1x128 .f32) x = (V c main_v71 : S1x128.Idx → EReal) x := by
  obtain ⟨-, -, -, -, -, -, -, -, -, -, e0, e1, -⟩ := idx2 t
  unfold iblk2
  rw [View.read_apply]
  show V c main_v71 _ = V c main_v71 _
  refine congrArg (V c main_v71) (funext fun a => Fin.ext ?_)
  match a with
  | ⟨0, _⟩ => show win2_5.index t 0 * 1 + 1 * (x 0).val = (x 0).val; rw [e0]; omega
  | ⟨1, _⟩ => show win2_5.index t 1 * 128 + 1 * (x 1).val = (x 1).val; rw [e1]; omega

/-- WHAT POINT `t` WRITES BACK is block `t` of `layerOf` of the arrays as the region finds them. -/
theorem flushed2 (c : Dev nD) (t : Fin cfg2.N) :
    (dat2 V c).flushed 6 t = ((cfg2.win 6).blk t).view.read (Elt Ideal)
      (layerOf (V c main_v49) (V c main_v61) (V c main_v72) (V c main_v70) (V c main_v73) (V c main_v71)) := by
  show (cfg2.win 6).cut (grid2.coords t) ((dat2 V c).after 6 t) = _
  rw [after2_6]
  unfold out2_6
  rw [View.canon_unit_zero hz]
  simp only [View.ld_unit_zero (S := S4000x128) hz, View.ld_unit_zero (S := S128x512) hz, View.ld_unit_zero (S := S1x512) hz,
    View.ld_unit_zero (S := S512x128) hz, View.ld_unit_zero (S := S1x128) hz]
  have hN : cfg2.N = 25 := N_2
  have ht : t.val < 25 := hN ▸ t.isLt
  obtain ⟨-, -, -, -, -, -, -, -, -, -, -, -, e60, e61⟩ := idx2 t
  funext y
  show k2_pay1 (F := Ideal) (iblk2 V c 0 t) (iblk2 V c 1 t) (iblk2 V c 2 t) (iblk2 V c 3 t) (iblk2 V c 4 t) (iblk2 V c 5 t) y
    = layerOf (V c main_v49) (V c main_v61) (V c main_v72) (V c main_v70) (V c main_v73) (V c main_v71) (((cfg2.win 6).blk t).view.emb y)
  refine layer_block2 _ _ _ _ _ _ _ _ _ _ _ _ (4000 * t.val) (by omega)
    (fun r i => rows2_0 V c t (ix2 r i) _ rfl rfl) (fun r i => rows2_1 V c t (ix2 r i) _ rfl rfl)
    (fun i k => whole2_2 V c t (ix2 i k)) (fun k => whole2_3 V c t (ix2 (0 : Fin 1) k))
    (fun k q => whole2_4 V c t (ix2 k q)) (fun q => whole2_5 V c t (ix2 (0 : Fin 1) q)) y _ ?_ ?_
  · show win2_6.index t 0 * 4000 + 1 * (y 0).val = 4000 * t.val + (y 0).val
    rw [e60]; omega
  · show win2_6.index t 1 * 128 + 1 * (y 1).val = (y 1).val
    rw [e61]; omega

/-- An index of the output array is in point `t`'s block iff each coordinate is in the block's range. -/
theorem mem_blk2 (t : Fin cfg2.N) (i : S100000x128.Idx) :
    i ∈ ((cfg2.win 6).blk t).view.set ↔ ∀ a : Fin 2, win2_6.index t a * S4000x128.size a ≤ (i a).val
      ∧ (i a).val < win2_6.index t a * S4000x128.size a + S4000x128.size a := by
  show i ∈ ((View.whole main_v74).slice (win2_6.rect t)).set ↔ _
  rw [View.set_slice_whole, Rect.mem_set_unit]
  exact Iff.rfl

/-- Row `n` of the output lies in the block of point `n / 4000`. -/
theorem cover2 (i : S100000x128.Idx) :
    ∃ t : Fin cfg2.N, (cfg2.win 6).flush t = true ∧ i ∈ ((cfg2.win 6).blk t).view.set := by
  have hi0 : (i 0).val < 100000 := (i 0).isLt
  have hi1 : (i 1).val < 128 := (i 1).isLt
  have hN : cfg2.N = 25 := N_2
  have hlt : (i 0).val / 4000 < cfg2.N := by rw [hN]; omega
  refine ⟨⟨(i 0).val / 4000, hlt⟩, flush2_6 _, ?_⟩
  rw [mem_blk2]
  obtain ⟨-, -, -, -, -, -, -, -, -, -, -, -, e60, e61⟩ := idx2 ⟨(i 0).val / 4000, hlt⟩
  intro a
  match a with
  | ⟨0, _⟩ =>
    show win2_6.index ⟨(i 0).val / 4000, hlt⟩ 0 * 4000 ≤ (i 0).val ∧ (i 0).val < win2_6.index ⟨(i 0).val / 4000, hlt⟩ 0 * 4000 + 4000
    rw [e60]; show (i 0).val / 4000 * 4000 ≤ (i 0).val ∧ (i 0).val < (i 0).val / 4000 * 4000 + 4000; omega
  | ⟨1, _⟩ =>
    show win2_6.index ⟨(i 0).val / 4000, hlt⟩ 1 * 128 ≤ (i 1).val ∧ (i 1).val < win2_6.index ⟨(i 0).val / 4000, hlt⟩ 1 * 128 + 128
    rw [e61]; omega

/-- THE OUTPUT ARRAY after the region. -/
theorem final2 (c : Dev nD) : (dat2 V c).arrAt 6 cfg2.N
    = layerOf (V c main_v49) (V c main_v61) (V c main_v72) (V c main_v70) (V c main_v73) (V c main_v71) :=
  (dat2 V c).arrAt_eq_of_cover 6 _ (fun t _ => flushed2 V c t) cover2

end Cert.KernelIdeal.Blk

end
-- ==== Proof.ScoreBlock.lean ====
/-
  The scorer's output as one function of the six arrays its region reads: score `n` is the rectified
  128→64 layer on the product of rows `n` of the two gathered arrays, followed by the inner product with the
  64-row and the offset. A block of 4000 consecutive scores computed by the body from blocks that are the
  matching rows of the arrays is the restriction of that function.
-/
import proofs.«100485_j40132174414143_2_alg».proof.Proof.Payload
import Idealize.ShloMosaic.Lib.ValueIdx

set_option maxRecDepth 16384

noncomputable section

namespace Cert.KernelIdeal.Blk3

open Idealize.ShloMosaic Idealize.ShloMosaic.ValueIdx Cert.KernelIdeal Cert.KernelIdeal.Gen

/-- Score `n` from the arrays as the region finds them:
    `∑ k, max (∑ i, (a0[n,i] · a1[n,i]) · a2[i,k] + a3[0,k]) 0 · a4[0,k] + a5[0,0]`. -/
def scoreOf (a0 a1 : FVec Ideal S200000x128 .f32) (a2 : FVec Ideal S128x64 .bf16) (a3 a4 : FVec Ideal S1x64 .f32)
    (a5 : FVec Ideal S1x1 .f32) : FVec Ideal S200000x1 .f32 :=
  fun j => (∑ k : Fin 64, max ((∑ i : Fin 128,
      (a0 (ix2 (⟨(j 0).val, idx2_lt0 j⟩ : Fin 200000) i) * a1 (ix2 (⟨(j 0).val, idx2_lt0 j⟩ : Fin 200000) i)) * a2 (ix2 i k))
        + a3 (ix2 (0 : Fin 1) k)) 0 * a4 (ix2 (0 : Fin 1) k)) + a5 (ix2 (0 : Fin 1) (0 : Fin 1))

theorem scoreOf_at (a0 a1 : FVec Ideal S200000x128 .f32) (a2 : FVec Ideal S128x64 .bf16) (a3 a4 : FVec Ideal S1x64 .f32)
    (a5 : FVec Ideal S1x1 .f32) (j : S200000x1.Idx) (n : Fin 200000) (hn : (j 0).val = n.val) :
    scoreOf a0 a1 a2 a3 a4 a5 j = (∑ k : Fin 64, max ((∑ i : Fin 128,
      (a0 (ix2 n i) * a1 (ix2 n i)) * a2 (ix2 i k)) + a3 (ix2 (0 : Fin 1) k)) 0 * a4 (ix2 (0 : Fin 1) k))
        + a5 (ix2 (0 : Fin 1) (0 : Fin 1)) := by
  have e0 : (⟨(j 0).val, idx2_lt0 j⟩ : Fin 200000) = n := Fin.ext hn
  unfold scoreOf
  rw [e0]

/-- The body on blocks that are rows `b … b + 3999` of the two gathered arrays and the four small arrays whole
    is `scoreOf` of the arrays at the corresponding score. -/
theorem score_block (x0 x1 : Vec Ideal S4000x128 .f32) (x2 : Vec Ideal S128x64 .bf16) (x3 x4 : Vec Ideal S1x64 .f32)
    (x5 : Vec Ideal S1x1 .f32)
    (a0 a1 : FVec Ideal S200000x128 .f32) (a2 : FVec Ideal S128x64 .bf16) (a3 a4 : FVec Ideal S1x64 .f32)
    (a5 : FVec Ideal S1x1 .f32) (b : Nat) (hb : b + 4000 ≤ 200000)
    (h0 : ∀ (r : Fin 4000) (i : Fin 128), x0 (ix2 r i) = a0 (ix2 (⟨b + r.val, by have := r.isLt; omega⟩ : Fin 200000) i))
    (h1 : ∀ (r : Fin 4000) (i : Fin 128), x1 (ix2 r i) = a1 (ix2 (⟨b + r.val, by have := r.isLt; omega⟩ : Fin 200000) i))
    (h2 : ∀ (i : Fin 128) (k : Fin 64), x2 (ix2 i k) = a2 (ix2 i k))
    (h3 : ∀ k : Fin 64, x3 (ix2 (0 : Fin 1) k) = a3 (ix2 (0 : Fin 1) k))
    (h4 : ∀ k : Fin 64, x4 (ix2 (0 : Fin 1) k) = a4 (ix2 (0 : Fin 1) k))
    (h5 : x5 (ix2 (0 : Fin 1) (0 : Fin 1)) = a5 (ix2 (0 : Fin 1) (0 : Fin 1)))
    (y : S4000x1.Idx) (j : S200000x1.Idx) (hj0 : (j 0).val = b + (y 0).val) :
    k3_pay1 (F := Ideal) x0 x1 x2 x3 x4 x5 y = scoreOf a0 a1 a2 a3 a4 a5 j := by
  obtain ⟨r, q, rfl⟩ : ∃ (r : Fin 4000) (q : Fin 1), y = ix2 r q := ⟨y 0, y 1, eq_ix2 y⟩
  obtain rfl : q = 0 := Subsingleton.elim _ _
  rw [Cert.Gin.Pay.k3_apply, scoreOf_at a0 a1 a2 a3 a4 a5 j (⟨b + r.val, by have := r.isLt; omega⟩ : Fin 200000) hj0]
  simp only [h0, h1, h2, h3, h4, h5]

end Cert.KernelIdeal.Blk3

end
-- ==== Proof.Region3.lean ====
/-
  Region 3 (the link scorer): the output array after the region, 200000 scores, as one function of the six
  arrays the region finds. Point `t` of the 50 reads rows `4000 t …` of the two gathered feature arrays and the
  four small arrays whole, and writes back scores `4000 t … 4000 t + 3999`; score `n` depends only on row `n` of the
  two gathered arrays, and the 50 blocks cover the output.
-/
import proofs.«100485_j40132174414143_2_alg».proof.Proof.Gen.KernelIdeal.Frame
import proofs.«100485_j40132174414143_2_alg».proof.Proof.ScoreBlock
import Idealize.ShloMosaic.Lib.Pipeline.Value
import Idealize.ShloMosaic.Lib.ValueIdx

set_option maxRecDepth 16384

noncomputable section

namespace Cert.KernelIdeal.Blk3

open Idealize.ShloMosaic Idealize.ShloMosaic.TcCoe Idealize.SL.Sem Idealize.ShloMosaic.ValueIdx
open Idealize.ShloMosaic.Pipeline (Dat)
open Cert.KernelIdeal Cert.KernelIdeal.Gen

theorem hz : (![0, 0] : Fin 2 → Nat) = fun _ => 0 := funext fun a => by fin_cases a <;> rfl

variable (V : (c : Dev nD) → (b : Ref sig .tc) → Buf (Elt Ideal) ((c : Thread nD τ).loc b))

/-- The printed index maps over the grid. -/
theorem idx3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = t.val ∧ win3_6.index t (1 : Fin 2) = 0 :=
  (by decide +kernel : ∀ t : Fin grid3.N, _)

theorem rows3_0 (c : Dev nD) (t : Fin cfg3.N) (x : S4000x128.Idx) (k : S200000x128.Idx)
    (hk0 : (k 0).val = 4000 * t.val + (x 0).val) (hk1 : (k 1).val = (x 1).val) :
    (iblk3 V c 0 t : Vec Ideal S4000x128 .f32) x = (V c main_v83 : S200000x128.Idx → EReal) k := by
  obtain ⟨e0, e1, -⟩ := idx3 t
  unfold iblk3
  rw [View.read_apply]
  show V c main_v83 _ = V c main_v83 _
  refine congrArg (V c main_v83) (funext fun a => Fin.ext ?_)
  match a with
  | ⟨0, _⟩ => show win3_0.index t 0 * 4000 + 1 * (x 0).val = (k 0).val; rw [e0, hk0]; omega
  | ⟨1, _⟩ => show win3_0.index t 1 * 128 + 1 * (x 1).val = (k 1).val; rw [e1, hk1]; omega

theorem rows3_1 (c : Dev nD) (t : Fin cfg3.N) (x : S4000x128.Idx) (k : S200000x128.Idx)
    (hk0 : (k 0).val = 4000 * t.val + (x 0).val) (hk1 : (k 1).val = (x 1).val) :
    (iblk3 V c 1 t : Vec Ideal S4000x128 .f32) x = (V c main_v90 : S200000x128.Idx → EReal) k := by
  obtain ⟨-, -, e0, e1, -⟩ := idx3 t
  unfold iblk3
  rw [View.read_apply]
  show V c main_v90 _ = V c main_v90 _
  refine congrArg (V c main_v90) (funext fun a => Fin.ext ?_)
  match a with
  | ⟨0, _⟩ => show win3_1.index t 0 * 4000 + 1 * (x 0).val = (k 0).val; rw [e0, hk0]; omega
  | ⟨1, _⟩ => show win3_1.index t 1 * 128 + 1 * (x 1).val = (k 1).val; rw [e1, hk1]; omega

theorem whole3_2 (c : Dev nD) (t : Fin cfg3.N) (x : S128x64.Idx) :
    (iblk3 V c 2 t : Vec Ideal S128x64 .bf16) x = (V c main_v93 : S128x64.Idx → EReal) x := by
  obtain ⟨-, -, -, -, e0, e1, -⟩ := idx3 t
  unfold iblk3
  rw [View.read_apply]
  show V c main_v93 _ = V c main_v93 _
  refine congrArg (V c main_v93) (funext fun a => Fin.ext ?_)
  match a with
  | ⟨0, _⟩ => show win3_2.index t 0 * 128 + 1 * (x 0).val = (x 0).val; rw [e0]; omega
  | ⟨1, _⟩ => show win3_2.index t 1 * 64 + 1 * (x 1).val = (x 1).val; rw [e1]; omega

theorem whole3_3 (c : Dev nD) (t : Fin cfg3.N) (x : S1x64.Idx) :
    (iblk3 V c 3 t : Vec Ideal S1x64 .f32) x = (V c main_v91 : S1x64.Idx → EReal) x := by
  obtain ⟨-, -, -, -, -, -, e0, e1, -⟩ := idx3 t
  unfold iblk3
  rw [View.read_apply]
  show V c main_v91 _ = V c main_v91 _
  refine congrArg (V c main_v91) (funext fun a => Fin.ext ?_)
  match a with
  | ⟨0, _⟩ => show win3_3.index t 0 * 1 + 1 * (x 0).val = (x 0).val; rw [e0]; omega
  | ⟨1, _⟩ => show win3_3.index t 1 * 64 + 1 * (x 1).val = (x 1).val; rw [e1]; omega

theorem whole3_4 (c : Dev nD) (t : Fin cfg3.N) (x : S1x64.Idx) :
    (iblk3 V c 4 t : Vec Ideal S1x64 .f32) x = (V c main_v94 : S1x64.Idx → EReal) x := by
  obtain ⟨-, -, -, -, -, -, -, -, e0, e1, -⟩ := idx3 t
  unfold iblk3
  rw [View.read_apply]
  show V c main_v94 _ = V c main_v94 _
  refine congrArg (V c main_v94) (funext fun a => Fin.ext ?_)
  match a with
  | ⟨0, _⟩ => show win3_4.index t 0 * 1 + 1 * (x 0).val = (x 0).val; rw [e0]; omega
  | ⟨1, _⟩ => show win3_4.index t 1 * 64 + 1 * (x 1).val = (x 1).val; rw [e1]; omega

theorem whole3_5 (c : Dev nD) (t : Fin cfg3.N) (x : S1x1.Idx) :
    (iblk3 V c 5 t : Vec Ideal S1x1 .f32) x = (V c main_v92 : S1x1.Idx → EReal) x := by
  obtain ⟨-, -, -, -, -, -, -, -, -, -, e0, e1, -⟩ := idx3 t
  unfold iblk3
  rw [View.read_apply]
  show V c main_v92 _ = V c main_v92 _
  refine congrArg (V c main_v92) (funext fun a => Fin.ext ?_)
  match a with
  | ⟨0, _⟩ => show win3_5.index t 0 * 1 + 1 * (x 0).val = (x 0).val; rw [e0]; omega
  | ⟨1, _⟩ => show win3_5.index t 1 * 1 + 1 * (x 1).val = (x 1).val; rw [e1]; omega

/-- WHAT POINT `t` WRITES BACK is block `t` of `scoreOf` of the arrays as the region finds them. -/
theorem flushed3 (c : Dev nD) (t : Fin cfg3.N) :
    (dat3 V c).flushed 6 t = ((cfg3.win 6).blk t).view.read (Elt Ideal)
      (scoreOf (V c main_v83) (V c main_v90) (V c main_v93) (V c main_v91) (V c main_v94) (V c main_v92)) := by
  show (cfg3.win 6).cut (grid3.coords t) ((dat3 V c).after 6 t) = _
  rw [after3_6]
  unfold out3_6
  rw [View.canon_unit_zero hz]
  simp only [View.ld_unit_zero (S := S4000x128) hz, View.ld_unit_zero (S := S128x64) hz, View.ld_unit_zero (S := S1x64) hz,
    View.ld_unit_zero (S := S1x1) hz]
  have hN : cfg3.N = 50 := N_3
  have ht : t.val < 50 := hN ▸ t.isLt
  obtain ⟨-, -, -, -, -, -, -, -, -, -, -, -, e60, e61⟩ := idx3 t
  funext y
  show k3_pay1 (F := Ideal) (iblk3 V c 0 t) (iblk3 V c 1 t) (iblk3 V c 2 t) (iblk3 V c 3 t) (iblk3 V c 4 t) (iblk3 V c 5 t) y
    = scoreOf (V c main_v83) (V c main_v90) (V c main_v93) (V c main_v91) (V c main_v94) (V c main_v92) (((cfg3.win 6).blk t).view.emb y)
  refine score_block _ _ _ _ _ _ _ _ _ _ _ _ (4000 * t.val) (by omega)
    (fun r i => rows3_0 V c t (ix2 r i) _ rfl rfl) (fun r i => rows3_1 V c t (ix2 r i) _ rfl rfl)
    (fun i k => whole3_2 V c t (ix2 i k)) (fun k => whole3_3 V c t (ix2 (0 : Fin 1) k))
    (fun k => whole3_4 V c t (ix2 (0 : Fin 1) k)) (whole3_5 V c t (ix2 (0 : Fin 1) (0 : Fin 1))) y _ ?_
  show win3_6.index t 0 * 4000 + 1 * (y 0).val = 4000 * t.val + (y 0).val
  rw [e60]; omega

theorem mem_blk3 (t : Fin cfg3.N) (i : S200000x1.Idx) :
    i ∈ ((cfg3.win 6).blk t).view.set ↔ ∀ a : Fin 2, win3_6.index t a * S4000x1.size a ≤ (i a).val
      ∧ (i a).val < win3_6.index t a * S4000x1.size a + S4000x1.size a := by
  show i ∈ ((View.whole main_v95).slice (win3_6.rect t)).set ↔ _
  rw [View.set_slice_whole, Rect.mem_set_unit]
  exact Iff.rfl

/-- Score `n` lies in the block of point `n / 4000`. -/
theorem cover3 (i : S200000x1.Idx) :
    ∃ t : Fin cfg3.N, (cfg3.win 6).flush t = true ∧ i ∈ ((cfg3.win 6).blk t).view.set := by
  have hi0 : (i 0).val < 200000 := (i 0).isLt
  have hi1 : (i 1).val < 1 := (i 1).isLt
  have hN : cfg3.N = 50 := N_3
  have hlt : (i 0).val / 4000 < cfg3.N := by rw [hN]; omega
  refine ⟨⟨(i 0).val / 4000, hlt⟩, flush3_6 _, ?_⟩
  rw [mem_blk3]
  obtain ⟨-, -, -, -, -, -, -, -, -, -, -, -, e60, e61⟩ := idx3 ⟨(i 0).val / 4000, hlt⟩
  intro a
  match a with
  | ⟨0, _⟩ =>
    show win3_6.index ⟨(i 0).val / 4000, hlt⟩ 0 * 4000 ≤ (i 0).val ∧ (i 0).val < win3_6.index ⟨(i 0).val / 4000, hlt⟩ 0 * 4000 + 4000
    rw [e60]; show (i 0).val / 4000 * 4000 ≤ (i 0).val ∧ (i 0).val < (i 0).val / 4000 * 4000 + 4000; omega
  | ⟨1, _⟩ =>
    show win3_6.index ⟨(i 0).val / 4000, hlt⟩ 1 * 1 ≤ (i 1).val ∧ (i 1).val < win3_6.index ⟨(i 0).val / 4000, hlt⟩ 1 * 1 + 1
    rw [e61]; omega

/-- THE OUTPUT ARRAY after the region. -/
theorem final3 (c : Dev nD) : (dat3 V c).arrAt 6 cfg3.N
    = scoreOf (V c main_v83) (V c main_v90) (V c main_v93) (V c main_v91) (V c main_v94) (V c main_v92) :=
  (dat3 V c).arrAt_eq_of_cover 6 _ (fun t _ => flushed3 V c t) cover3

end Cert.KernelIdeal.Blk3

end
-- ==== Proof.Spec.lean ====
/-
  The function both programs compute, stated once on the extended reals, index by index.

  A graph network of three layers over 100000 nodes with 128 features each, followed by a link scorer.
  One layer: every node adds to its own feature row the sum of the rows of its in-neighbours (`agg`: a row
  gather along the edge sources followed by an accumulating scatter along the edge destinations), then a
  two-matrix perceptron with a rectifier after each matrix acts on every row (`mlp`). The scorer takes, for
  a pair of node indices, the elementwise product of the two rows, one rectified matrix layer, and a final
  inner product with a 64-vector plus an offset (`score`). Node indices are normalised as jnp does
  (`nrm`: a negative index counts from the end) and clamped into range where the row is picked (`pick`).
-/
import proofs.«100485_j40132174414143_2_alg».proof.KernelIdeal
import proofs.«100485_j40132174414143_2_alg».proof.Proof.Gen.KernelIdeal
import Idealize.ShloMosaic.PureOps.Ideal
import Idealize.ShloMosaic.Lib.ValueIdx

noncomputable section

namespace Cert.Gin

open Idealize.ShloMosaic Idealize.ShloMosaic.ValueIdx Cert.KernelIdeal Cert.KernelIdeal.Facts₀

/-- The neighbour sum: row `e` of the gathered array is row `esrc e` of `h` (negative indices wrapped, then
    clamped by the gather); the scatter adds row `e` into row `edst e` of a zero array. -/
def agg (h : FVec Ideal S100000x128 .f32) (esrc edst : IVec S1600000 32) : FVec Ideal S100000x128 .f32 :=
  Host.scatterAdd scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 edst)
    (Host.gather gather_S100000x128_S1600000x1_S1600000x128_1_0_n_n_0_1_1128 h
      (broadcastInDim S1600000x1 ![0] bcast_S1600000_S1600000x1_0
        (select (cmpi .slt esrc (broadcastInDim S1600000 ![] bcast_S_S1600000 (constantI S_ 32 0#32)))
          (addi esrc (broadcastInDim S1600000 ![] bcast_S_S1600000 (constantI S_ 32 100000#32))) esrc)))

/-- Hidden unit `k` of layer `l` on an input row `u`: `max (∑ i, u i · W1[l,i,k] + b1[l,k]) 0`. -/
def hidden (l : Fin 3) (W1 : FVec Ideal S3x128x512 .f32) (b1 : FVec Ideal S3x512 .f32) (u : Fin 128 → EReal)
    (k : Fin 512) : EReal :=
  max ((∑ i : Fin 128, u i * W1 (ix3 l i k)) + b1 (ix2 l k)) 0

/-- Output feature `q` of layer `l` on an input row `u`: `max (∑ k, hidden k · W2[l,k,q] + b2[l,q]) 0`. -/
def mlpAt (l : Fin 3) (W1 : FVec Ideal S3x128x512 .f32) (b1 : FVec Ideal S3x512 .f32) (W2 : FVec Ideal S3x512x128 .f32)
    (b2 : FVec Ideal S3x128 .f32) (u : Fin 128 → EReal) (q : Fin 128) : EReal :=
  max ((∑ k : Fin 512, hidden l W1 b1 u k * W2 (ix3 l k q)) + b2 (ix2 l q)) 0

/-- The perceptron of layer `l` on every row of `h + a`. -/
def mlp (l : Fin 3) (W1 : FVec Ideal S3x128x512 .f32) (b1 : FVec Ideal S3x512 .f32) (W2 : FVec Ideal S3x512x128 .f32)
    (b2 : FVec Ideal S3x128 .f32) (h a : FVec Ideal S100000x128 .f32) : FVec Ideal S100000x128 .f32 :=
  fun j => mlpAt l W1 b1 W2 b2
    (fun i => h (ix2 (⟨(j 0).val, idx2_lt0 j⟩ : Fin 100000) i) + a (ix2 (⟨(j 0).val, idx2_lt0 j⟩ : Fin 100000) i))
    (⟨(j 1).val, idx2_lt1 j⟩ : Fin 128)

theorem mlp_ix2 (l : Fin 3) (W1 : FVec Ideal S3x128x512 .f32) (b1 : FVec Ideal S3x512 .f32) (W2 : FVec Ideal S3x512x128 .f32)
    (b2 : FVec Ideal S3x128 .f32) (h a : FVec Ideal S100000x128 .f32) (r : Fin 100000) (q : Fin 128) :
    mlp l W1 b1 W2 b2 h a (ix2 r q) = mlpAt l W1 b1 W2 b2 (fun i => h (ix2 r i) + a (ix2 r i)) q := rfl

/-- One layer: the perceptron on the node features plus their neighbour sums. -/
def layer (l : Fin 3) (W1 : FVec Ideal S3x128x512 .f32) (b1 : FVec Ideal S3x512 .f32) (W2 : FVec Ideal S3x512x128 .f32)
    (b2 : FVec Ideal S3x128 .f32) (esrc edst : IVec S1600000 32) (h : FVec Ideal S100000x128 .f32) :
    FVec Ideal S100000x128 .f32 :=
  mlp l W1 b1 W2 b2 h (agg h esrc edst)

/-- The three layers in order. -/
def embed (W1 : FVec Ideal S3x128x512 .f32) (b1 : FVec Ideal S3x512 .f32) (W2 : FVec Ideal S3x512x128 .f32)
    (b2 : FVec Ideal S3x128 .f32) (esrc edst : IVec S1600000 32) (x : FVec Ideal S100000x128 .f32) :
    FVec Ideal S100000x128 .f32 :=
  layer 2 W1 b1 W2 b2 esrc edst (layer 1 W1 b1 W2 b2 esrc edst (layer 0 W1 b1 W2 b2 esrc edst x))

/-- jnp's index normalisation on one index word: a negative index counts from the end. -/
def nrm (v : BitVec 32) : BitVec 32 := Scalar.select (IntOp.cmpi .slt v 0#32) (IntOp.addi v 100000#32) v

/-- The row a gather picks for the index word `v`: the word read signed and clamped into `[0, 99999]`. -/
def pick (h : FVec Ideal S100000x128 .f32) (v : BitVec 32) (i : Fin 128) : EReal :=
  h (ix2 (⟨min v.toInt.toNat (100000 - 1), by omega⟩ : Fin 100000) i)

/-- Hidden unit `k` of the scorer on two rows: `max (∑ i, (hs i · hd i) · Wp1[i,k] + bp1[k]) 0`. -/
def zed (Wp1 : FVec Ideal S128x64 .f32) (bp1 : FVec Ideal S64 .f32) (hs hd : Fin 128 → EReal) (k : Fin 64) : EReal :=
  max ((∑ i : Fin 128, (hs i * hd i) * Wp1 (ix2 i k)) + bp1 (ix1 k)) 0

/-- The score of two rows: `∑ k, zed k · Wp2[k,0] + bp2[0]`. -/
def score (Wp1 : FVec Ideal S128x64 .f32) (bp1 : FVec Ideal S64 .f32) (Wp2 : FVec Ideal S64x1 .f32) (bp2 : FVec Ideal S1 .f32)
    (hs hd : Fin 128 → EReal) : EReal :=
  (∑ k : Fin 64, zed Wp1 bp1 hs hd k * Wp2 (ix2 k (0 : Fin 1))) + bp2 (ix1 (0 : Fin 1))

/-- The scores of 100000 index pairs against the node features `h`. -/
def predict (h : FVec Ideal S100000x128 .f32) (Wp1 : FVec Ideal S128x64 .f32) (bp1 : FVec Ideal S64 .f32)
    (Wp2 : FVec Ideal S64x1 .f32) (bp2 : FVec Ideal S1 .f32) (src dst : IVec S100000 32) : FVec Ideal S100000x1 .f32 :=
  fun j => score Wp1 bp1 Wp2 bp2
    (pick h (nrm (src (ix1 (⟨(j 0).val, idx2_lt0 j⟩ : Fin 100000)))))
    (pick h (nrm (dst (ix1 (⟨(j 0).val, idx2_lt0 j⟩ : Fin 100000)))))

end Cert.Gin

end
-- ==== Proof.Reads0.lean ====
/-
  What region 0 finds in its six input arrays, read off the host stretch before it: each is one host term of
  what the boundary before the stretch holds at the arguments.
-/
import proofs.«100485_j40132174414143_2_alg».proof.Proof.Gen.KernelIdeal.Frame
import proofs.«100485_j40132174414143_2_alg».proof.Proof.Spec
import Idealize.ShloMosaic.Lib.StableHlo.Run

set_option maxRecDepth 16384

noncomputable section

namespace Cert.KernelIdeal.Reads

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg)

/-- The feature array region 0 reads is what the boundary before the host stretch holds. -/
theorem e0_0 (c : Dev nD) : V1 m ρ c main_arg0 = W0 m ρ c (Proc.devRef .tc main_arg0) := by
  show StableHlo.after hostOps0 (W0 m ρ c) (Proc.devRef .tc main_arg0) = _
  dsimp only [hostOps0]
  after_results_simp

/-- The neighbour sums region 0 reads: the host's gather of the (format-changed) features along the edge
    sources and its accumulating scatter along the edge destinations. -/
theorem e0_1 (c : Dev nD) : V1 m ρ c main_v11
    = Cert.Gin.agg (W0 m ρ c (Proc.devRef .tc main_arg0)) (W0 m ρ c (Proc.devRef .tc main_arg9)) (W0 m ρ c (Proc.devRef .tc main_arg10)) := by
  show StableHlo.after hostOps0 (W0 m ρ c) (Proc.devRef .tc main_v11) = _
  dsimp only [hostOps0]
  after_results_simp
  all_goals rfl

/-- Layer 0's first weight matrix as region 0 reads it: slice 0 of the stack, reshaped, format-changed. -/
theorem e0_2 (c : Dev nD) : V1 m ρ c main_v22
    = truncf (F := Ideal) .bf16 (shapeCast S128x512 (extractStridedSlice S1x128x512 ![0, 0, 0] (W0 m ρ c (Proc.devRef .tc main_arg1)) slices_S3x128x512_S1x128x512_0_0_0) shapeCasts_S1x128x512_S128x512) bitsLt_bf16_f32 := by
  show StableHlo.after hostOps0 (W0 m ρ c) (Proc.devRef .tc main_v22) = _
  dsimp only [hostOps0]
  after_results_simp
  all_goals rfl

/-- Layer 0's first bias row. -/
theorem e0_3 (c : Dev nD) : V1 m ρ c main_v20
    = shapeCast S1x512 (shapeCast S512 (extractStridedSlice S1x512 ![0, 0] (W0 m ρ c (Proc.devRef .tc main_arg2)) slices_S3x512_S1x512_0_0) shapeCasts_S1x512_S512) shapeCasts_S512_S1x512 := by
  show StableHlo.after hostOps0 (W0 m ρ c) (Proc.devRef .tc main_v20) = _
  dsimp only [hostOps0]
  after_results_simp
  all_goals rfl

/-- Layer 0's second weight matrix. -/
theorem e0_4 (c : Dev nD) : V1 m ρ c main_v23
    = truncf (F := Ideal) .bf16 (shapeCast S512x128 (extractStridedSlice S1x512x128 ![0, 0, 0] (W0 m ρ c (Proc.devRef .tc main_arg3)) slices_S3x512x128_S1x512x128_0_0_0) shapeCasts_S1x512x128_S512x128) bitsLt_bf16_f32 := by
  show StableHlo.after hostOps0 (W0 m ρ c) (Proc.devRef .tc main_v23) = _
  dsimp only [hostOps0]
  after_results_simp
  all_goals rfl

/-- Layer 0's second bias row. -/
theorem e0_5 (c : Dev nD) : V1 m ρ c main_v21
    = shapeCast S1x128 (shapeCast S128 (extractStridedSlice S1x128 ![0, 0] (W0 m ρ c (Proc.devRef .tc main_arg4)) slices_S3x128_S1x128_0_0) shapeCasts_S1x128_S128) shapeCasts_S128_S1x128 := by
  show StableHlo.after hostOps0 (W0 m ρ c) (Proc.devRef .tc main_v21) = _
  dsimp only [hostOps0]
  after_results_simp
  all_goals rfl

end Cert.KernelIdeal.Reads

end
-- ==== Proof.Reads1.lean ====
/-
  What region 1 finds in its six input arrays, read off the host stretch before it: each is one host term of
  what the boundary before the stretch holds at the arguments and at the previous layer's output.
-/
import proofs.«100485_j40132174414143_2_alg».proof.Proof.Gen.KernelIdeal.Frame
import proofs.«100485_j40132174414143_2_alg».proof.Proof.Spec
import Idealize.ShloMosaic.Lib.StableHlo.Run

set_option maxRecDepth 16384

noncomputable section

namespace Cert.KernelIdeal.Reads

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg)

/-- The feature array region 1 reads is what the boundary before the host stretch holds. -/
theorem e1_0 (c : Dev nD) : V3 m ρ c main_v24 = W2 m ρ c (Proc.devRef .tc main_v24) := by
  show StableHlo.after hostOps1 (W2 m ρ c) (Proc.devRef .tc main_v24) = _
  dsimp only [hostOps1]
  after_results_simp

/-- The neighbour sums region 1 reads: the host's gather of the (format-changed) features along the edge
    sources and its accumulating scatter along the edge destinations. -/
theorem e1_1 (c : Dev nD) : V3 m ρ c main_v36
    = Cert.Gin.agg (W2 m ρ c (Proc.devRef .tc main_v24)) (W2 m ρ c (Proc.devRef .tc main_arg9)) (W2 m ρ c (Proc.devRef .tc main_arg10)) := by
  show StableHlo.after hostOps1 (W2 m ρ c) (Proc.devRef .tc main_v36) = _
  dsimp only [hostOps1]
  after_results_simp
  all_goals rfl

/-- Layer 1's first weight matrix as region 1 reads it: slice 1 of the stack, reshaped, format-changed. -/
theorem e1_2 (c : Dev nD) : V3 m ρ c main_v47
    = truncf (F := Ideal) .bf16 (shapeCast S128x512 (extractStridedSlice S1x128x512 ![1, 0, 0] (W2 m ρ c (Proc.devRef .tc main_arg1)) slices_S3x128x512_S1x128x512_1_0_0) shapeCasts_S1x128x512_S128x512) bitsLt_bf16_f32 := by
  show StableHlo.after hostOps1 (W2 m ρ c) (Proc.devRef .tc main_v47) = _
  dsimp only [hostOps1]
  after_results_simp
  all_goals rfl

/-- Layer 1's first bias row. -/
theorem e1_3 (c : Dev nD) : V3 m ρ c main_v45
    = shapeCast S1x512 (shapeCast S512 (extractStridedSlice S1x512 ![1, 0] (W2 m ρ c (Proc.devRef .tc main_arg2)) slices_S3x512_S1x512_1_0) shapeCasts_S1x512_S512) shapeCasts_S512_S1x512 := by
  show StableHlo.after hostOps1 (W2 m ρ c) (Proc.devRef .tc main_v45) = _
  dsimp only [hostOps1]
  after_results_simp
  all_goals rfl

/-- Layer 1's second weight matrix. -/
theorem e1_4 (c : Dev nD) : V3 m ρ c main_v48
    = truncf (F := Ideal) .bf16 (shapeCast S512x128 (extractStridedSlice S1x512x128 ![1, 0, 0] (W2 m ρ c (Proc.devRef .tc main_arg3)) slices_S3x512x128_S1x512x128_1_0_0) shapeCasts_S1x512x128_S512x128) bitsLt_bf16_f32 := by
  show StableHlo.after hostOps1 (W2 m ρ c) (Proc.devRef .tc main_v48) = _
  dsimp only [hostOps1]
  after_results_simp
  all_goals rfl

/-- Layer 1's second bias row. -/
theorem e1_5 (c : Dev nD) : V3 m ρ c main_v46
    = shapeCast S1x128 (shapeCast S128 (extractStridedSlice S1x128 ![1, 0] (W2 m ρ c (Proc.devRef .tc main_arg4)) slices_S3x128_S1x128_1_0) shapeCasts_S1x128_S128) shapeCasts_S128_S1x128 := by
  show StableHlo.after hostOps1 (W2 m ρ c) (Proc.devRef .tc main_v46) = _
  dsimp only [hostOps1]
  after_results_simp
  all_goals rfl

end Cert.KernelIdeal.Reads

end
-- ==== Proof.Reads2.lean ====
/-
  What region 2 finds in its six input arrays, read off the host stretch before it: each is one host term of
  what the boundary before the stretch holds at the arguments and at the previous layer's output.
-/
import proofs.«100485_j40132174414143_2_alg».proof.Proof.Gen.KernelIdeal.Frame
import proofs.«100485_j40132174414143_2_alg».proof.Proof.Spec
import Idealize.ShloMosaic.Lib.StableHlo.Run

set_option maxRecDepth 16384

noncomputable section

namespace Cert.KernelIdeal.Reads

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg)

/-- The feature array region 2 reads is what the boundary before the host stretch holds. -/
theorem e2_0 (c : Dev nD) : V5 m ρ c main_v49 = W4 m ρ c (Proc.devRef .tc main_v49) := by
  show StableHlo.after hostOps2 (W4 m ρ c) (Proc.devRef .tc main_v49) = _
  dsimp only [hostOps2]
  after_results_simp

/-- The neighbour sums region 2 reads: the host's gather of the (format-changed) features along the edge
    sources and its accumulating scatter along the edge destinations. -/
theorem e2_1 (c : Dev nD) : V5 m ρ c main_v61
    = Cert.Gin.agg (W4 m ρ c (Proc.devRef .tc main_v49)) (W4 m ρ c (Proc.devRef .tc main_arg9)) (W4 m ρ c (Proc.devRef .tc main_arg10)) := by
  show StableHlo.after hostOps2 (W4 m ρ c) (Proc.devRef .tc main_v61) = _
  dsimp only [hostOps2]
  after_results_simp
  all_goals rfl

/-- Layer 2's first weight matrix as region 2 reads it: slice 2 of the stack, reshaped, format-changed. -/
theorem e2_2 (c : Dev nD) : V5 m ρ c main_v72
    = truncf (F := Ideal) .bf16 (shapeCast S128x512 (extractStridedSlice S1x128x512 ![2, 0, 0] (W4 m ρ c (Proc.devRef .tc main_arg1)) slices_S3x128x512_S1x128x512_2_0_0) shapeCasts_S1x128x512_S128x512) bitsLt_bf16_f32 := by
  show StableHlo.after hostOps2 (W4 m ρ c) (Proc.devRef .tc main_v72) = _
  dsimp only [hostOps2]
  after_results_simp
  all_goals rfl

/-- Layer 2's first bias row. -/
theorem e2_3 (c : Dev nD) : V5 m ρ c main_v70
    = shapeCast S1x512 (shapeCast S512 (extractStridedSlice S1x512 ![2, 0] (W4 m ρ c (Proc.devRef .tc main_arg2)) slices_S3x512_S1x512_2_0) shapeCasts_S1x512_S512) shapeCasts_S512_S1x512 := by
  show StableHlo.after hostOps2 (W4 m ρ c) (Proc.devRef .tc main_v70) = _
  dsimp only [hostOps2]
  after_results_simp
  all_goals rfl

/-- Layer 2's second weight matrix. -/
theorem e2_4 (c : Dev nD) : V5 m ρ c main_v73
    = truncf (F := Ideal) .bf16 (shapeCast S512x128 (extractStridedSlice S1x512x128 ![2, 0, 0] (W4 m ρ c (Proc.devRef .tc main_arg3)) slices_S3x512x128_S1x512x128_2_0_0) shapeCasts_S1x512x128_S512x128) bitsLt_bf16_f32 := by
  show StableHlo.after hostOps2 (W4 m ρ c) (Proc.devRef .tc main_v73) = _
  dsimp only [hostOps2]
  after_results_simp
  all_goals rfl

/-- Layer 2's second bias row. -/
theorem e2_5 (c : Dev nD) : V5 m ρ c main_v71
    = shapeCast S1x128 (shapeCast S128 (extractStridedSlice S1x128 ![2, 0] (W4 m ρ c (Proc.devRef .tc main_arg4)) slices_S3x128_S1x128_2_0) shapeCasts_S1x128_S128) shapeCasts_S128_S1x128 := by
  show StableHlo.after hostOps2 (W4 m ρ c) (Proc.devRef .tc main_v71) = _
  dsimp only [hostOps2]
  after_results_simp
  all_goals rfl

end Cert.KernelIdeal.Reads

end
-- ==== Proof.GatherRow.lean ====
/-
  A row gather read at an index.

  `x[idx]` of a two-axis array `x : [100000, 128]` at `R` index words picks whole rows: result element `(r, i)` is
  `x` at row `idx[r, 0]`, the word read as a signed integer and clamped into `[0, 99999]`, and column `i`.
  The row axis is collapsed (slice size 1) and is the only axis the start index names; the column axis is the
  one offset axis of the result (slice size 128), so the column coordinate passes through unchanged.
-/
import Idealize.ShloMosaic.Lib.ValueIdx
import Idealize.ShloMosaic.PureOps.Ideal

noncomputable section

namespace Cert.Gin

open Idealize.ShloMosaic Idealize.ShloMosaic.ValueIdx

/-- The dimension numbers of a row gather of a `[100000, 128]` operand by `R` index words held as `[R, 1]`:
    offset axis 1 of the result, operand axis 0 collapsed and named by the start index, index vector on axis 1,
    slices of one whole row. Their conditions `wf` are decided on a program's literal shapes. -/
abbrev rowDims (R : Nat)
    (wf : GatherDims.WF ⟨2, ![100000, 128]⟩ ⟨2, ![R, 1]⟩ ⟨2, ![R, 128]⟩ [1] [0] [] [0] [] 1 ![1, 128]) :
    GatherDims ⟨2, ![100000, 128]⟩ ⟨2, ![R, 1]⟩ ⟨2, ![R, 128]⟩ where
  offsetDims := [1]
  collapsedSliceDims := [0]
  operandBatchingDims := []
  startIndicesBatchingDims := []
  startIndexMap := [0]
  indexVectorDim := 1
  sliceSizes := ![1, 128]
  wf := wf

/-- THE ROW GATHER READ AT `(r, i)`: the operand at row `idx[r, 0]`, read signed and clamped into `[0, 99999]`,
    and column `i`. -/
theorem gather_row_apply {α : Type} {R : Nat}
    (wf : GatherDims.WF ⟨2, ![100000, 128]⟩ ⟨2, ![R, 1]⟩ ⟨2, ![R, 128]⟩ [1] [0] [] [0] [] 1 ![1, 128])
    (x : (⟨2, ![100000, 128]⟩ : Shape).Idx → α) (idx : IVec ⟨2, ![R, 1]⟩ 32) (r : Fin R) (i : Fin 128) :
    Host.gather (rowDims R wf) x idx (ix2 r i)
      = x (ix2 (⟨min (idx (ix2 r (0 : Fin 1))).toInt.toNat (100000 - 1), by omega⟩ : Fin 100000) i) := by
  unfold Host.gather
  congr 1
  funext a
  refine Fin.ext ?_
  show (rowDims R wf).start (ix2 r i) idx a + (rowDims R wf).batchCoord (ix2 r i) a
      + (rowDims R wf).offCoord (ix2 r i) a = _
  rw [GatherDims.batchCoord_eq_zero _ _ _ List.not_mem_nil]
  have ha : a = (0 : Fin 2) ∨ a = (1 : Fin 2) := by
    match a with
    | ⟨0, _⟩ => exact Or.inl rfl
    | ⟨1, _⟩ => exact Or.inr rfl
  rcases ha with rfl | rfl
  · -- the row axis: collapsed, so no offset; the start index names it
    rw [GatherDims.offCoord_eq_zero _ _ _
      (fun h => ((GatherDims.mem_sKept _ _).mp h).1 (List.mem_singleton.mpr rfl))]
    simp only [Nat.add_zero]
    unfold GatherDims.start
    rw [dif_pos (show (0 : Fin 2) ∈ (rowDims R wf).startIndexMap from List.mem_singleton.mpr rfl)]
    have hsi : (rowDims R wf).siIdx (ix2 r i) ⟨List.idxOf (0 : Fin 2) (rowDims R wf).startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl
  · -- the column axis: not named by the start index, so the start is 0; the offset is the column coordinate
    have h1 : (1 : Fin 2) ∈ (rowDims R wf).sKept :=
      (GatherDims.mem_sKept _ _).mpr
        ⟨fun h => absurd (List.mem_singleton.mp h) (by decide), List.not_mem_nil⟩
    unfold GatherDims.offCoord
    rw [dif_pos h1]
    unfold GatherDims.start
    rw [dif_neg (fun h : (1 : Fin 2) ∈ (rowDims R wf).startIndexMap =>
      absurd (List.mem_singleton.mp h) (by decide))]
    rw [Nat.zero_add]
    rfl

end Cert.Gin

end
-- ==== Proof.HostAt.lean ====
/-
  The host-side terms of the kernel's program read at an index, on the extended reals.

  The stacked weights of the three layers are cut into one layer's slab, viewed without the leading axis and
  changed in format (the identity here); the scorer's weights are viewed under another shape; the two index
  vectors are laid end to end, normalised and made a column; rows are gathered by that column; and the score
  column is cut back into its two halves. Each lemma states what one such term is at one index. Every side
  condition is a variable, so a lemma applies to a printed term whatever proof the term carries.
-/
import proofs.«100485_j40132174414143_2_alg».proof.KernelIdeal
import proofs.«100485_j40132174414143_2_alg».proof.Proof.Gen.KernelIdeal
import proofs.«100485_j40132174414143_2_alg».proof.Proof.Spec
import proofs.«100485_j40132174414143_2_alg».proof.Proof.GatherRow
import Idealize.ShloMosaic.Lib.Pipeline.Value
import Idealize.ShloMosaic.Lib.ValueIdx
import Idealize.ShloMosaic.Lib.ValueLayout

noncomputable section

namespace Cert.Gin.HostAt

open Idealize.ShloMosaic Idealize.ShloMosaic.ValueIdx Cert.KernelIdeal

/-! ## The layer weights

Layer `l`'s slab of a stacked weight array is the slice of thickness one at offset `l` along the leading
axis, viewed without that axis; a format change is the identity on the extended reals. -/

/-- The first matrix of layer `l` at `(i, k)`. -/
theorem w1_at (l : Nat) (hl : l < 3) (W1 : FVec Ideal S3x128x512 .f32) (hs : S3x128x512.Slices ![l, 0, 0] S1x128x512)
    (hc : S1x128x512.ShapeCasts S128x512) (hlt : FTy.bits .bf16 < FTy.bits .f32) (i : Fin 128) (k : Fin 512) :
    (truncf .bf16 (shapeCast S128x512 (extractStridedSlice S1x128x512 ![l, 0, 0] W1 hs) hc) hlt
        : FVec Ideal S128x512 .bf16) (ix2 i k)
      = W1 (ix3 (⟨l, hl⟩ : Fin 3) i k) := by
  refine (truncf_apply _ hlt (ix2 i k)).trans ?_
  refine (shapeCast_1ab_ab_apply _ hc i k).trans ?_
  refine extractStridedSlice_apply ![l, 0, 0] W1 hs (ix3 (0 : Fin 1) i k) (ix3 (⟨l, hl⟩ : Fin 3) i k) fun ax => ?_
  match ax with
  | ⟨0, _⟩ => exact (Nat.add_zero l).symm
  | ⟨1, _⟩ => exact (Nat.zero_add _).symm
  | ⟨2, _⟩ => exact (Nat.zero_add _).symm

/-- The first bias of layer `l` at `k`, as the one row of a `[1, 512]` array. -/
theorem b1_at (l : Nat) (hl : l < 3) (b1 : FVec Ideal S3x512 .f32) (hs : S3x512.Slices ![l, 0] S1x512)
    (hc : S1x512.ShapeCasts S512) (hc' : S512.ShapeCasts S1x512) (k : Fin 512) :
    shapeCast S1x512 (shapeCast S512 (extractStridedSlice S1x512 ![l, 0] b1 hs) hc) hc' (ix2 (0 : Fin 1) k)
      = b1 (ix2 (⟨l, hl⟩ : Fin 3) k) := by
  rw [shapeCast_shapeCast]
  refine extractStridedSlice_apply ![l, 0] b1 hs (ix2 (0 : Fin 1) k) (ix2 (⟨l, hl⟩ : Fin 3) k) fun ax => ?_
  match ax with
  | ⟨0, _⟩ => exact (Nat.add_zero l).symm
  | ⟨1, _⟩ => exact (Nat.zero_add _).symm

/-- The second matrix of layer `l` at `(k, q)`. -/
theorem w2_at (l : Nat) (hl : l < 3) (W2 : FVec Ideal S3x512x128 .f32) (hs : S3x512x128.Slices ![l, 0, 0] S1x512x128)
    (hc : S1x512x128.ShapeCasts S512x128) (hlt : FTy.bits .bf16 < FTy.bits .f32) (k : Fin 512) (q : Fin 128) :
    (truncf .bf16 (shapeCast S512x128 (extractStridedSlice S1x512x128 ![l, 0, 0] W2 hs) hc) hlt
        : FVec Ideal S512x128 .bf16) (ix2 k q)
      = W2 (ix3 (⟨l, hl⟩ : Fin 3) k q) := by
  refine (truncf_apply _ hlt (ix2 k q)).trans ?_
  refine (shapeCast_1ab_ab_apply _ hc k q).trans ?_
  refine extractStridedSlice_apply ![l, 0, 0] W2 hs (ix3 (0 : Fin 1) k q) (ix3 (⟨l, hl⟩ : Fin 3) k q) fun ax => ?_
  match ax with
  | ⟨0, _⟩ => exact (Nat.add_zero l).symm
  | ⟨1, _⟩ => exact (Nat.zero_add _).symm
  | ⟨2, _⟩ => exact (Nat.zero_add _).symm

/-- The second bias of layer `l` at `q`, as the one row of a `[1, 128]` array. -/
theorem b2_at (l : Nat) (hl : l < 3) (b2 : FVec Ideal S3x128 .f32) (hs : S3x128.Slices ![l, 0] S1x128)
    (hc : S1x128.ShapeCasts S128) (hc' : S128.ShapeCasts S1x128) (q : Fin 128) :
    shapeCast S1x128 (shapeCast S128 (extractStridedSlice S1x128 ![l, 0] b2 hs) hc) hc' (ix2 (0 : Fin 1) q)
      = b2 (ix2 (⟨l, hl⟩ : Fin 3) q) := by
  rw [shapeCast_shapeCast]
  refine extractStridedSlice_apply ![l, 0] b2 hs (ix2 (0 : Fin 1) q) (ix2 (⟨l, hl⟩ : Fin 3) q) fun ax => ?_
  match ax with
  | ⟨0, _⟩ => exact (Nat.add_zero l).symm
  | ⟨1, _⟩ => exact (Nat.zero_add _).symm

/-! ## The scorer's weights

Each is a view of the same numbers under another shape: the row-major position is kept. -/

/-- The scorer's hidden bias at `k`, as the one row of a `[1, 64]` array. -/
theorem bp1_at (bp1 : FVec Ideal S64 .f32) (hc : S64.ShapeCasts S1x64) (k : Fin 64) :
    shapeCast S1x64 bp1 hc (ix2 (0 : Fin 1) k) = bp1 (ix1 k) :=
  shapeCast_a_1a_apply bp1 hc (0 : Fin 1) k

/-- The scorer's output column `[64, 1]` viewed as a row `[1, 64]`, at `k`. -/
theorem wp2_at (Wp2 : FVec Ideal S64x1 .f32) (hc : S64x1.ShapeCasts S1x64) (k : Fin 64) :
    shapeCast S1x64 Wp2 hc (ix2 (0 : Fin 1) k) = Wp2 (ix2 k (0 : Fin 1)) :=
  shapeCast_apply Wp2 hc (ix2 (0 : Fin 1) k) (ix2 k (0 : Fin 1)) (by
    rw [Shape.rowMajor_val_two, Shape.rowMajor_val_two]
    show k.val * 1 + 0 = 0 * 64 + k.val
    omega)

/-- The scorer's offset, as the one element of a `[1, 1]` array. -/
theorem bp2_at (bp2 : FVec Ideal S1 .f32) (hc : S1.ShapeCasts S1x1) :
    shapeCast S1x1 bp2 hc (ix2 (0 : Fin 1) (0 : Fin 1)) = bp2 (ix1 (0 : Fin 1)) :=
  shapeCast_a_1a_apply bp2 hc (0 : Fin 1) (0 : Fin 1)

/-! ## The two halves of the score column -/

/-- The first 100000 rows of a `[200000, 1]` column, at row `r`. -/
theorem lower_half (x : FVec Ideal S200000x1 .f32) (r : Fin 100000) (hs : S200000x1.Slices ![0, 0] S100000x1) :
    extractStridedSlice S100000x1 ![0, 0] x hs (ix2 r (0 : Fin 1))
      = x (ix2 (⟨r.val, by omega⟩ : Fin 200000) (0 : Fin 1)) :=
  slice2_axis0_apply 0 x hs r (0 : Fin 1) _ (Nat.zero_add _).symm

/-- The last 100000 rows of a `[200000, 1]` column, at row `r`. -/
theorem upper_half (x : FVec Ideal S200000x1 .f32) (r : Fin 100000) (hs : S200000x1.Slices ![100000, 0] S100000x1) :
    extractStridedSlice S100000x1 ![100000, 0] x hs (ix2 r (0 : Fin 1))
      = x (ix2 (⟨100000 + r.val, by omega⟩ : Fin 200000) (0 : Fin 1)) :=
  slice2_axis0_apply 100000 x hs r (0 : Fin 1) _ rfl

/-! ## The fused row gather -/

/-- The row gather by 200000 index words at `(n, i)`: the picked row's element `i`. -/
theorem gather200_apply (h : FVec Ideal S100000x128 .f32) (idx : IVec S200000x1 32) (n : Fin 200000) (i : Fin 128) :
    Host.gather gather_S100000x128_S200000x1_S200000x128_1_0_n_n_0_1_1128 h idx (ix2 n i)
      = Cert.Gin.pick h (idx (ix2 n (0 : Fin 1))) i := by
  show Host.gather (Cert.Gin.rowDims 200000 _) h idx (ix2 n i) = _
  exact Cert.Gin.gather_row_apply _ h idx n i

/-! ## The fused index vector

Two index vectors of 100000 words laid end to end, every word normalised (a negative index counts from the
end), as a `[200000, 1]` column. -/

/-- The column of normalised index words of `a` followed by `b`. -/
abbrev fusedIdx (a b : IVec S100000 32) (hcat : Shape.Concatenates [S100000, S100000] S200000 0)
    (hb0 : S_.BroadcastsInDim S200000 (![] : Fin 0 → Fin S200000.rank))
    (hb1 : S200000.BroadcastsInDim S200000x1 (![0] : Fin 1 → Fin S200000x1.rank)) : IVec S200000x1 32 :=
  broadcastInDim S200000x1 ![0] hb1
    (select
      (cmpi .slt (concatenate S200000 0 [⟨S100000, a⟩, ⟨S100000, b⟩] hcat)
        (broadcastInDim S200000 ![] hb0 (constantI S_ 32 0#32)))
      (addi (concatenate S200000 0 [⟨S100000, a⟩, ⟨S100000, b⟩] hcat)
        (broadcastInDim S200000 ![] hb0 (constantI S_ 32 100000#32)))
      (concatenate S200000 0 [⟨S100000, a⟩, ⟨S100000, b⟩] hcat))

/-- The column at a position `n`: the normalised word of the end-to-end vector at `n`. -/
theorem fusedIdx_apply (a b : IVec S100000 32) (hcat : Shape.Concatenates [S100000, S100000] S200000 0)
    (hb0 : S_.BroadcastsInDim S200000 (![] : Fin 0 → Fin S200000.rank))
    (hb1 : S200000.BroadcastsInDim S200000x1 (![0] : Fin 1 → Fin S200000x1.rank)) (n : Fin 200000) :
    fusedIdx a b hcat hb0 hb1 (ix2 n (0 : Fin 1))
      = Cert.Gin.nrm (concatenate S200000 0 [⟨S100000, a⟩, ⟨S100000, b⟩] hcat (ix1 n)) := by
  refine (broadcastInDim_apply _ hb1 _ (ix2 n (0 : Fin 1)) (ix1 n) fun ax => ?_).trans rfl
  match ax with
  | ⟨0, _⟩ =>
    show n.val = if (200000 : Nat) = 1 then 0 else n.val
    rw [if_neg (by decide)]

/-- In the first half the column reads the normalised words of `a`. -/
theorem fused_left (a b : IVec S100000 32) (hcat : Shape.Concatenates [S100000, S100000] S200000 0)
    (hb0 : S_.BroadcastsInDim S200000 (![] : Fin 0 → Fin S200000.rank))
    (hb1 : S200000.BroadcastsInDim S200000x1 (![0] : Fin 1 → Fin S200000x1.rank)) (r : Fin 100000) :
    fusedIdx a b hcat hb0 hb1 (ix2 (⟨r.val, by omega⟩ : Fin 200000) (0 : Fin 1)) = Cert.Gin.nrm (a (ix1 r)) := by
  rw [fusedIdx_apply]
  refine congrArg Cert.Gin.nrm ?_
  refine concatenate_pair_apply_left (t := S200000) (s₁ := S100000) (s₂ := S100000) 0 a b hcat _ rfl (ix1 r) fun bx => ?_
  match bx with
  | ⟨0, _⟩ => rfl

/-- In the second half the column reads the normalised words of `b`. -/
theorem fused_right (a b : IVec S100000 32) (hcat : Shape.Concatenates [S100000, S100000] S200000 0)
    (hb0 : S_.BroadcastsInDim S200000 (![] : Fin 0 → Fin S200000.rank))
    (hb1 : S200000.BroadcastsInDim S200000x1 (![0] : Fin 1 → Fin S200000x1.rank)) (r : Fin 100000) :
    fusedIdx a b hcat hb0 hb1 (ix2 (⟨100000 + r.val, by omega⟩ : Fin 200000) (0 : Fin 1)) = Cert.Gin.nrm (b (ix1 r)) := by
  rw [fusedIdx_apply]
  refine congrArg Cert.Gin.nrm ?_
  refine concatenate_pair_apply_right (t := S200000) (s₁ := S100000) (s₂ := S100000) 0 a b hcat _ rfl rfl (ix1 r)
    (fun bx hne => ?_) ?_
  · match bx with
    | ⟨0, _⟩ => exact absurd rfl hne
  · show r.val + 100000 = 100000 + r.val
    omega

end Cert.Gin.HostAt

end
-- ==== Proof.Reads3.lean ====
/-
  What the scorer's region finds in its six input arrays, read off the host stretch before it: the two row
  gathers of the last layer's features along the fused (positive then negative) source and destination index
  vectors, and the four small arrays as re-laid copies of the arguments. Then what the last stretch leaves in
  the two score results: the lower and the upper half of the region's output.
-/
import proofs.«100485_j40132174414143_2_alg».proof.Proof.Gen.KernelIdeal.Frame
import proofs.«100485_j40132174414143_2_alg».proof.Proof.Spec
import proofs.«100485_j40132174414143_2_alg».proof.Proof.HostAt
import Idealize.ShloMosaic.Lib.StableHlo.Run

set_option maxRecDepth 16384

noncomputable section

namespace Cert.KernelIdeal.Reads

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg)

open Cert.Gin.HostAt

/-- Rows gathered along the fused source indices. -/
theorem e3_0 (c : Dev nD) : V7 m ρ c main_v83
    = Host.gather gather_S100000x128_S200000x1_S200000x128_1_0_n_n_0_1_1128 (W6 m ρ c (Proc.devRef .tc main_v74))
        (fusedIdx (W6 m ρ c (Proc.devRef .tc main_arg11)) (W6 m ρ c (Proc.devRef .tc main_arg13))
          concatenates_S100000_S100000_S200000_d0 bcast_S_S200000 bcast_S200000_S200000x1_0) := by
  show StableHlo.after hostOps3 (W6 m ρ c) (Proc.devRef .tc main_v83) = _
  dsimp only [hostOps3]
  after_results_simp
  all_goals rfl

/-- Rows gathered along the fused destination indices. -/
theorem e3_1 (c : Dev nD) : V7 m ρ c main_v90
    = Host.gather gather_S100000x128_S200000x1_S200000x128_1_0_n_n_0_1_1128 (W6 m ρ c (Proc.devRef .tc main_v74))
        (fusedIdx (W6 m ρ c (Proc.devRef .tc main_arg12)) (W6 m ρ c (Proc.devRef .tc main_arg14))
          concatenates_S100000_S100000_S200000_d0 bcast_S_S200000 bcast_S200000_S200000x1_0) := by
  show StableHlo.after hostOps3 (W6 m ρ c) (Proc.devRef .tc main_v90) = _
  dsimp only [hostOps3]
  after_results_simp
  all_goals rfl

theorem e3_2 (c : Dev nD) : V7 m ρ c main_v93 = truncf (F := Ideal) .bf16 (W6 m ρ c (Proc.devRef .tc main_arg5)) bitsLt_bf16_f32 := by
  show StableHlo.after hostOps3 (W6 m ρ c) (Proc.devRef .tc main_v93) = _
  dsimp only [hostOps3]
  after_results_simp

theorem e3_3 (c : Dev nD) : V7 m ρ c main_v91 = shapeCast S1x64 (W6 m ρ c (Proc.devRef .tc main_arg6)) shapeCasts_S64_S1x64 := by
  show StableHlo.after hostOps3 (W6 m ρ c) (Proc.devRef .tc main_v91) = _
  dsimp only [hostOps3]
  after_results_simp
  all_goals rfl

theorem e3_4 (c : Dev nD) : V7 m ρ c main_v94 = shapeCast S1x64 (W6 m ρ c (Proc.devRef .tc main_arg7)) shapeCasts_S64x1_S1x64 := by
  show StableHlo.after hostOps3 (W6 m ρ c) (Proc.devRef .tc main_v94) = _
  dsimp only [hostOps3]
  after_results_simp
  all_goals rfl

theorem e3_5 (c : Dev nD) : V7 m ρ c main_v92 = shapeCast S1x1 (W6 m ρ c (Proc.devRef .tc main_arg8)) shapeCasts_S1_S1x1 := by
  show StableHlo.after hostOps3 (W6 m ρ c) (Proc.devRef .tc main_v92) = _
  dsimp only [hostOps3]
  after_results_simp
  all_goals rfl

/-- The last stretch: the first score result is the lower half of the region's output … -/
theorem e4_pos (c : Dev nD) : W9 m ρ c (Proc.devRef .tc main_v96)
    = extractStridedSlice S100000x1 ![0, 0] (W8 m ρ c (Proc.devRef .tc main_v95)) slices_S200000x1_S100000x1_0_0 := by
  show StableHlo.after hostOps4 (W8 m ρ c) (Proc.devRef .tc main_v96) = _
  dsimp only [hostOps4]
  after_results_simp

/-- … the second the upper half … -/
theorem e4_neg (c : Dev nD) : W9 m ρ c (Proc.devRef .tc main_v97)
    = extractStridedSlice S100000x1 ![100000, 0] (W8 m ρ c (Proc.devRef .tc main_v95)) slices_S200000x1_S100000x1_100000_0 := by
  show StableHlo.after hostOps4 (W8 m ρ c) (Proc.devRef .tc main_v97) = _
  dsimp only [hostOps4]
  after_results_simp

/-- … and the third result, the last layer's output, is untouched by the scorer's region and both stretches around it. -/
theorem e4_emb (c : Dev nD) : W9 m ρ c (Proc.devRef .tc main_v74) = W6 m ρ c (Proc.devRef .tc main_v74) := by
  have h1 : W9 m ρ c (Proc.devRef .tc main_v74) = W8 m ρ c (Proc.devRef .tc main_v74) := by
    show StableHlo.after hostOps4 (W8 m ρ c) (Proc.devRef .tc main_v74) = _
    dsimp only [hostOps4]
    after_results_simp
  have h2 : W7 m ρ c (Proc.devRef .tc main_v74) = W6 m ρ c (Proc.devRef .tc main_v74) := by
    show StableHlo.after hostOps3 (W6 m ρ c) (Proc.devRef .tc main_v74) = _
    dsimp only [hostOps3]
    after_results_simp
  exact h1.trans ((W8_of_ne m ρ c main_v74 (by decide)).trans h2)

end Cert.KernelIdeal.Reads

end
-- ==== Proof.WalkLayerArgs.lean ====
/-
  The layer arguments (the two weight stacks, the two bias stacks, the edge sources and destinations) are, at
  every boundary up to the entry of the third layer region, what the launch memory holds: no host operation
  writes an argument, and a region's arrays are the sliced copies, never the arguments themselves.
-/
import proofs.«100485_j40132174414143_2_alg».proof.Proof.Gen.KernelIdeal.Frame
import Idealize.ShloMosaic.Lib.StableHlo.Run

set_option maxRecDepth 16384

noncomputable section

namespace Cert.KernelIdeal.Walk

open Idealize.ShloMosaic Idealize.ShloMosaic.TcCoe Idealize.SL.Sem Idealize.ShloMosaic.StableHlo
open Cert.KernelIdeal Cert.KernelIdeal.Gen

variable {F : FTy → Type} [FloatOps F]
variable (m : (ℓ : Loc nD τ sig) → Buf (Elt F) ℓ) (ρ : Dev nD → PrngReg)

/-! ### Argument 1 through the boundaries: no host operation writes it and it is no region's array -/
theorem s1_arg1 (c : Dev nD) : W1 m ρ c (Proc.devRef .tc main_arg1) = m ((c : Thread nD τ).loc main_arg1) := by
  show StableHlo.after hostOps0 (W0 m ρ c) (Proc.devRef .tc main_arg1) = _
  dsimp only [hostOps0]
  after_results_simp
theorem s2_arg1 (c : Dev nD) : W2 m ρ c (Proc.devRef .tc main_arg1) = m ((c : Thread nD τ).loc main_arg1) :=
  (W2_of_ne m ρ c main_arg1 (by decide)).trans (s1_arg1 m ρ c)
theorem s3_arg1 (c : Dev nD) : W3 m ρ c (Proc.devRef .tc main_arg1) = m ((c : Thread nD τ).loc main_arg1) := by
  refine Eq.trans ?_ (s2_arg1 m ρ c)
  show StableHlo.after hostOps1 (W2 m ρ c) (Proc.devRef .tc main_arg1) = _
  dsimp only [hostOps1]
  after_results_simp
theorem s4_arg1 (c : Dev nD) : W4 m ρ c (Proc.devRef .tc main_arg1) = m ((c : Thread nD τ).loc main_arg1) :=
  (W4_of_ne m ρ c main_arg1 (by decide)).trans (s3_arg1 m ρ c)

/-! ### Argument 2 through the boundaries: no host operation writes it and it is no region's array -/
theorem s1_arg2 (c : Dev nD) : W1 m ρ c (Proc.devRef .tc main_arg2) = m ((c : Thread nD τ).loc main_arg2) := by
  show StableHlo.after hostOps0 (W0 m ρ c) (Proc.devRef .tc main_arg2) = _
  dsimp only [hostOps0]
  after_results_simp
theorem s2_arg2 (c : Dev nD) : W2 m ρ c (Proc.devRef .tc main_arg2) = m ((c : Thread nD τ).loc main_arg2) :=
  (W2_of_ne m ρ c main_arg2 (by decide)).trans (s1_arg2 m ρ c)
theorem s3_arg2 (c : Dev nD) : W3 m ρ c (Proc.devRef .tc main_arg2) = m ((c : Thread nD τ).loc main_arg2) := by
  refine Eq.trans ?_ (s2_arg2 m ρ c)
  show StableHlo.after hostOps1 (W2 m ρ c) (Proc.devRef .tc main_arg2) = _
  dsimp only [hostOps1]
  after_results_simp
theorem s4_arg2 (c : Dev nD) : W4 m ρ c (Proc.devRef .tc main_arg2) = m ((c : Thread nD τ).loc main_arg2) :=
  (W4_of_ne m ρ c main_arg2 (by decide)).trans (s3_arg2 m ρ c)

/-! ### Argument 3 through the boundaries: no host operation writes it and it is no region's array -/
theorem s1_arg3 (c : Dev nD) : W1 m ρ c (Proc.devRef .tc main_arg3) = m ((c : Thread nD τ).loc main_arg3) := by
  show StableHlo.after hostOps0 (W0 m ρ c) (Proc.devRef .tc main_arg3) = _
  dsimp only [hostOps0]
  after_results_simp
theorem s2_arg3 (c : Dev nD) : W2 m ρ c (Proc.devRef .tc main_arg3) = m ((c : Thread nD τ).loc main_arg3) :=
  (W2_of_ne m ρ c main_arg3 (by decide)).trans (s1_arg3 m ρ c)
theorem s3_arg3 (c : Dev nD) : W3 m ρ c (Proc.devRef .tc main_arg3) = m ((c : Thread nD τ).loc main_arg3) := by
  refine Eq.trans ?_ (s2_arg3 m ρ c)
  show StableHlo.after hostOps1 (W2 m ρ c) (Proc.devRef .tc main_arg3) = _
  dsimp only [hostOps1]
  after_results_simp
theorem s4_arg3 (c : Dev nD) : W4 m ρ c (Proc.devRef .tc main_arg3) = m ((c : Thread nD τ).loc main_arg3) :=
  (W4_of_ne m ρ c main_arg3 (by decide)).trans (s3_arg3 m ρ c)

/-! ### Argument 4 through the boundaries: no host operation writes it and it is no region's array -/
theorem s1_arg4 (c : Dev nD) : W1 m ρ c (Proc.devRef .tc main_arg4) = m ((c : Thread nD τ).loc main_arg4) := by
  show StableHlo.after hostOps0 (W0 m ρ c) (Proc.devRef .tc main_arg4) = _
  dsimp only [hostOps0]
  after_results_simp
theorem s2_arg4 (c : Dev nD) : W2 m ρ c (Proc.devRef .tc main_arg4) = m ((c : Thread nD τ).loc main_arg4) :=
  (W2_of_ne m ρ c main_arg4 (by decide)).trans (s1_arg4 m ρ c)
theorem s3_arg4 (c : Dev nD) : W3 m ρ c (Proc.devRef .tc main_arg4) = m ((c : Thread nD τ).loc main_arg4) := by
  refine Eq.trans ?_ (s2_arg4 m ρ c)
  show StableHlo.after hostOps1 (W2 m ρ c) (Proc.devRef .tc main_arg4) = _
  dsimp only [hostOps1]
  after_results_simp
theorem s4_arg4 (c : Dev nD) : W4 m ρ c (Proc.devRef .tc main_arg4) = m ((c : Thread nD τ).loc main_arg4) :=
  (W4_of_ne m ρ c main_arg4 (by decide)).trans (s3_arg4 m ρ c)

/-! ### Argument 9 through the boundaries: no host operation writes it and it is no region's array -/
theorem s1_arg9 (c : Dev nD) : W1 m ρ c (Proc.devRef .tc main_arg9) = m ((c : Thread nD τ).loc main_arg9) := by
  show StableHlo.after hostOps0 (W0 m ρ c) (Proc.devRef .tc main_arg9) = _
  dsimp only [hostOps0]
  after_results_simp
theorem s2_arg9 (c : Dev nD) : W2 m ρ c (Proc.devRef .tc main_arg9) = m ((c : Thread nD τ).loc main_arg9) :=
  (W2_of_ne m ρ c main_arg9 (by decide)).trans (s1_arg9 m ρ c)
theorem s3_arg9 (c : Dev nD) : W3 m ρ c (Proc.devRef .tc main_arg9) = m ((c : Thread nD τ).loc main_arg9) := by
  refine Eq.trans ?_ (s2_arg9 m ρ c)
  show StableHlo.after hostOps1 (W2 m ρ c) (Proc.devRef .tc main_arg9) = _
  dsimp only [hostOps1]
  after_results_simp
theorem s4_arg9 (c : Dev nD) : W4 m ρ c (Proc.devRef .tc main_arg9) = m ((c : Thread nD τ).loc main_arg9) :=
  (W4_of_ne m ρ c main_arg9 (by decide)).trans (s3_arg9 m ρ c)

/-! ### Argument 10 through the boundaries: no host operation writes it and it is no region's array -/
theorem s1_arg10 (c : Dev nD) : W1 m ρ c (Proc.devRef .tc main_arg10) = m ((c : Thread nD τ).loc main_arg10) := by
  show StableHlo.after hostOps0 (W0 m ρ c) (Proc.devRef .tc main_arg10) = _
  dsimp only [hostOps0]
  after_results_simp
theorem s2_arg10 (c : Dev nD) : W2 m ρ c (Proc.devRef .tc main_arg10) = m ((c : Thread nD τ).loc main_arg10) :=
  (W2_of_ne m ρ c main_arg10 (by decide)).trans (s1_arg10 m ρ c)
theorem s3_arg10 (c : Dev nD) : W3 m ρ c (Proc.devRef .tc main_arg10) = m ((c : Thread nD τ).loc main_arg10) := by
  refine Eq.trans ?_ (s2_arg10 m ρ c)
  show StableHlo.after hostOps1 (W2 m ρ c) (Proc.devRef .tc main_arg10) = _
  dsimp only [hostOps1]
  after_results_simp
theorem s4_arg10 (c : Dev nD) : W4 m ρ c (Proc.devRef .tc main_arg10) = m ((c : Thread nD τ).loc main_arg10) :=
  (W4_of_ne m ρ c main_arg10 (by decide)).trans (s3_arg10 m ρ c)

end Cert.KernelIdeal.Walk

end
-- ==== Proof.WalkScorerArgs.lean ====
/-
  The scorer's arguments (its two weight arrays, its two offsets, the four index vectors) are, at every
  boundary up to the exit of the third layer region, what the launch memory holds.
-/
import proofs.«100485_j40132174414143_2_alg».proof.Proof.Gen.KernelIdeal.Frame
import Idealize.ShloMosaic.Lib.StableHlo.Run

set_option maxRecDepth 16384

noncomputable section

namespace Cert.KernelIdeal.Walk

open Idealize.ShloMosaic Idealize.ShloMosaic.TcCoe Idealize.SL.Sem Idealize.ShloMosaic.StableHlo
open Cert.KernelIdeal Cert.KernelIdeal.Gen

variable {F : FTy → Type} [FloatOps F]
variable (m : (ℓ : Loc nD τ sig) → Buf (Elt F) ℓ) (ρ : Dev nD → PrngReg)

/-! ### Argument 5 through the boundaries: no host operation writes it and it is no region's array -/
theorem s1_arg5 (c : Dev nD) : W1 m ρ c (Proc.devRef .tc main_arg5) = m ((c : Thread nD τ).loc main_arg5) := by
  show StableHlo.after hostOps0 (W0 m ρ c) (Proc.devRef .tc main_arg5) = _
  dsimp only [hostOps0]
  after_results_simp
theorem s2_arg5 (c : Dev nD) : W2 m ρ c (Proc.devRef .tc main_arg5) = m ((c : Thread nD τ).loc main_arg5) :=
  (W2_of_ne m ρ c main_arg5 (by decide)).trans (s1_arg5 m ρ c)
theorem s3_arg5 (c : Dev nD) : W3 m ρ c (Proc.devRef .tc main_arg5) = m ((c : Thread nD τ).loc main_arg5) := by
  refine Eq.trans ?_ (s2_arg5 m ρ c)
  show StableHlo.after hostOps1 (W2 m ρ c) (Proc.devRef .tc main_arg5) = _
  dsimp only [hostOps1]
  after_results_simp
theorem s4_arg5 (c : Dev nD) : W4 m ρ c (Proc.devRef .tc main_arg5) = m ((c : Thread nD τ).loc main_arg5) :=
  (W4_of_ne m ρ c main_arg5 (by decide)).trans (s3_arg5 m ρ c)
theorem s5_arg5 (c : Dev nD) : W5 m ρ c (Proc.devRef .tc main_arg5) = m ((c : Thread nD τ).loc main_arg5) := by
  refine Eq.trans ?_ (s4_arg5 m ρ c)
  show StableHlo.after hostOps2 (W4 m ρ c) (Proc.devRef .tc main_arg5) = _
  dsimp only [hostOps2]
  after_results_simp
theorem s6_arg5 (c : Dev nD) : W6 m ρ c (Proc.devRef .tc main_arg5) = m ((c : Thread nD τ).loc main_arg5) :=
  (W6_of_ne m ρ c main_arg5 (by decide)).trans (s5_arg5 m ρ c)

/-! ### Argument 6 through the boundaries: no host operation writes it and it is no region's array -/
theorem s1_arg6 (c : Dev nD) : W1 m ρ c (Proc.devRef .tc main_arg6) = m ((c : Thread nD τ).loc main_arg6) := by
  show StableHlo.after hostOps0 (W0 m ρ c) (Proc.devRef .tc main_arg6) = _
  dsimp only [hostOps0]
  after_results_simp
theorem s2_arg6 (c : Dev nD) : W2 m ρ c (Proc.devRef .tc main_arg6) = m ((c : Thread nD τ).loc main_arg6) :=
  (W2_of_ne m ρ c main_arg6 (by decide)).trans (s1_arg6 m ρ c)
theorem s3_arg6 (c : Dev nD) : W3 m ρ c (Proc.devRef .tc main_arg6) = m ((c : Thread nD τ).loc main_arg6) := by
  refine Eq.trans ?_ (s2_arg6 m ρ c)
  show StableHlo.after hostOps1 (W2 m ρ c) (Proc.devRef .tc main_arg6) = _
  dsimp only [hostOps1]
  after_results_simp
theorem s4_arg6 (c : Dev nD) : W4 m ρ c (Proc.devRef .tc main_arg6) = m ((c : Thread nD τ).loc main_arg6) :=
  (W4_of_ne m ρ c main_arg6 (by decide)).trans (s3_arg6 m ρ c)
theorem s5_arg6 (c : Dev nD) : W5 m ρ c (Proc.devRef .tc main_arg6) = m ((c : Thread nD τ).loc main_arg6) := by
  refine Eq.trans ?_ (s4_arg6 m ρ c)
  show StableHlo.after hostOps2 (W4 m ρ c) (Proc.devRef .tc main_arg6) = _
  dsimp only [hostOps2]
  after_results_simp
theorem s6_arg6 (c : Dev nD) : W6 m ρ c (Proc.devRef .tc main_arg6) = m ((c : Thread nD τ).loc main_arg6) :=
  (W6_of_ne m ρ c main_arg6 (by decide)).trans (s5_arg6 m ρ c)

/-! ### Argument 7 through the boundaries: no host operation writes it and it is no region's array -/
theorem s1_arg7 (c : Dev nD) : W1 m ρ c (Proc.devRef .tc main_arg7) = m ((c : Thread nD τ).loc main_arg7) := by
  show StableHlo.after hostOps0 (W0 m ρ c) (Proc.devRef .tc main_arg7) = _
  dsimp only [hostOps0]
  after_results_simp
theorem s2_arg7 (c : Dev nD) : W2 m ρ c (Proc.devRef .tc main_arg7) = m ((c : Thread nD τ).loc main_arg7) :=
  (W2_of_ne m ρ c main_arg7 (by decide)).trans (s1_arg7 m ρ c)
theorem s3_arg7 (c : Dev nD) : W3 m ρ c (Proc.devRef .tc main_arg7) = m ((c : Thread nD τ).loc main_arg7) := by
  refine Eq.trans ?_ (s2_arg7 m ρ c)
  show StableHlo.after hostOps1 (W2 m ρ c) (Proc.devRef .tc main_arg7) = _
  dsimp only [hostOps1]
  after_results_simp
theorem s4_arg7 (c : Dev nD) : W4 m ρ c (Proc.devRef .tc main_arg7) = m ((c : Thread nD τ).loc main_arg7) :=
  (W4_of_ne m ρ c main_arg7 (by decide)).trans (s3_arg7 m ρ c)
theorem s5_arg7 (c : Dev nD) : W5 m ρ c (Proc.devRef .tc main_arg7) = m ((c : Thread nD τ).loc main_arg7) := by
  refine Eq.trans ?_ (s4_arg7 m ρ c)
  show StableHlo.after hostOps2 (W4 m ρ c) (Proc.devRef .tc main_arg7) = _
  dsimp only [hostOps2]
  after_results_simp
theorem s6_arg7 (c : Dev nD) : W6 m ρ c (Proc.devRef .tc main_arg7) = m ((c : Thread nD τ).loc main_arg7) :=
  (W6_of_ne m ρ c main_arg7 (by decide)).trans (s5_arg7 m ρ c)

/-! ### Argument 8 through the boundaries: no host operation writes it and it is no region's array -/
theorem s1_arg8 (c : Dev nD) : W1 m ρ c (Proc.devRef .tc main_arg8) = m ((c : Thread nD τ).loc main_arg8) := by
  show StableHlo.after hostOps0 (W0 m ρ c) (Proc.devRef .tc main_arg8) = _
  dsimp only [hostOps0]
  after_results_simp
theorem s2_arg8 (c : Dev nD) : W2 m ρ c (Proc.devRef .tc main_arg8) = m ((c : Thread nD τ).loc main_arg8) :=
  (W2_of_ne m ρ c main_arg8 (by decide)).trans (s1_arg8 m ρ c)
theorem s3_arg8 (c : Dev nD) : W3 m ρ c (Proc.devRef .tc main_arg8) = m ((c : Thread nD τ).loc main_arg8) := by
  refine Eq.trans ?_ (s2_arg8 m ρ c)
  show StableHlo.after hostOps1 (W2 m ρ c) (Proc.devRef .tc main_arg8) = _
  dsimp only [hostOps1]
  after_results_simp
theorem s4_arg8 (c : Dev nD) : W4 m ρ c (Proc.devRef .tc main_arg8) = m ((c : Thread nD τ).loc main_arg8) :=
  (W4_of_ne m ρ c main_arg8 (by decide)).trans (s3_arg8 m ρ c)
theorem s5_arg8 (c : Dev nD) : W5 m ρ c (Proc.devRef .tc main_arg8) = m ((c : Thread nD τ).loc main_arg8) := by
  refine Eq.trans ?_ (s4_arg8 m ρ c)
  show StableHlo.after hostOps2 (W4 m ρ c) (Proc.devRef .tc main_arg8) = _
  dsimp only [hostOps2]
  after_results_simp
theorem s6_arg8 (c : Dev nD) : W6 m ρ c (Proc.devRef .tc main_arg8) = m ((c : Thread nD τ).loc main_arg8) :=
  (W6_of_ne m ρ c main_arg8 (by decide)).trans (s5_arg8 m ρ c)

/-! ### Argument 11 through the boundaries: no host operation writes it and it is no region's array -/
theorem s1_arg11 (c : Dev nD) : W1 m ρ c (Proc.devRef .tc main_arg11) = m ((c : Thread nD τ).loc main_arg11) := by
  show StableHlo.after hostOps0 (W0 m ρ c) (Proc.devRef .tc main_arg11) = _
  dsimp only [hostOps0]
  after_results_simp
theorem s2_arg11 (c : Dev nD) : W2 m ρ c (Proc.devRef .tc main_arg11) = m ((c : Thread nD τ).loc main_arg11) :=
  (W2_of_ne m ρ c main_arg11 (by decide)).trans (s1_arg11 m ρ c)
theorem s3_arg11 (c : Dev nD) : W3 m ρ c (Proc.devRef .tc main_arg11) = m ((c : Thread nD τ).loc main_arg11) := by
  refine Eq.trans ?_ (s2_arg11 m ρ c)
  show StableHlo.after hostOps1 (W2 m ρ c) (Proc.devRef .tc main_arg11) = _
  dsimp only [hostOps1]
  after_results_simp
theorem s4_arg11 (c : Dev nD) : W4 m ρ c (Proc.devRef .tc main_arg11) = m ((c : Thread nD τ).loc main_arg11) :=
  (W4_of_ne m ρ c main_arg11 (by decide)).trans (s3_arg11 m ρ c)
theorem s5_arg11 (c : Dev nD) : W5 m ρ c (Proc.devRef .tc main_arg11) = m ((c : Thread nD τ).loc main_arg11) := by
  refine Eq.trans ?_ (s4_arg11 m ρ c)
  show StableHlo.after hostOps2 (W4 m ρ c) (Proc.devRef .tc main_arg11) = _
  dsimp only [hostOps2]
  after_results_simp
theorem s6_arg11 (c : Dev nD) : W6 m ρ c (Proc.devRef .tc main_arg11) = m ((c : Thread nD τ).loc main_arg11) :=
  (W6_of_ne m ρ c main_arg11 (by decide)).trans (s5_arg11 m ρ c)

/-! ### Argument 12 through the boundaries: no host operation writes it and it is no region's array -/
theorem s1_arg12 (c : Dev nD) : W1 m ρ c (Proc.devRef .tc main_arg12) = m ((c : Thread nD τ).loc main_arg12) := by
  show StableHlo.after hostOps0 (W0 m ρ c) (Proc.devRef .tc main_arg12) = _
  dsimp only [hostOps0]
  after_results_simp
theorem s2_arg12 (c : Dev nD) : W2 m ρ c (Proc.devRef .tc main_arg12) = m ((c : Thread nD τ).loc main_arg12) :=
  (W2_of_ne m ρ c main_arg12 (by decide)).trans (s1_arg12 m ρ c)
theorem s3_arg12 (c : Dev nD) : W3 m ρ c (Proc.devRef .tc main_arg12) = m ((c : Thread nD τ).loc main_arg12) := by
  refine Eq.trans ?_ (s2_arg12 m ρ c)
  show StableHlo.after hostOps1 (W2 m ρ c) (Proc.devRef .tc main_arg12) = _
  dsimp only [hostOps1]
  after_results_simp
theorem s4_arg12 (c : Dev nD) : W4 m ρ c (Proc.devRef .tc main_arg12) = m ((c : Thread nD τ).loc main_arg12) :=
  (W4_of_ne m ρ c main_arg12 (by decide)).trans (s3_arg12 m ρ c)
theorem s5_arg12 (c : Dev nD) : W5 m ρ c (Proc.devRef .tc main_arg12) = m ((c : Thread nD τ).loc main_arg12) := by
  refine Eq.trans ?_ (s4_arg12 m ρ c)
  show StableHlo.after hostOps2 (W4 m ρ c) (Proc.devRef .tc main_arg12) = _
  dsimp only [hostOps2]
  after_results_simp
theorem s6_arg12 (c : Dev nD) : W6 m ρ c (Proc.devRef .tc main_arg12) = m ((c : Thread nD τ).loc main_arg12) :=
  (W6_of_ne m ρ c main_arg12 (by decide)).trans (s5_arg12 m ρ c)

/-! ### Argument 13 through the boundaries: no host operation writes it and it is no region's array -/
theorem s1_arg13 (c : Dev nD) : W1 m ρ c (Proc.devRef .tc main_arg13) = m ((c : Thread nD τ).loc main_arg13) := by
  show StableHlo.after hostOps0 (W0 m ρ c) (Proc.devRef .tc main_arg13) = _
  dsimp only [hostOps0]
  after_results_simp
theorem s2_arg13 (c : Dev nD) : W2 m ρ c (Proc.devRef .tc main_arg13) = m ((c : Thread nD τ).loc main_arg13) :=
  (W2_of_ne m ρ c main_arg13 (by decide)).trans (s1_arg13 m ρ c)
theorem s3_arg13 (c : Dev nD) : W3 m ρ c (Proc.devRef .tc main_arg13) = m ((c : Thread nD τ).loc main_arg13) := by
  refine Eq.trans ?_ (s2_arg13 m ρ c)
  show StableHlo.after hostOps1 (W2 m ρ c) (Proc.devRef .tc main_arg13) = _
  dsimp only [hostOps1]
  after_results_simp
theorem s4_arg13 (c : Dev nD) : W4 m ρ c (Proc.devRef .tc main_arg13) = m ((c : Thread nD τ).loc main_arg13) :=
  (W4_of_ne m ρ c main_arg13 (by decide)).trans (s3_arg13 m ρ c)
theorem s5_arg13 (c : Dev nD) : W5 m ρ c (Proc.devRef .tc main_arg13) = m ((c : Thread nD τ).loc main_arg13) := by
  refine Eq.trans ?_ (s4_arg13 m ρ c)
  show StableHlo.after hostOps2 (W4 m ρ c) (Proc.devRef .tc main_arg13) = _
  dsimp only [hostOps2]
  after_results_simp
theorem s6_arg13 (c : Dev nD) : W6 m ρ c (Proc.devRef .tc main_arg13) = m ((c : Thread nD τ).loc main_arg13) :=
  (W6_of_ne m ρ c main_arg13 (by decide)).trans (s5_arg13 m ρ c)

/-! ### Argument 14 through the boundaries: no host operation writes it and it is no region's array -/
theorem s1_arg14 (c : Dev nD) : W1 m ρ c (Proc.devRef .tc main_arg14) = m ((c : Thread nD τ).loc main_arg14) := by
  show StableHlo.after hostOps0 (W0 m ρ c) (Proc.devRef .tc main_arg14) = _
  dsimp only [hostOps0]
  after_results_simp
theorem s2_arg14 (c : Dev nD) : W2 m ρ c (Proc.devRef .tc main_arg14) = m ((c : Thread nD τ).loc main_arg14) :=
  (W2_of_ne m ρ c main_arg14 (by decide)).trans (s1_arg14 m ρ c)
theorem s3_arg14 (c : Dev nD) : W3 m ρ c (Proc.devRef .tc main_arg14) = m ((c : Thread nD τ).loc main_arg14) := by
  refine Eq.trans ?_ (s2_arg14 m ρ c)
  show StableHlo.after hostOps1 (W2 m ρ c) (Proc.devRef .tc main_arg14) = _
  dsimp only [hostOps1]
  after_results_simp
theorem s4_arg14 (c : Dev nD) : W4 m ρ c (Proc.devRef .tc main_arg14) = m ((c : Thread nD τ).loc main_arg14) :=
  (W4_of_ne m ρ c main_arg14 (by decide)).trans (s3_arg14 m ρ c)
theorem s5_arg14 (c : Dev nD) : W5 m ρ c (Proc.devRef .tc main_arg14) = m ((c : Thread nD τ).loc main_arg14) := by
  refine Eq.trans ?_ (s4_arg14 m ρ c)
  show StableHlo.after hostOps2 (W4 m ρ c) (Proc.devRef .tc main_arg14) = _
  dsimp only [hostOps2]
  after_results_simp
theorem s6_arg14 (c : Dev nD) : W6 m ρ c (Proc.devRef .tc main_arg14) = m ((c : Thread nD τ).loc main_arg14) :=
  (W6_of_ne m ρ c main_arg14 (by decide)).trans (s5_arg14 m ρ c)

end Cert.KernelIdeal.Walk

end
-- ==== Proof.Bridge.lean ====
/-
  The kernel's whole-array functions on the host-prepared operands are the specification's.

  A layer region, fed layer `l`'s slabs of the stacked weights, computes the specification's perceptron of
  layer `l` on every row of `h + a`. The scorer region, fed the rows gathered by the two fused index columns
  (positive pairs in the first half, negative pairs in the second) and the scorer's weights under their other
  shapes, computes in its first half the specification's scores of the positive pairs and in its second half
  those of the negative pairs.
-/
import proofs.«100485_j40132174414143_2_alg».proof.Proof.LayerBlock
import proofs.«100485_j40132174414143_2_alg».proof.Proof.ScoreBlock
import proofs.«100485_j40132174414143_2_alg».proof.Proof.HostAt
import proofs.«100485_j40132174414143_2_alg».proof.Proof.Spec

noncomputable section

namespace Cert.Gin.Bridge

open Idealize.ShloMosaic Idealize.ShloMosaic.ValueIdx Cert.KernelIdeal Cert.KernelIdeal.Blk Cert.KernelIdeal.Blk3
  Cert.Gin.HostAt

/-- The layer function on layer `l`'s slabs of the stacked weights is the perceptron of layer `l`. -/
theorem layerOf_eq (l : Nat) (hl : l < 3) (W1 : FVec Ideal S3x128x512 .f32) (b1 : FVec Ideal S3x512 .f32)
    (W2 : FVec Ideal S3x512x128 .f32) (b2 : FVec Ideal S3x128 .f32)
    (hs1 : S3x128x512.Slices ![l, 0, 0] S1x128x512) (hc1 : S1x128x512.ShapeCasts S128x512)
    (hs2 : S3x512.Slices ![l, 0] S1x512) (hc2 : S1x512.ShapeCasts S512) (hc2' : S512.ShapeCasts S1x512)
    (hs3 : S3x512x128.Slices ![l, 0, 0] S1x512x128) (hc3 : S1x512x128.ShapeCasts S512x128)
    (hs4 : S3x128.Slices ![l, 0] S1x128) (hc4 : S1x128.ShapeCasts S128) (hc4' : S128.ShapeCasts S1x128)
    (hlt : FTy.bits .bf16 < FTy.bits .f32) (h a : FVec Ideal S100000x128 .f32) :
    layerOf h a (truncf .bf16 (shapeCast S128x512 (extractStridedSlice S1x128x512 ![l, 0, 0] W1 hs1) hc1) hlt)
      (shapeCast S1x512 (shapeCast S512 (extractStridedSlice S1x512 ![l, 0] b1 hs2) hc2) hc2')
      (truncf .bf16 (shapeCast S512x128 (extractStridedSlice S1x512x128 ![l, 0, 0] W2 hs3) hc3) hlt)
      (shapeCast S1x128 (shapeCast S128 (extractStridedSlice S1x128 ![l, 0] b2 hs4) hc4) hc4')
    = Cert.Gin.mlp (⟨l, hl⟩ : Fin 3) W1 b1 W2 b2 h a := by
  funext j
  obtain ⟨n, q, rfl⟩ : ∃ (n : Fin 100000) (q : Fin 128), j = ix2 n q := ⟨j 0, j 1, eq_ix2 j⟩
  rw [layerOf_at _ _ _ _ _ _ (ix2 n q) n q rfl rfl, Cert.Gin.mlp_ix2]
  unfold Cert.Gin.mlpAt Cert.Gin.hidden
  simp only [w1_at l hl, b1_at l hl, w2_at l hl, b2_at l hl]

/-- The scorer function on the rows gathered by the two fused index columns and on the scorer's weights under
    the shapes the region reads them in. -/
abbrev scoreArr (H : FVec Ideal S100000x128 .f32) (Wp1 : FVec Ideal S128x64 .f32) (bp1 : FVec Ideal S64 .f32)
    (Wp2 : FVec Ideal S64x1 .f32) (bp2 : FVec Ideal S1 .f32) (ps pd ns nd : IVec S100000 32)
    (hcat : Shape.Concatenates [S100000, S100000] S200000 0)
    (hb0 : S_.BroadcastsInDim S200000 (![] : Fin 0 → Fin S200000.rank))
    (hb1 : S200000.BroadcastsInDim S200000x1 (![0] : Fin 1 → Fin S200000x1.rank))
    (hlt : FTy.bits .bf16 < FTy.bits .f32) (hc3 : S64.ShapeCasts S1x64) (hc4 : S64x1.ShapeCasts S1x64)
    (hc5 : S1.ShapeCasts S1x1) : FVec Ideal S200000x1 .f32 :=
  scoreOf
    (Host.gather gather_S100000x128_S200000x1_S200000x128_1_0_n_n_0_1_1128 H (fusedIdx ps ns hcat hb0 hb1))
    (Host.gather gather_S100000x128_S200000x1_S200000x128_1_0_n_n_0_1_1128 H (fusedIdx pd nd hcat hb0 hb1))
    (truncf .bf16 Wp1 hlt) (shapeCast S1x64 bp1 hc3) (shapeCast S1x64 Wp2 hc4) (shapeCast S1x1 bp2 hc5)

/-- The lower half of the scorer's column is the specification's scores of the first index pairs. -/
theorem score_lower (H : FVec Ideal S100000x128 .f32) (Wp1 : FVec Ideal S128x64 .f32) (bp1 : FVec Ideal S64 .f32)
    (Wp2 : FVec Ideal S64x1 .f32) (bp2 : FVec Ideal S1 .f32) (ps pd ns nd : IVec S100000 32)
    (hcat : Shape.Concatenates [S100000, S100000] S200000 0)
    (hb0 : S_.BroadcastsInDim S200000 (![] : Fin 0 → Fin S200000.rank))
    (hb1 : S200000.BroadcastsInDim S200000x1 (![0] : Fin 1 → Fin S200000x1.rank))
    (hlt : FTy.bits .bf16 < FTy.bits .f32) (hc3 : S64.ShapeCasts S1x64) (hc4 : S64x1.ShapeCasts S1x64)
    (hc5 : S1.ShapeCasts S1x1)
    (hs : S200000x1.Slices ![0, 0] S100000x1) :
    extractStridedSlice S100000x1 ![0, 0]
        (scoreArr H Wp1 bp1 Wp2 bp2 ps pd ns nd hcat hb0 hb1 hlt hc3 hc4 hc5) hs
      = Cert.Gin.predict H Wp1 bp1 Wp2 bp2 ps pd := by
  funext j
  obtain ⟨r, q, rfl⟩ : ∃ (r : Fin 100000) (q : Fin 1), j = ix2 r q := ⟨j 0, j 1, eq_ix2 j⟩
  obtain rfl : q = 0 := Subsingleton.elim _ _
  refine (lower_half _ r hs).trans ?_
  refine (scoreOf_at _ _ _ _ _ _ _ (⟨r.val, by omega⟩ : Fin 200000) rfl).trans ?_
  show _ = Cert.Gin.score Wp1 bp1 Wp2 bp2 (Cert.Gin.pick H (Cert.Gin.nrm (ps (ix1 r))))
    (Cert.Gin.pick H (Cert.Gin.nrm (pd (ix1 r))))
  unfold Cert.Gin.score Cert.Gin.zed
  simp only [gather200_apply, fused_left, truncf_apply, bp1_at, wp2_at, bp2_at]

/-- The upper half of the scorer's column is the specification's scores of the second index pairs. -/
theorem score_upper (H : FVec Ideal S100000x128 .f32) (Wp1 : FVec Ideal S128x64 .f32) (bp1 : FVec Ideal S64 .f32)
    (Wp2 : FVec Ideal S64x1 .f32) (bp2 : FVec Ideal S1 .f32) (ps pd ns nd : IVec S100000 32)
    (hcat : Shape.Concatenates [S100000, S100000] S200000 0)
    (hb0 : S_.BroadcastsInDim S200000 (![] : Fin 0 → Fin S200000.rank))
    (hb1 : S200000.BroadcastsInDim S200000x1 (![0] : Fin 1 → Fin S200000x1.rank))
    (hlt : FTy.bits .bf16 < FTy.bits .f32) (hc3 : S64.ShapeCasts S1x64) (hc4 : S64x1.ShapeCasts S1x64)
    (hc5 : S1.ShapeCasts S1x1)
    (hs : S200000x1.Slices ![100000, 0] S100000x1) :
    extractStridedSlice S100000x1 ![100000, 0]
        (scoreArr H Wp1 bp1 Wp2 bp2 ps pd ns nd hcat hb0 hb1 hlt hc3 hc4 hc5) hs
      = Cert.Gin.predict H Wp1 bp1 Wp2 bp2 ns nd := by
  funext j
  obtain ⟨r, q, rfl⟩ : ∃ (r : Fin 100000) (q : Fin 1), j = ix2 r q := ⟨j 0, j 1, eq_ix2 j⟩
  obtain rfl : q = 0 := Subsingleton.elim _ _
  refine (upper_half _ r hs).trans ?_
  refine (scoreOf_at _ _ _ _ _ _ _ (⟨100000 + r.val, by omega⟩ : Fin 200000) rfl).trans ?_
  show _ = Cert.Gin.score Wp1 bp1 Wp2 bp2 (Cert.Gin.pick H (Cert.Gin.nrm (ns (ix1 r))))
    (Cert.Gin.pick H (Cert.Gin.nrm (nd (ix1 r))))
  unfold Cert.Gin.score Cert.Gin.zed
  simp only [gather200_apply, fused_right, truncf_apply, bp1_at, wp2_at, bp2_at]

end Cert.Gin.Bridge

end
-- ==== Proof.Chain.lean ====
/-
  The idealized kernel's three results as the specification of the launch memory.

  Layer by layer: the array a layer region leaves is `layerOf` of the six arrays it found (the region modules);
  those six are host terms of the previous boundary (the read modules): the previous layer's output, its
  neighbour sums, and the layer's slice of each weight and bias stack; the arguments are untouched on the way
  (the walk modules); and `layerOf` of those terms is the specification's `layer` (the bridge). The scorer's
  region likewise leaves `scoreOf` of two row gathers along the fused index vectors and of the re-laid scorer
  weights, whose lower and upper halves are the specification's `predict` on the positive and on the negative
  index pairs.
-/
import proofs.«100485_j40132174414143_2_alg».proof.Proof.Region0
import proofs.«100485_j40132174414143_2_alg».proof.Proof.Region1
import proofs.«100485_j40132174414143_2_alg».proof.Proof.Region2
import proofs.«100485_j40132174414143_2_alg».proof.Proof.Region3
import proofs.«100485_j40132174414143_2_alg».proof.Proof.Reads0
import proofs.«100485_j40132174414143_2_alg».proof.Proof.Reads1
import proofs.«100485_j40132174414143_2_alg».proof.Proof.Reads2
import proofs.«100485_j40132174414143_2_alg».proof.Proof.Reads3
import proofs.«100485_j40132174414143_2_alg».proof.Proof.WalkLayerArgs
import proofs.«100485_j40132174414143_2_alg».proof.Proof.WalkScorerArgs
import proofs.«100485_j40132174414143_2_alg».proof.Proof.Bridge

set_option maxRecDepth 16384

noncomputable section

namespace Cert.KernelIdeal.Chain

open Idealize.ShloMosaic Idealize.ShloMosaic.TcCoe Idealize.SL.Sem
open Cert.KernelIdeal Cert.KernelIdeal.Gen Cert.KernelIdeal.Reads Cert.KernelIdeal.Walk

variable (m : (ℓ : Loc nD τ sig) → Buf (Elt Ideal) ℓ) (ρ : Dev nD → PrngReg)

/-- The node features after one, two and three layers, of the launch memory. -/
abbrev feat1 (c : Dev nD) : FVec Ideal S100000x128 .f32 := Cert.Gin.layer 0 (m ((c : Thread nD τ).loc main_arg1)) (m ((c : Thread nD τ).loc main_arg2)) (m ((c : Thread nD τ).loc main_arg3)) (m ((c : Thread nD τ).loc main_arg4)) (m ((c : Thread nD τ).loc main_arg9)) (m ((c : Thread nD τ).loc main_arg10)) (m ((c : Thread nD τ).loc main_arg0))
abbrev feat2 (c : Dev nD) : FVec Ideal S100000x128 .f32 := Cert.Gin.layer 1 (m ((c : Thread nD τ).loc main_arg1)) (m ((c : Thread nD τ).loc main_arg2)) (m ((c : Thread nD τ).loc main_arg3)) (m ((c : Thread nD τ).loc main_arg4)) (m ((c : Thread nD τ).loc main_arg9)) (m ((c : Thread nD τ).loc main_arg10)) (feat1 m c)
abbrev feat3 (c : Dev nD) : FVec Ideal S100000x128 .f32 := Cert.Gin.layer 2 (m ((c : Thread nD τ).loc main_arg1)) (m ((c : Thread nD τ).loc main_arg2)) (m ((c : Thread nD τ).loc main_arg3)) (m ((c : Thread nD τ).loc main_arg4)) (m ((c : Thread nD τ).loc main_arg9)) (m ((c : Thread nD τ).loc main_arg10)) (feat2 m c)

/-- After region 0 its output array holds the first layer's features. -/
theorem out_layer0 (c : Dev nD) : W2 m ρ c (Proc.devRef .tc main_v24) = feat1 m c := by
  refine ((W2_arr m ρ c 6).trans (Blk.final0 (V1 m ρ) c)).trans ?_
  rw [e0_0 m ρ c, e0_1 m ρ c, e0_2 m ρ c, e0_3 m ρ c, e0_4 m ρ c, e0_5 m ρ c]
  exact Cert.Gin.Bridge.layerOf_eq 0 (by decide) _ _ _ _ _ _ _ _ _ _ _ _ _ _ _ _ _

/-- After region 1 its output array holds the second layer's features. -/
theorem out_layer1 (c : Dev nD) : W4 m ρ c (Proc.devRef .tc main_v49) = feat2 m c := by
  refine ((W4_arr m ρ c 6).trans (Blk.final1 (V3 m ρ) c)).trans ?_
  rw [e1_0 m ρ c, e1_1 m ρ c, e1_2 m ρ c, e1_3 m ρ c, e1_4 m ρ c, e1_5 m ρ c,
    out_layer0 m ρ c, s2_arg1 m ρ c, s2_arg2 m ρ c, s2_arg3 m ρ c, s2_arg4 m ρ c, s2_arg9 m ρ c, s2_arg10 m ρ c]
  exact Cert.Gin.Bridge.layerOf_eq 1 (by decide) _ _ _ _ _ _ _ _ _ _ _ _ _ _ _ _ _

/-- After region 2 its output array holds the third layer's features. -/
theorem out_layer2 (c : Dev nD) : W6 m ρ c (Proc.devRef .tc main_v74) = feat3 m c := by
  refine ((W6_arr m ρ c 6).trans (Blk.final2 (V5 m ρ) c)).trans ?_
  rw [e2_0 m ρ c, e2_1 m ρ c, e2_2 m ρ c, e2_3 m ρ c, e2_4 m ρ c, e2_5 m ρ c,
    out_layer1 m ρ c, s4_arg1 m ρ c, s4_arg2 m ρ c, s4_arg3 m ρ c, s4_arg4 m ρ c, s4_arg9 m ρ c, s4_arg10 m ρ c]
  exact Cert.Gin.Bridge.layerOf_eq 2 (by decide) _ _ _ _ _ _ _ _ _ _ _ _ _ _ _ _ _

/-- The third result: the features after the three layers. -/
theorem result_emb (c : Dev nD) : W9 m ρ c (Proc.devRef .tc main_v74)
    = Cert.Gin.embed (m ((c : Thread nD τ).loc main_arg1)) (m ((c : Thread nD τ).loc main_arg2)) (m ((c : Thread nD τ).loc main_arg3)) (m ((c : Thread nD τ).loc main_arg4)) (m ((c : Thread nD τ).loc main_arg9)) (m ((c : Thread nD τ).loc main_arg10)) (m ((c : Thread nD τ).loc main_arg0)) :=
  (e4_emb m ρ c).trans (out_layer2 m ρ c)

/-- After the scorer's region its output array holds the 200000 scores of the fused index pairs. -/
theorem out_scores (c : Dev nD) : W8 m ρ c (Proc.devRef .tc main_v95)
    = Blk3.scoreOf
        (Host.gather gather_S100000x128_S200000x1_S200000x128_1_0_n_n_0_1_1128 (feat3 m c)
          (Cert.Gin.HostAt.fusedIdx (m ((c : Thread nD τ).loc main_arg11)) (m ((c : Thread nD τ).loc main_arg13)) concatenates_S100000_S100000_S200000_d0 bcast_S_S200000 bcast_S200000_S200000x1_0))
        (Host.gather gather_S100000x128_S200000x1_S200000x128_1_0_n_n_0_1_1128 (feat3 m c)
          (Cert.Gin.HostAt.fusedIdx (m ((c : Thread nD τ).loc main_arg12)) (m ((c : Thread nD τ).loc main_arg14)) concatenates_S100000_S100000_S200000_d0 bcast_S_S200000 bcast_S200000_S200000x1_0))
        (truncf (F := Ideal) .bf16 (m ((c : Thread nD τ).loc main_arg5)) bitsLt_bf16_f32) (shapeCast S1x64 (m ((c : Thread nD τ).loc main_arg6)) shapeCasts_S64_S1x64)
        (shapeCast S1x64 (m ((c : Thread nD τ).loc main_arg7)) shapeCasts_S64x1_S1x64) (shapeCast S1x1 (m ((c : Thread nD τ).loc main_arg8)) shapeCasts_S1_S1x1) := by
  refine ((W8_arr m ρ c 6).trans (Blk3.final3 (V7 m ρ) c)).trans ?_
  rw [e3_0 m ρ c, e3_1 m ρ c, e3_2 m ρ c, e3_3 m ρ c, e3_4 m ρ c, e3_5 m ρ c, out_layer2 m ρ c,
    s6_arg5 m ρ c, s6_arg6 m ρ c, s6_arg7 m ρ c, s6_arg8 m ρ c, s6_arg11 m ρ c, s6_arg12 m ρ c, s6_arg13 m ρ c, s6_arg14 m ρ c]

/-- The first result: the scores of the positive index pairs. -/
theorem result_pos (c : Dev nD) : W9 m ρ c (Proc.devRef .tc main_v96)
    = Cert.Gin.predict (Cert.Gin.embed (m ((c : Thread nD τ).loc main_arg1)) (m ((c : Thread nD τ).loc main_arg2)) (m ((c : Thread nD τ).loc main_arg3)) (m ((c : Thread nD τ).loc main_arg4)) (m ((c : Thread nD τ).loc main_arg9)) (m ((c : Thread nD τ).loc main_arg10)) (m ((c : Thread nD τ).loc main_arg0)))
        (m ((c : Thread nD τ).loc main_arg5)) (m ((c : Thread nD τ).loc main_arg6)) (m ((c : Thread nD τ).loc main_arg7)) (m ((c : Thread nD τ).loc main_arg8)) (m ((c : Thread nD τ).loc main_arg11)) (m ((c : Thread nD τ).loc main_arg12)) := by
  rw [e4_pos m ρ c, out_scores m ρ c]
  exact Cert.Gin.Bridge.score_lower _ _ _ _ _ _ _ _ _ _ _ _ _ _ _ _ _

/-- The second result: the scores of the negative index pairs. -/
theorem result_neg (c : Dev nD) : W9 m ρ c (Proc.devRef .tc main_v97)
    = Cert.Gin.predict (Cert.Gin.embed (m ((c : Thread nD τ).loc main_arg1)) (m ((c : Thread nD τ).loc main_arg2)) (m ((c : Thread nD τ).loc main_arg3)) (m ((c : Thread nD τ).loc main_arg4)) (m ((c : Thread nD τ).loc main_arg9)) (m ((c : Thread nD τ).loc main_arg10)) (m ((c : Thread nD τ).loc main_arg0)))
        (m ((c : Thread nD τ).loc main_arg5)) (m ((c : Thread nD τ).loc main_arg6)) (m ((c : Thread nD τ).loc main_arg7)) (m ((c : Thread nD τ).loc main_arg8)) (m ((c : Thread nD τ).loc main_arg13)) (m ((c : Thread nD τ).loc main_arg14)) := by
  rw [e4_neg m ρ c, out_scores m ρ c]
  exact Cert.Gin.Bridge.score_upper _ _ _ _ _ _ _ _ _ _ _ _ _ _ _ _ _

end Cert.KernelIdeal.Chain

end
-- ==== Proof.RefIs.lean ====
/-
  The reference program computes the specification.

  Read stage by stage, the reference is: three times (node features plus neighbour sums, then two matrix
  layers each followed by a rectifier), then for each of two lists of index pairs the scorer on the picked
  rows. Each theorem below identifies one stage of the reference with the corresponding function of the
  specification, index by index: both sides have the same sums in the same order and the same factors in
  the same order, so only the layout operations (slices, reshapes, broadcasts) have to be read through.
-/
import proofs.«100485_j40132174414143_2_alg».proof.Proof.Spec
import proofs.«100485_j40132174414143_2_alg».proof.Proof.GatherRow
import proofs.«100485_j40132174414143_2_alg».proof.Proof.Gen.ReferenceIdeal.Read

noncomputable section

namespace Cert.Gin.Ref

open Idealize.ShloMosaic Idealize.ShloMosaic.ValueIdx Idealize.SL.Sem Cert.ReferenceIdeal Cert.ReferenceIdeal.Read

variable (x0 : (⟨S100000x128, .f32⟩ : BufTy).Contents (Elt Ideal))
  (x1 : (⟨S3x128x512, .f32⟩ : BufTy).Contents (Elt Ideal)) (x2 : (⟨S3x512, .f32⟩ : BufTy).Contents (Elt Ideal))
  (x3 : (⟨S3x512x128, .f32⟩ : BufTy).Contents (Elt Ideal)) (x4 : (⟨S3x128, .f32⟩ : BufTy).Contents (Elt Ideal))
  (x5 : (⟨S128x64, .f32⟩ : BufTy).Contents (Elt Ideal)) (x6 : (⟨S64, .f32⟩ : BufTy).Contents (Elt Ideal))
  (x7 : (⟨S64x1, .f32⟩ : BufTy).Contents (Elt Ideal)) (x8 : (⟨S1, .f32⟩ : BufTy).Contents (Elt Ideal))
  (x9 x10 : (⟨S1600000, .i32⟩ : BufTy).Contents (Elt Ideal))
  (x11 x12 x13 x14 : (⟨S100000, .i32⟩ : BufTy).Contents (Elt Ideal))

/-! ## Layer 0 -/

/-- The neighbour sum of layer 0 is the specification's: the same gather, the same scatter, on the same index
    arrays; the two programs' dimension records differ only in their side-condition proofs. -/
theorem agg0 : val_main_v9 (F := Ideal) x0 x9 x10 = Cert.Gin.agg x0 x9 x10 := by
  unfold val_main_v9 val_main_v8 val_main_v7 val_main_v6 val_main_v5 val_main_v4 val_main_v3
    val_main_v2 val_main_v1 val_main_v0 val_main_c val_main_c_0 val_main_cst Cert.Gin.agg
  rfl

/-- The first matrix of layer 0: the slice at 0 of the stacked matrices, reshaped. -/
theorem w1_0 (i : Fin 128) (k : Fin 512) : val_main_v12 (F := Ideal) x1 (ix2 i k) = x1 (ix3 (0 : Fin 3) i k) := by
  rw [val_main_v12_apply, val_main_v11_apply]
  refine congrArg x1 (funext fun a => Fin.ext (by
      match a with
      | ⟨0, _⟩ => rfl
      | ⟨1, _⟩ => have := i.isLt; have := k.isLt; show (i.val * 512 + k.val) / 512 % 128 = i.val; omega
      | ⟨2, _⟩ => have := i.isLt; have := k.isLt; show (i.val * 512 + k.val) % 512 = k.val; omega))

/-- The first offset vector of layer 0, broadcast along the rows. -/
theorem b1_0 (r : Fin 100000) (k : Fin 512) : val_main_v17 (F := Ideal) x2 (ix2 r k) = x2 (ix2 (0 : Fin 3) k) := by
  rw [val_main_v17_apply, val_main_v16_apply, val_main_v15_apply, val_main_v14_apply]
  refine congrArg x2 (funext fun a => Fin.ext (by
      match a with
      | ⟨0, _⟩ => rfl
      | ⟨1, _⟩ => have := k.isLt; show k.val % 512 = k.val; omega))

/-- The second matrix of layer 0. -/
theorem w2_0 (k : Fin 512) (q : Fin 128) : val_main_v21 (F := Ideal) x3 (ix2 k q) = x3 (ix3 (0 : Fin 3) k q) := by
  rw [val_main_v21_apply, val_main_v20_apply]
  refine congrArg x3 (funext fun a => Fin.ext (by
      match a with
      | ⟨0, _⟩ => rfl
      | ⟨1, _⟩ => have := k.isLt; have := q.isLt; show (k.val * 128 + q.val) / 128 % 512 = k.val; omega
      | ⟨2, _⟩ => have := k.isLt; have := q.isLt; show (k.val * 128 + q.val) % 128 = q.val; omega))

/-- The second offset vector of layer 0, broadcast along the rows. -/
theorem b2_0 (r : Fin 100000) (q : Fin 128) : val_main_v26 (F := Ideal) x4 (ix2 r q) = x4 (ix2 (0 : Fin 3) q) := by
  rw [val_main_v26_apply, val_main_v25_apply, val_main_v24_apply, val_main_v23_apply]
  refine congrArg x4 (funext fun a => Fin.ext (by
      match a with
      | ⟨0, _⟩ => rfl
      | ⟨1, _⟩ => have := q.isLt; show q.val % 128 = q.val; omega))

/-- The rectifiers of layer 0 compare with zero. -/
theorem zeroA0 (i : S100000x512.Idx) : val_main_call0_v0 (F := Ideal) i = 0 := by
  rw [val_main_call0_v0_apply, val_main_call0_cst_apply]
  exact Ideal.ofBits_zero_f32

theorem zeroB0 (i : S100000x128.Idx) : val_main_call1_v0 (F := Ideal) i = 0 := by
  rw [val_main_call1_v0_apply, val_main_call1_cst_apply]
  exact Ideal.ofBits_zero_f32

/-- Hidden unit `k` of row `r` in layer 0. -/
theorem hid0 (r : Fin 100000) (k : Fin 512) :
    val_main_v19 (F := Ideal) x0 x1 x2 x9 x10 (ix2 r k)
      = Cert.Gin.hidden 0 x1 x2 (fun i => x0 (ix2 r i) + Cert.Gin.agg x0 x9 x10 (ix2 r i)) k := by
  rw [val_main_v19_apply, val_main_v18_apply, val_main_v13_apply, b1_0, zeroA0]
  unfold Cert.Gin.hidden
  rw [Ideal.maximumf_def, Ideal.addf_def]
  refine congrArg (fun t => max (t + x2 (ix2 (0 : Fin 3) k)) 0) ?_
  refine Finset.sum_congr rfl fun i _ => ?_
  have hl : lidx_main_v13 (ix2 r k) i = ix2 r i := funext fun a => Fin.ext (by
      match a with
      | ⟨0, _⟩ => rfl
      | ⟨1, _⟩ => rfl)
  have hr : ridx_main_v13 (ix2 r k) i = ix2 i k := funext fun a => Fin.ext (by
      match a with
      | ⟨0, _⟩ => rfl
      | ⟨1, _⟩ => rfl)
  rw [hl, hr, w1_0, val_main_v10_apply, Ideal.addf_def, agg0]

/-! ## Layer 1 -/

/-- The neighbour sum of layer 1 is the specification's: the same gather, the same scatter, on the same index
    arrays; the two programs' dimension records differ only in their side-condition proofs. -/
theorem agg1 : val_main_v38 (F := Ideal) x0 x1 x2 x3 x4 x9 x10 = Cert.Gin.agg (val_main_v28 (F := Ideal) x0 x1 x2 x3 x4 x9 x10) x9 x10 := by
  unfold val_main_v38 val_main_v37 val_main_v36 val_main_v35 val_main_v34 val_main_v33 val_main_v32
    val_main_v31 val_main_v30 val_main_v29 val_main_c_1 val_main_c_2 val_main_cst_3 Cert.Gin.agg
  rfl

/-- The first matrix of layer 1: the slice at 1 of the stacked matrices, reshaped. -/
theorem w1_1 (i : Fin 128) (k : Fin 512) : val_main_v41 (F := Ideal) x1 (ix2 i k) = x1 (ix3 (1 : Fin 3) i k) := by
  rw [val_main_v41_apply, val_main_v40_apply]
  refine congrArg x1 (funext fun a => Fin.ext (by
      match a with
      | ⟨0, _⟩ => rfl
      | ⟨1, _⟩ => have := i.isLt; have := k.isLt; show (i.val * 512 + k.val) / 512 % 128 = i.val; omega
      | ⟨2, _⟩ => have := i.isLt; have := k.isLt; show (i.val * 512 + k.val) % 512 = k.val; omega))

/-- The first offset vector of layer 1, broadcast along the rows. -/
theorem b1_1 (r : Fin 100000) (k : Fin 512) : val_main_v46 (F := Ideal) x2 (ix2 r k) = x2 (ix2 (1 : Fin 3) k) := by
  rw [val_main_v46_apply, val_main_v45_apply, val_main_v44_apply, val_main_v43_apply]
  refine congrArg x2 (funext fun a => Fin.ext (by
      match a with
      | ⟨0, _⟩ => rfl
      | ⟨1, _⟩ => have := k.isLt; show k.val % 512 = k.val; omega))

/-- The second matrix of layer 1. -/
theorem w2_1 (k : Fin 512) (q : Fin 128) : val_main_v50 (F := Ideal) x3 (ix2 k q) = x3 (ix3 (1 : Fin 3) k q) := by
  rw [val_main_v50_apply, val_main_v49_apply]
  refine congrArg x3 (funext fun a => Fin.ext (by
      match a with
      | ⟨0, _⟩ => rfl
      | ⟨1, _⟩ => have := k.isLt; have := q.isLt; show (k.val * 128 + q.val) / 128 % 512 = k.val; omega
      | ⟨2, _⟩ => have := k.isLt; have := q.isLt; show (k.val * 128 + q.val) % 128 = q.val; omega))

/-- The second offset vector of layer 1, broadcast along the rows. -/
theorem b2_1 (r : Fin 100000) (q : Fin 128) : val_main_v55 (F := Ideal) x4 (ix2 r q) = x4 (ix2 (1 : Fin 3) q) := by
  rw [val_main_v55_apply, val_main_v54_apply, val_main_v53_apply, val_main_v52_apply]
  refine congrArg x4 (funext fun a => Fin.ext (by
      match a with
      | ⟨0, _⟩ => rfl
      | ⟨1, _⟩ => have := q.isLt; show q.val % 128 = q.val; omega))

/-- The rectifiers of layer 1 compare with zero. -/
theorem zeroA1 (i : S100000x512.Idx) : val_main_call2_v0 (F := Ideal) i = 0 := by
  rw [val_main_call2_v0_apply, val_main_call2_cst_apply]
  exact Ideal.ofBits_zero_f32

theorem zeroB1 (i : S100000x128.Idx) : val_main_call3_v0 (F := Ideal) i = 0 := by
  rw [val_main_call3_v0_apply, val_main_call3_cst_apply]
  exact Ideal.ofBits_zero_f32

/-- Hidden unit `k` of row `r` in layer 1. -/
theorem hid1 (r : Fin 100000) (k : Fin 512) :
    val_main_v48 (F := Ideal) x0 x1 x2 x3 x4 x9 x10 (ix2 r k)
      = Cert.Gin.hidden 1 x1 x2 (fun i => (val_main_v28 (F := Ideal) x0 x1 x2 x3 x4 x9 x10) (ix2 r i) + Cert.Gin.agg (val_main_v28 (F := Ideal) x0 x1 x2 x3 x4 x9 x10) x9 x10 (ix2 r i)) k := by
  rw [val_main_v48_apply, val_main_v47_apply, val_main_v42_apply, b1_1, zeroA1]
  unfold Cert.Gin.hidden
  rw [Ideal.maximumf_def, Ideal.addf_def]
  refine congrArg (fun t => max (t + x2 (ix2 (1 : Fin 3) k)) 0) ?_
  refine Finset.sum_congr rfl fun i _ => ?_
  have hl : lidx_main_v42 (ix2 r k) i = ix2 r i := funext fun a => Fin.ext (by
      match a with
      | ⟨0, _⟩ => rfl
      | ⟨1, _⟩ => rfl)
  have hr : ridx_main_v42 (ix2 r k) i = ix2 i k := funext fun a => Fin.ext (by
      match a with
      | ⟨0, _⟩ => rfl
      | ⟨1, _⟩ => rfl)
  rw [hl, hr, w1_1, val_main_v39_apply, Ideal.addf_def, agg1]

/-! ## Layer 2 -/

/-- The neighbour sum of layer 2 is the specification's: the same gather, the same scatter, on the same index
    arrays; the two programs' dimension records differ only in their side-condition proofs. -/
theorem agg2 : val_main_v67 (F := Ideal) x0 x1 x2 x3 x4 x9 x10 = Cert.Gin.agg (val_main_v57 (F := Ideal) x0 x1 x2 x3 x4 x9 x10) x9 x10 := by
  unfold val_main_v67 val_main_v66 val_main_v65 val_main_v64 val_main_v63 val_main_v62 val_main_v61
    val_main_v60 val_main_v59 val_main_v58 val_main_c_4 val_main_c_5 val_main_cst_6 Cert.Gin.agg
  rfl

/-- The first matrix of layer 2: the slice at 2 of the stacked matrices, reshaped. -/
theorem w1_2 (i : Fin 128) (k : Fin 512) : val_main_v70 (F := Ideal) x1 (ix2 i k) = x1 (ix3 (2 : Fin 3) i k) := by
  rw [val_main_v70_apply, val_main_v69_apply]
  refine congrArg x1 (funext fun a => Fin.ext (by
      match a with
      | ⟨0, _⟩ => rfl
      | ⟨1, _⟩ => have := i.isLt; have := k.isLt; show (i.val * 512 + k.val) / 512 % 128 = i.val; omega
      | ⟨2, _⟩ => have := i.isLt; have := k.isLt; show (i.val * 512 + k.val) % 512 = k.val; omega))

/-- The first offset vector of layer 2, broadcast along the rows. -/
theorem b1_2 (r : Fin 100000) (k : Fin 512) : val_main_v75 (F := Ideal) x2 (ix2 r k) = x2 (ix2 (2 : Fin 3) k) := by
  rw [val_main_v75_apply, val_main_v74_apply, val_main_v73_apply, val_main_v72_apply]
  refine congrArg x2 (funext fun a => Fin.ext (by
      match a with
      | ⟨0, _⟩ => rfl
      | ⟨1, _⟩ => have := k.isLt; show k.val % 512 = k.val; omega))

/-- The second matrix of layer 2. -/
theorem w2_2 (k : Fin 512) (q : Fin 128) : val_main_v79 (F := Ideal) x3 (ix2 k q) = x3 (ix3 (2 : Fin 3) k q) := by
  rw [val_main_v79_apply, val_main_v78_apply]
  refine congrArg x3 (funext fun a => Fin.ext (by
      match a with
      | ⟨0, _⟩ => rfl
      | ⟨1, _⟩ => have := k.isLt; have := q.isLt; show (k.val * 128 + q.val) / 128 % 512 = k.val; omega
      | ⟨2, _⟩ => have := k.isLt; have := q.isLt; show (k.val * 128 + q.val) % 128 = q.val; omega))

/-- The second offset vector of layer 2, broadcast along the rows. -/
theorem b2_2 (r : Fin 100000) (q : Fin 128) : val_main_v84 (F := Ideal) x4 (ix2 r q) = x4 (ix2 (2 : Fin 3) q) := by
  rw [val_main_v84_apply, val_main_v83_apply, val_main_v82_apply, val_main_v81_apply]
  refine congrArg x4 (funext fun a => Fin.ext (by
      match a with
      | ⟨0, _⟩ => rfl
      | ⟨1, _⟩ => have := q.isLt; show q.val % 128 = q.val; omega))

/-- The rectifiers of layer 2 compare with zero. -/
theorem zeroA2 (i : S100000x512.Idx) : val_main_call4_v0 (F := Ideal) i = 0 := by
  rw [val_main_call4_v0_apply, val_main_call4_cst_apply]
  exact Ideal.ofBits_zero_f32

theorem zeroB2 (i : S100000x128.Idx) : val_main_call5_v0 (F := Ideal) i = 0 := by
  rw [val_main_call5_v0_apply, val_main_call5_cst_apply]
  exact Ideal.ofBits_zero_f32

/-- Hidden unit `k` of row `r` in layer 2. -/
theorem hid2 (r : Fin 100000) (k : Fin 512) :
    val_main_v77 (F := Ideal) x0 x1 x2 x3 x4 x9 x10 (ix2 r k)
      = Cert.Gin.hidden 2 x1 x2 (fun i => (val_main_v57 (F := Ideal) x0 x1 x2 x3 x4 x9 x10) (ix2 r i) + Cert.Gin.agg (val_main_v57 (F := Ideal) x0 x1 x2 x3 x4 x9 x10) x9 x10 (ix2 r i)) k := by
  rw [val_main_v77_apply, val_main_v76_apply, val_main_v71_apply, b1_2, zeroA2]
  unfold Cert.Gin.hidden
  rw [Ideal.maximumf_def, Ideal.addf_def]
  refine congrArg (fun t => max (t + x2 (ix2 (2 : Fin 3) k)) 0) ?_
  refine Finset.sum_congr rfl fun i _ => ?_
  have hl : lidx_main_v71 (ix2 r k) i = ix2 r i := funext fun a => Fin.ext (by
      match a with
      | ⟨0, _⟩ => rfl
      | ⟨1, _⟩ => rfl)
  have hr : ridx_main_v71 (ix2 r k) i = ix2 i k := funext fun a => Fin.ext (by
      match a with
      | ⟨0, _⟩ => rfl
      | ⟨1, _⟩ => rfl)
  rw [hl, hr, w1_2, val_main_v68_apply, Ideal.addf_def, agg2]

/-! ## The row gather of the scorer -/

/-- The scorer's gather picks, for pair `r`, the row named by the index word, read signed and clamped. -/
theorem gat (h : FVec Ideal S100000x128 .f32) (ids : IVec S100000x1 32) (r : Fin 100000) (i : Fin 128) :
    Host.gather gather_S100000x128_S100000x1_S100000x128_1_0_n_n_0_1_1128 h ids (ix2 r i)
      = h (ix2 (⟨min (ids (ix2 r (0 : Fin 1))).toInt.toNat (100000 - 1), by omega⟩ : Fin 100000) i) :=
  Cert.Gin.gather_row_apply Cert.ReferenceIdeal.Gen.gather_S100000x128_S100000x1_S100000x128_1_0_n_n_0_1_1128_wf h ids r i

/-- The same, with the index word named: the gathered row is the specification's `pick` at that word. -/
theorem gatPick (h : FVec Ideal S100000x128 .f32) (ids : IVec S100000x1 32) (r : Fin 100000) (i : Fin 128)
    (v : BitVec 32) (hv : ids (ix2 r (0 : Fin 1)) = v) :
    Host.gather gather_S100000x128_S100000x1_S100000x128_1_0_n_n_0_1_1128 h ids (ix2 r i) = Cert.Gin.pick h v i := by
  subst hv
  exact gat h ids r i

/-! ## The scorer on the first list of index pairs -/

/-- The index word the gather reads for pair `r`: the list's word, a negative one counted from the end. -/
theorem nrmSP (r : Fin 100000) : val_main_v92 (F := Ideal) x11 (ix2 r (0 : Fin 1)) = Cert.Gin.nrm (x11 (ix1 r)) := by
  have h : idx_main_v92 (ix2 r (0 : Fin 1)) = ix1 r := funext fun a => Fin.ext (by
      match a with
      | ⟨0, _⟩ => rfl)
  rw [val_main_v92_apply, h, val_main_v91_apply, val_main_v88_apply, val_main_v90_apply, val_main_v87_apply, val_main_v89_apply, val_main_c_7_apply, val_main_c_8_apply]
  rfl

/-- The index word the gather reads for pair `r`: the list's word, a negative one counted from the end. -/
theorem nrmDP (r : Fin 100000) : val_main_v99 (F := Ideal) x12 (ix2 r (0 : Fin 1)) = Cert.Gin.nrm (x12 (ix1 r)) := by
  have h : idx_main_v99 (ix2 r (0 : Fin 1)) = ix1 r := funext fun a => Fin.ext (by
      match a with
      | ⟨0, _⟩ => rfl)
  rw [val_main_v99_apply, h, val_main_v98_apply, val_main_v95_apply, val_main_v97_apply, val_main_v94_apply, val_main_v96_apply, val_main_c_9_apply, val_main_c_10_apply]
  rfl

/-- The scorer's first offset vector, broadcast along the rows. -/
theorem bias6P (r : Fin 100000) (k : Fin 64) : val_main_v104 (F := Ideal) x6 (ix2 r k) = x6 (ix1 k) := by
  rw [val_main_v104_apply, val_main_v103_apply]
  refine congrArg x6 (funext fun a => Fin.ext (by
      match a with
      | ⟨0, _⟩ => rfl))

/-- The scorer's final offset, broadcast along the rows. -/
theorem bias8P (r : Fin 100000) : val_main_v109 (F := Ideal) x8 (ix2 r (0 : Fin 1)) = x8 (ix1 (0 : Fin 1)) := by
  rw [val_main_v109_apply, val_main_v108_apply]
  refine congrArg x8 (funext fun a => Fin.ext (by
      match a with
      | ⟨0, _⟩ => rfl))

/-- The scorer's rectifier compares with zero. -/
theorem zeroCP (i : S100000x64.Idx) : val_main_call6_v0 (F := Ideal) i = 0 := by
  rw [val_main_call6_v0_apply, val_main_call6_cst_apply]
  exact Ideal.ofBits_zero_f32

/-- Hidden unit `k` of the scorer on pair `r`. -/
theorem zedP (r : Fin 100000) (k : Fin 64) :
    val_main_v106 (F := Ideal) x0 x1 x2 x3 x4 x5 x6 x9 x10 x11 x12 (ix2 r k)
      = Cert.Gin.zed x5 x6 (Cert.Gin.pick (val_main_v86 (F := Ideal) x0 x1 x2 x3 x4 x9 x10) (Cert.Gin.nrm (x11 (ix1 r))))
          (Cert.Gin.pick (val_main_v86 (F := Ideal) x0 x1 x2 x3 x4 x9 x10) (Cert.Gin.nrm (x12 (ix1 r)))) k := by
  rw [val_main_v106_apply, val_main_v105_apply, val_main_v102_apply, bias6P, zeroCP]
  unfold Cert.Gin.zed
  rw [Ideal.maximumf_def, Ideal.addf_def]
  refine congrArg (fun t => max (t + x6 (ix1 k)) 0) ?_
  refine Finset.sum_congr rfl fun i _ => ?_
  have hl : lidx_main_v102 (ix2 r k) i = ix2 r i := funext fun a => Fin.ext (by
      match a with
      | ⟨0, _⟩ => rfl
      | ⟨1, _⟩ => rfl)
  have hr : ridx_main_v102 (ix2 r k) i = ix2 i k := funext fun a => Fin.ext (by
      match a with
      | ⟨0, _⟩ => rfl
      | ⟨1, _⟩ => rfl)
  rw [hl, hr, val_main_v101_apply, Ideal.mulf_def]
  unfold val_main_v93 val_main_v100
  rw [gatPick _ _ r i _ (nrmSP x11 r), gatPick _ _ r i _ (nrmDP x12 r)]

/-! ## The scorer on the second list of index pairs -/

/-- The index word the gather reads for pair `r`: the list's word, a negative one counted from the end. -/
theorem nrmSN (r : Fin 100000) : val_main_v116 (F := Ideal) x13 (ix2 r (0 : Fin 1)) = Cert.Gin.nrm (x13 (ix1 r)) := by
  have h : idx_main_v116 (ix2 r (0 : Fin 1)) = ix1 r := funext fun a => Fin.ext (by
      match a with
      | ⟨0, _⟩ => rfl)
  rw [val_main_v116_apply, h, val_main_v115_apply, val_main_v112_apply, val_main_v114_apply, val_main_v111_apply, val_main_v113_apply, val_main_c_11_apply, val_main_c_12_apply]
  rfl

/-- The index word the gather reads for pair `r`: the list's word, a negative one counted from the end. -/
theorem nrmDN (r : Fin 100000) : val_main_v123 (F := Ideal) x14 (ix2 r (0 : Fin 1)) = Cert.Gin.nrm (x14 (ix1 r)) := by
  have h : idx_main_v123 (ix2 r (0 : Fin 1)) = ix1 r := funext fun a => Fin.ext (by
      match a with
      | ⟨0, _⟩ => rfl)
  rw [val_main_v123_apply, h, val_main_v122_apply, val_main_v119_apply, val_main_v121_apply, val_main_v118_apply, val_main_v120_apply, val_main_c_13_apply, val_main_c_14_apply]
  rfl

/-- The scorer's first offset vector, broadcast along the rows. -/
theorem bias6N (r : Fin 100000) (k : Fin 64) : val_main_v128 (F := Ideal) x6 (ix2 r k) = x6 (ix1 k) := by
  rw [val_main_v128_apply, val_main_v127_apply]
  refine congrArg x6 (funext fun a => Fin.ext (by
      match a with
      | ⟨0, _⟩ => rfl))

/-- The scorer's final offset, broadcast along the rows. -/
theorem bias8N (r : Fin 100000) : val_main_v133 (F := Ideal) x8 (ix2 r (0 : Fin 1)) = x8 (ix1 (0 : Fin 1)) := by
  rw [val_main_v133_apply, val_main_v132_apply]
  refine congrArg x8 (funext fun a => Fin.ext (by
      match a with
      | ⟨0, _⟩ => rfl))

/-- The scorer's rectifier compares with zero. -/
theorem zeroCN (i : S100000x64.Idx) : val_main_call7_v0 (F := Ideal) i = 0 := by
  rw [val_main_call7_v0_apply, val_main_call7_cst_apply]
  exact Ideal.ofBits_zero_f32

/-- Hidden unit `k` of the scorer on pair `r`. -/
theorem zedN (r : Fin 100000) (k : Fin 64) :
    val_main_v130 (F := Ideal) x0 x1 x2 x3 x4 x5 x6 x9 x10 x13 x14 (ix2 r k)
      = Cert.Gin.zed x5 x6 (Cert.Gin.pick (val_main_v86 (F := Ideal) x0 x1 x2 x3 x4 x9 x10) (Cert.Gin.nrm (x13 (ix1 r))))
          (Cert.Gin.pick (val_main_v86 (F := Ideal) x0 x1 x2 x3 x4 x9 x10) (Cert.Gin.nrm (x14 (ix1 r)))) k := by
  rw [val_main_v130_apply, val_main_v129_apply, val_main_v126_apply, bias6N, zeroCN]
  unfold Cert.Gin.zed
  rw [Ideal.maximumf_def, Ideal.addf_def]
  refine congrArg (fun t => max (t + x6 (ix1 k)) 0) ?_
  refine Finset.sum_congr rfl fun i _ => ?_
  have hl : lidx_main_v126 (ix2 r k) i = ix2 r i := funext fun a => Fin.ext (by
      match a with
      | ⟨0, _⟩ => rfl
      | ⟨1, _⟩ => rfl)
  have hr : ridx_main_v126 (ix2 r k) i = ix2 i k := funext fun a => Fin.ext (by
      match a with
      | ⟨0, _⟩ => rfl
      | ⟨1, _⟩ => rfl)
  rw [hl, hr, val_main_v125_apply, Ideal.mulf_def]
  unfold val_main_v117 val_main_v124
  rw [gatPick _ _ r i _ (nrmSN x13 r), gatPick _ _ r i _ (nrmDN x14 r)]

/-- The first layer of the reference is the specification's layer 0 on the input features. -/
theorem layer0 : val_main_v28 (F := Ideal) x0 x1 x2 x3 x4 x9 x10 = Cert.Gin.layer 0 x1 x2 x3 x4 x9 x10 x0 := by
  funext j
  obtain ⟨r, q, rfl⟩ : ∃ (r : Fin 100000) (q : Fin 128), j = ix2 r q := ⟨_, _, eq_ix2 j⟩
  rw [Cert.Gin.layer, Cert.Gin.mlp_ix2]
  rw [val_main_v28_apply, val_main_v27_apply, val_main_v22_apply, b2_0, zeroB0]
  unfold Cert.Gin.mlpAt
  rw [Ideal.maximumf_def, Ideal.addf_def]
  refine congrArg (fun t => max (t + x4 (ix2 (0 : Fin 3) q)) 0) ?_
  refine Finset.sum_congr rfl fun k _ => ?_
  have hl : lidx_main_v22 (ix2 r q) k = ix2 r k := funext fun a => Fin.ext (by
      match a with
      | ⟨0, _⟩ => rfl
      | ⟨1, _⟩ => rfl)
  have hr : ridx_main_v22 (ix2 r q) k = ix2 k q := funext fun a => Fin.ext (by
      match a with
      | ⟨0, _⟩ => rfl
      | ⟨1, _⟩ => rfl)
  rw [hl, hr, w2_0, hid0]

/-- The second layer of the reference is the specification's layer 1 on the first layer's output. -/
theorem layer1 : val_main_v57 (F := Ideal) x0 x1 x2 x3 x4 x9 x10 = Cert.Gin.layer 1 x1 x2 x3 x4 x9 x10 (val_main_v28 (F := Ideal) x0 x1 x2 x3 x4 x9 x10) := by
  funext j
  obtain ⟨r, q, rfl⟩ : ∃ (r : Fin 100000) (q : Fin 128), j = ix2 r q := ⟨_, _, eq_ix2 j⟩
  rw [Cert.Gin.layer, Cert.Gin.mlp_ix2]
  rw [val_main_v57_apply, val_main_v56_apply, val_main_v51_apply, b2_1, zeroB1]
  unfold Cert.Gin.mlpAt
  rw [Ideal.maximumf_def, Ideal.addf_def]
  refine congrArg (fun t => max (t + x4 (ix2 (1 : Fin 3) q)) 0) ?_
  refine Finset.sum_congr rfl fun k _ => ?_
  have hl : lidx_main_v51 (ix2 r q) k = ix2 r k := funext fun a => Fin.ext (by
      match a with
      | ⟨0, _⟩ => rfl
      | ⟨1, _⟩ => rfl)
  have hr : ridx_main_v51 (ix2 r q) k = ix2 k q := funext fun a => Fin.ext (by
      match a with
      | ⟨0, _⟩ => rfl
      | ⟨1, _⟩ => rfl)
  rw [hl, hr, w2_1, hid1]

/-- The third layer of the reference is the specification's layer 2 on the second layer's output. -/
theorem layer2 : val_main_v86 (F := Ideal) x0 x1 x2 x3 x4 x9 x10 = Cert.Gin.layer 2 x1 x2 x3 x4 x9 x10 (val_main_v57 (F := Ideal) x0 x1 x2 x3 x4 x9 x10) := by
  funext j
  obtain ⟨r, q, rfl⟩ : ∃ (r : Fin 100000) (q : Fin 128), j = ix2 r q := ⟨_, _, eq_ix2 j⟩
  rw [Cert.Gin.layer, Cert.Gin.mlp_ix2]
  rw [val_main_v86_apply, val_main_v85_apply, val_main_v80_apply, b2_2, zeroB2]
  unfold Cert.Gin.mlpAt
  rw [Ideal.maximumf_def, Ideal.addf_def]
  refine congrArg (fun t => max (t + x4 (ix2 (2 : Fin 3) q)) 0) ?_
  refine Finset.sum_congr rfl fun k _ => ?_
  have hl : lidx_main_v80 (ix2 r q) k = ix2 r k := funext fun a => Fin.ext (by
      match a with
      | ⟨0, _⟩ => rfl
      | ⟨1, _⟩ => rfl)
  have hr : ridx_main_v80 (ix2 r q) k = ix2 k q := funext fun a => Fin.ext (by
      match a with
      | ⟨0, _⟩ => rfl
      | ⟨1, _⟩ => rfl)
  rw [hl, hr, w2_2, hid2]

/-- The reference's first score array is the specification's scorer on the first list of index pairs. -/
theorem pos : val_main_v110 (F := Ideal) x0 x1 x2 x3 x4 x5 x6 x7 x8 x9 x10 x11 x12 = Cert.Gin.predict (val_main_v86 (F := Ideal) x0 x1 x2 x3 x4 x9 x10) x5 x6 x7 x8 x11 x12 := by
  funext j
  obtain ⟨r, z, rfl⟩ : ∃ (r : Fin 100000) (z : Fin 1), j = ix2 r z := ⟨_, _, eq_ix2 j⟩
  obtain rfl : z = 0 := Subsingleton.elim _ _
  show _ = Cert.Gin.score x5 x6 x7 x8 (Cert.Gin.pick (val_main_v86 (F := Ideal) x0 x1 x2 x3 x4 x9 x10) (Cert.Gin.nrm (x11 (ix1 r))))
    (Cert.Gin.pick (val_main_v86 (F := Ideal) x0 x1 x2 x3 x4 x9 x10) (Cert.Gin.nrm (x12 (ix1 r))))
  rw [val_main_v110_apply, val_main_v107_apply, bias8P]
  unfold Cert.Gin.score
  rw [Ideal.addf_def]
  refine congrArg (fun t => t + x8 (ix1 (0 : Fin 1))) ?_
  refine Finset.sum_congr rfl fun k _ => ?_
  have hl : lidx_main_v107 (ix2 r (0 : Fin 1)) k = ix2 r k := funext fun a => Fin.ext (by
      match a with
      | ⟨0, _⟩ => rfl
      | ⟨1, _⟩ => rfl)
  have hr : ridx_main_v107 (ix2 r (0 : Fin 1)) k = ix2 k (0 : Fin 1) := funext fun a => Fin.ext (by
      match a with
      | ⟨0, _⟩ => rfl
      | ⟨1, _⟩ => rfl)
  rw [hl, hr, zedP]

/-- The reference's second score array is the specification's scorer on the second list of index pairs. -/
theorem neg : val_main_v134 (F := Ideal) x0 x1 x2 x3 x4 x5 x6 x7 x8 x9 x10 x13 x14 = Cert.Gin.predict (val_main_v86 (F := Ideal) x0 x1 x2 x3 x4 x9 x10) x5 x6 x7 x8 x13 x14 := by
  funext j
  obtain ⟨r, z, rfl⟩ : ∃ (r : Fin 100000) (z : Fin 1), j = ix2 r z := ⟨_, _, eq_ix2 j⟩
  obtain rfl : z = 0 := Subsingleton.elim _ _
  show _ = Cert.Gin.score x5 x6 x7 x8 (Cert.Gin.pick (val_main_v86 (F := Ideal) x0 x1 x2 x3 x4 x9 x10) (Cert.Gin.nrm (x13 (ix1 r))))
    (Cert.Gin.pick (val_main_v86 (F := Ideal) x0 x1 x2 x3 x4 x9 x10) (Cert.Gin.nrm (x14 (ix1 r))))
  rw [val_main_v134_apply, val_main_v131_apply, bias8N]
  unfold Cert.Gin.score
  rw [Ideal.addf_def]
  refine congrArg (fun t => t + x8 (ix1 (0 : Fin 1))) ?_
  refine Finset.sum_congr rfl fun k _ => ?_
  have hl : lidx_main_v131 (ix2 r (0 : Fin 1)) k = ix2 r k := funext fun a => Fin.ext (by
      match a with
      | ⟨0, _⟩ => rfl
      | ⟨1, _⟩ => rfl)
  have hr : ridx_main_v131 (ix2 r (0 : Fin 1)) k = ix2 k (0 : Fin 1) := funext fun a => Fin.ext (by
      match a with
      | ⟨0, _⟩ => rfl
      | ⟨1, _⟩ => rfl)
  rw [hl, hr, zedN]

/-- The run's node embeddings are the specification's three layers on the input features. -/
theorem out2 (m : (ℓ : Loc nD τ sig) → Buf (Elt Ideal) ℓ) (c : Dev nD) :
    Cert.ReferenceIdeal.Value.res_main_v86 (F := Ideal) m c = Cert.Gin.embed (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg9)) (m ((c.tc : Thread nD τ).loc main_arg10)) (m ((c.tc : Thread nD τ).loc main_arg0)) := by
  rw [val_main_v86_eq, layer2, layer1, layer0]
  rfl

/-- The run's first score array is the scorer on the embeddings and the first list of index pairs. -/
theorem out0 (m : (ℓ : Loc nD τ sig) → Buf (Elt Ideal) ℓ) (c : Dev nD) :
    Cert.ReferenceIdeal.Value.res_main_v110 (F := Ideal) m c
      = Cert.Gin.predict (Cert.Gin.embed (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg9)) (m ((c.tc : Thread nD τ).loc main_arg10)) (m ((c.tc : Thread nD τ).loc main_arg0)))
          (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg11)) (m ((c.tc : Thread nD τ).loc main_arg12)) := by
  rw [val_main_v110_eq, pos, layer2, layer1, layer0]
  rfl

/-- The run's second score array is the scorer on the embeddings and the second list of index pairs. -/
theorem out1 (m : (ℓ : Loc nD τ sig) → Buf (Elt Ideal) ℓ) (c : Dev nD) :
    Cert.ReferenceIdeal.Value.res_main_v134 (F := Ideal) m c
      = Cert.Gin.predict (Cert.Gin.embed (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg9)) (m ((c.tc : Thread nD τ).loc main_arg10)) (m ((c.tc : Thread nD τ).loc main_arg0)))
          (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg13)) (m ((c.tc : Thread nD τ).loc main_arg14)) := by
  rw [val_main_v134_eq, neg, layer2, layer1, layer0]
  rfl

end Cert.Gin.Ref

end
-- ==== Proof.lean ====
/-
  The proof of the certificate's five claims.

  Three frames: each of the three programs, from any launch memory with finite inputs, terminates without a
  fault and leaves its fifteen argument arrays as launched. For the two kernels this is their generated frame;
  for the reference it is its run, whose post also names the three results, with those dropped.

  The idealization rewrote no operation, so there is nothing for it to preserve.

  Equivalence on the extended reals: from launch memories that agree on the fifteen arguments, both the
  idealized kernel and the idealized reference end with the same three arrays, the specification of the launch
  memory (the graph network of three layers followed by the link scorer): the scores of the first list of index
  pairs, the scores of the second list, and the node embeddings. The kernel's results are read through its four
  regions and five host stretches, the reference's through its composed terms; the two specification terms
  differ only in which memory the arguments are read from, and the memories agree there.
-/
import proofs.«100485_j40132174414143_2_alg».proof.Defs
import proofs.«100485_j40132174414143_2_alg».proof.Proof.Gen.Kernel
import proofs.«100485_j40132174414143_2_alg».proof.Proof.Gen.Kernel.Skeleton
import proofs.«100485_j40132174414143_2_alg».proof.Proof.Gen.Kernel.Launch
import proofs.«100485_j40132174414143_2_alg».proof.Proof.Gen.Kernel.Points
import proofs.«100485_j40132174414143_2_alg».proof.Proof.Gen.Kernel.Frame
import proofs.«100485_j40132174414143_2_alg».proof.Proof.Gen.KernelIdeal
import proofs.«100485_j40132174414143_2_alg».proof.Proof.Gen.KernelIdeal.Skeleton
import proofs.«100485_j40132174414143_2_alg».proof.Proof.Gen.KernelIdeal.Launch
import proofs.«100485_j40132174414143_2_alg».proof.Proof.Gen.KernelIdeal.Points
import proofs.«100485_j40132174414143_2_alg».proof.Proof.Gen.KernelIdeal.Frame
import proofs.«100485_j40132174414143_2_alg».proof.Proof.Gen.ReferenceIdeal
import proofs.«100485_j40132174414143_2_alg».proof.Proof.Gen.Pre_finite_inputs
import proofs.«100485_j40132174414143_2_alg».proof.Proof.Gen.ReferenceIdeal.Run
import proofs.«100485_j40132174414143_2_alg».proof.Proof.Gen.ReferenceIdeal.Read
import proofs.«100485_j40132174414143_2_alg».proof.Proof.KernelRun
import proofs.«100485_j40132174414143_2_alg».proof.Proof.Chain
import proofs.«100485_j40132174414143_2_alg».proof.Proof.RefIs
import Idealize.ShloMosaic.Adequacy
import Idealize.ShloMosaic.Init

noncomputable section

namespace Cert.Proof.Claims

open Idealize.ShloMosaic Idealize.SL.Sem Cert.KernelIdeal

/-- Equal node features, weights and edge lists give equal embeddings. -/
theorem embed_congr {W1 W1' : FVec Ideal S3x128x512 .f32} {b1 b1' : FVec Ideal S3x512 .f32}
    {W2 W2' : FVec Ideal S3x512x128 .f32} {b2 b2' : FVec Ideal S3x128 .f32} {es es' ed ed' : IVec S1600000 32}
    {x x' : FVec Ideal S100000x128 .f32}
    (h0 : x' = x) (h1 : W1' = W1) (h2 : b1' = b1) (h3 : W2' = W2) (h4 : b2' = b2) (h9 : es' = es) (h10 : ed' = ed) :
    Cert.Gin.embed W1' b1' W2' b2' es' ed' x' = Cert.Gin.embed W1 b1 W2 b2 es ed x := by
  subst h0 h1 h2 h3 h4 h9 h10
  rfl

/-- Equal embeddings, scorer weights and index pairs give equal scores. -/
theorem predict_congr {E E' : FVec Ideal S100000x128 .f32} {Wp1 Wp1' : FVec Ideal S128x64 .f32}
    {bp1 bp1' : FVec Ideal S64 .f32} {Wp2 Wp2' : FVec Ideal S64x1 .f32} {bp2 bp2' : FVec Ideal S1 .f32}
    {s s' d d' : IVec S100000 32}
    (hE : E' = E) (h5 : Wp1' = Wp1) (h6 : bp1' = bp1) (h7 : Wp2' = Wp2) (h8 : bp2' = bp2) (hs : s' = s) (hd : d' = d) :
    Cert.Gin.predict E' Wp1' bp1' Wp2' bp2' s' d' = Cert.Gin.predict E Wp1 bp1 Wp2 bp2 s d := by
  subst hE h5 h6 h7 h8 hs hd
  rfl

/-- The bit-exact kernel runs and leaves its arguments as launched. -/
theorem frame_k : Cert.frame_Kernel := fun m ρ _ => Cert.Kernel.Gen.frame m ρ

/-- The idealized kernel runs and leaves its arguments as launched. -/
theorem frame_ki : Cert.frame_KernelIdeal := fun m ρ _ => Cert.KernelIdeal.Gen.frame m ρ

/-- The idealized reference runs and leaves its arguments as launched: its run with the three results dropped. -/
theorem frame_ri : Cert.frame_ReferenceIdeal := fun m ρ _ =>
  (θ_run Cert.ReferenceIdeal.defs _ _).mono (fun _ h c => (h c).2.2.2)
    (Cert.ReferenceIdeal.Value.run (F := Ideal) m ρ)

/-- The idealization rewrote no operation. -/
theorem preserves : Cert.preserves_Kernel_KernelIdeal := trivial

/-- On the extended reals both programs end with the specification of the launch memory in their results: the
    scores of the first index pairs, the scores of the second index pairs, and the embeddings after three layers.
    The kernel's run is read through its regions and host stretches, the reference's through its composed terms,
    and the two launch memories agree on the fifteen arguments. -/
theorem algebraic : Cert.algebraic_KernelIdeal_ReferenceIdeal := by
  intro m ρ m' ρ' _ hagree
  refine ⟨fun c => Cert.Gin.predict (Cert.Gin.embed (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg0)))
      (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)),
    fun c => Cert.Gin.predict (Cert.Gin.embed (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg0)))
      (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)),
    fun c => Cert.Gin.embed (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg0)), ?_, ?_⟩
  · exact (θ_run Cert.KernelIdeal.defs _ _).mono
      (fun _ h c => ⟨(h c).1.trans (Cert.KernelIdeal.Chain.result_pos m ρ c),
        (h c).2.1.trans (Cert.KernelIdeal.Chain.result_neg m ρ c),
        (h c).2.2.1.trans (Cert.KernelIdeal.Chain.result_emb m ρ c), (h c).2.2.2⟩)
      (Cert.KernelIdeal.RunV.run (F := Ideal) m ρ)
  · refine (θ_run Cert.ReferenceIdeal.defs _ _).mono
      (fun _ h c => ⟨(h c).1.trans ?_, (h c).2.1.trans ?_, (h c).2.2.1.trans ?_, (h c).2.2.2⟩)
      (Cert.ReferenceIdeal.Value.run (F := Ideal) m' ρ')
    · exact (Cert.Gin.Ref.out0 m' c).trans
        (predict_congr
          (embed_congr (hagree c).1 (hagree c).2.1 (hagree c).2.2.1 (hagree c).2.2.2.1 (hagree c).2.2.2.2.1 (hagree c).2.2.2.2.2.2.2.2.2.1 (hagree c).2.2.2.2.2.2.2.2.2.2.1)
          (hagree c).2.2.2.2.2.1 (hagree c).2.2.2.2.2.2.1 (hagree c).2.2.2.2.2.2.2.1 (hagree c).2.2.2.2.2.2.2.2.1 (hagree c).2.2.2.2.2.2.2.2.2.2.2.1 (hagree c).2.2.2.2.2.2.2.2.2.2.2.2.1)
    · exact (Cert.Gin.Ref.out1 m' c).trans
        (predict_congr
          (embed_congr (hagree c).1 (hagree c).2.1 (hagree c).2.2.1 (hagree c).2.2.2.1 (hagree c).2.2.2.2.1 (hagree c).2.2.2.2.2.2.2.2.2.1 (hagree c).2.2.2.2.2.2.2.2.2.2.1)
          (hagree c).2.2.2.2.2.1 (hagree c).2.2.2.2.2.2.1 (hagree c).2.2.2.2.2.2.2.1 (hagree c).2.2.2.2.2.2.2.2.1 (hagree c).2.2.2.2.2.2.2.2.2.2.2.2.2.1 (hagree c).2.2.2.2.2.2.2.2.2.2.2.2.2.2)
    · exact (Cert.Gin.Ref.out2 m' c).trans
        (embed_congr (hagree c).1 (hagree c).2.1 (hagree c).2.2.1 (hagree c).2.2.2.1 (hagree c).2.2.2.2.1 (hagree c).2.2.2.2.2.2.2.2.2.1 (hagree c).2.2.2.2.2.2.2.2.2.2.1)

end Cert.Proof.Claims

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
